-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S8192x4096_S4x2048x4096 : S8192x4096.ShapeCasts S4x2048x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 163
  | .vmem => 0
  | .smem => 0
  | _ => 0

abbrev hbmTy0_0 (i : Nat) : BufTy := match i % 128 with
  | 0 => ⟨S4x2048x4096, .f32⟩
  | 1 => ⟨S4096, .f32⟩
  | 2 => ⟨S4096, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S_, .i32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S4x2048x4096, .f32⟩
  | 17 => ⟨S4x2048x4096, .f32⟩
  | 18 => ⟨S4x2048x4096, .f32⟩
  | 19 => ⟨S_, .f32⟩
  | 20 => ⟨S_, .f32⟩
  | 21 => ⟨S_, .f32⟩
  | 22 => ⟨S_, .f32⟩
  | 23 => ⟨S4x2048, .f32⟩
  | 24 => ⟨S4x2048x1, .f32⟩
  | 25 => ⟨S4x2048x1, .f32⟩
  | 26 => ⟨S4x2048x1, .f32⟩
  | 27 => ⟨S_, .f32⟩
  | 28 => ⟨S_, .i1⟩
  | 29 => ⟨S_, .f32⟩
  | 30 => ⟨S_, .f32⟩
  | 31 => ⟨S4x2048x1, .f32⟩
  | 32 => ⟨S4x2048x1, .f32⟩
  | 33 => ⟨S4x2048x4096, .f32⟩
  | 34 => ⟨S4x2048x4096, .f32⟩
  | 35 => ⟨S_, .f32⟩
  | 36 => ⟨S4x2048x1, .f32⟩
  | 37 => ⟨S4x2048x1, .f32⟩
  | 38 => ⟨S4x2048x1, .f32⟩
  | 39 => ⟨S4x2048x4096, .f32⟩
  | 40 => ⟨S4x2048x4096, .f32⟩
  | 41 => ⟨S4x2048x4096, .f32⟩
  | 42 => ⟨S_, .f32⟩
  | 43 => ⟨S4x2048x4096, .f32⟩
  | 44 => ⟨S4x2048x4096, .i1⟩
  | 45 => ⟨S_, .f32⟩
  | 46 => ⟨S_, .f32⟩
  | 47 => ⟨S4x2048x4096, .f32⟩
  | 48 => ⟨S4x2048x4096, .f32⟩
  | 49 => ⟨S4x2048x4096, .f32⟩
  | 50 => ⟨S4x2048x4096, .f32⟩
  | 51 => ⟨S4x2048x4096, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S_, .f32⟩
  | 59 => ⟨S4x2048x4096, .f32⟩
  | 60 => ⟨S4x2048x4096, .f32⟩
  | 61 => ⟨S4x2048x4096, .f32⟩
  | 62 => ⟨S4x2048x4096, .f32⟩
  | 63 => ⟨S4x2048x4096, .f32⟩
  | 64 => ⟨S_, .f32⟩
  | 65 => ⟨S4x2048, .f32⟩
  | 66 => ⟨S4x2048x1, .f32⟩
  | 67 => ⟨S_, .f32⟩
  | 68 => ⟨S4x2048x1, .f32⟩
  | 69 => ⟨S4x2048x1, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1, .f32⟩
  | 77 => ⟨S_, .f32⟩
  | 78 => ⟨S4x2048, .f32⟩
  | 79 => ⟨S4x2048x1, .f32⟩
  | 80 => ⟨S_, .f32⟩
  | 81 => ⟨S4x2048x1, .f32⟩
  | 82 => ⟨S4x2048x1, .f32⟩
  | 83 => ⟨S4x2048x4096, .f32⟩
  | 84 => ⟨S4x2048x4096, .f32⟩
  | 85 => ⟨S4x2048x4096, .f32⟩
  | 86 => ⟨S_, .f32⟩
  | 87 => ⟨S4x2048x4096, .f32⟩
  | 88 => ⟨S4x2048x4096, .f32⟩
  | 89 => ⟨S4x2048x4096, .f32⟩
  | 90 => ⟨S4x2048x4096, .f32⟩
  | 91 => ⟨S_, .f32⟩
  | 92 => ⟨S4x2048x4096, .f32⟩
  | 93 => ⟨S4x2048x4096, .f32⟩
  | 94 => ⟨S4x2048x4096, .f32⟩
  | 95 => ⟨S4x2048x4096, .f32⟩
  | 96 => ⟨S4x2048x4096, .f32⟩
  | 97 => ⟨S4x2048x4096, .f32⟩
  | 98 => ⟨S_, .f32⟩
  | 99 => ⟨S4x2048, .f32⟩
  | 100 => ⟨S4x2048x1, .f32⟩
  | 101 => ⟨S_, .f32⟩
  | 102 => ⟨S4x2048x1, .f32⟩
  | 103 => ⟨S4x2048x1, .f32⟩
  | 104 => ⟨S_, .f32⟩
  | 105 => ⟨S4x2048x1, .f32⟩
  | 106 => ⟨S4x2048x1, .f32⟩
  | 107 => ⟨S4x2048x1, .f32⟩
  | 108 => ⟨S_, .f32⟩
  | 109 => ⟨S4x2048x1, .f32⟩
  | 110 => ⟨S4x2048x1, .f32⟩
  | 111 => ⟨S_, .f32⟩
  | 112 => ⟨S4x2048x1, .f32⟩
  | 113 => ⟨S4x2048x1, .f32⟩
  | 114 => ⟨S4x2048x1, .f32⟩
  | 115 => ⟨S_, .f32⟩
  | 116 => ⟨S4x2048x1, .f32⟩
  | 117 => ⟨S4x2048x1, .f32⟩
  | 118 => ⟨S4x2048x1, .f32⟩
  | 119 => ⟨S_, .f32⟩
  | 120 => ⟨S4x2048x1, .f32⟩
  | 121 => ⟨S4x2048x1, .f32⟩
  | 122 => ⟨S_, .f32⟩
  | 123 => ⟨S4x2048x1, .f32⟩
  | 124 => ⟨S4x2048x1, .f32⟩
  | 125 => ⟨S4x2048x4096, .f32⟩
  | 126 => ⟨S4x2048x4096, .f32⟩
  | 127 => ⟨S_, .f32⟩
  | _ => ⟨S4x2048x4096, .f32⟩

abbrev hbmTy0_1 (i : Nat) : BufTy := match i % 128 with
  | 0 => ⟨S4x2048x4096, .f32⟩
  | 1 => ⟨S4x2048x4096, .f32⟩
  | 2 => ⟨S4x2048x4096, .f32⟩
  | 3 => ⟨S_, .f32⟩
  | 4 => ⟨S4x2048x4096, .f32⟩
  | 5 => ⟨S4x2048x4096, .i1⟩
  | 6 => ⟨S_, .f32⟩
  | 7 => ⟨S_, .f32⟩
  | 8 => ⟨S4x2048x4096, .f32⟩
  | 9 => ⟨S4x2048x4096, .f32⟩
  | 10 => ⟨S_, .f32⟩
  | 11 => ⟨S4x2048x4096, .f32⟩
  | 12 => ⟨S4x2048x4096, .f32⟩
  | 13 => ⟨S4x2048x4096, .f32⟩
  | 14 => ⟨S4x2048x4096, .f32⟩
  | 15 => ⟨S_, .f32⟩
  | 16 => ⟨S4x2048x4096, .f32⟩
  | 17 => ⟨S4x2048x4096, .f32⟩
  | 18 => ⟨S4x2048x4096, .f32⟩
  | 19 => ⟨S_, .f32⟩
  | 20 => ⟨S4x2048x4096, .f32⟩
  | 21 => ⟨S4x2048x4096, .f32⟩
  | 22 => ⟨S4x2048x4096, .f32⟩
  | 23 => ⟨S4x2048x4096, .f32⟩
  | 24 => ⟨S4x2048x4096, .f32⟩
  | 25 => ⟨S_, .f32⟩
  | 26 => ⟨S4x2048x4096, .f32⟩
  | 27 => ⟨S4x2048x4096, .i1⟩
  | 28 => ⟨S4x2048x4096, .f32⟩
  | 29 => ⟨S1x1x4096, .f32⟩
  | 30 => ⟨S4x2048x4096, .f32⟩
  | 31 => ⟨S4x2048x4096, .f32⟩
  | 32 => ⟨S1x1x4096, .f32⟩
  | 33 => ⟨S4x2048x4096, .f32⟩
  | 34 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_cst_9 : Ref sig .tc := ⟨.hbm, 70, rfl⟩
abbrev main_v32 : Ref sig .tc := ⟨.hbm, 71, rfl⟩
abbrev main_v33 : Ref sig .tc := ⟨.hbm, 72, rfl⟩
abbrev main_cst_10 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_11 : Ref sig .tc := ⟨.hbm, 77, rfl⟩
abbrev main_v37 : Ref sig .tc := ⟨.hbm, 78, rfl⟩
abbrev main_v38 : Ref sig .tc := ⟨.hbm, 79, rfl⟩
abbrev main_cst_12 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_14 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_v55 : Ref sig .tc := ⟨.hbm, 100, rfl⟩
abbrev main_cst_16 : Ref sig .tc := ⟨.hbm, 101, rfl⟩
abbrev main_v56 : Ref sig .tc := ⟨.hbm, 102, rfl⟩
abbrev main_v57 : Ref sig .tc := ⟨.hbm, 103, rfl⟩
abbrev main_cst_17 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_18 : Ref sig .tc := ⟨.hbm, 108, rfl⟩
abbrev main_v61 : Ref sig .tc := ⟨.hbm, 109, rfl⟩
abbrev main_v62 : Ref sig .tc := ⟨.hbm, 110, rfl⟩
abbrev main_cst_19 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_20 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_21 : Ref sig .tc := ⟨.hbm, 119, rfl⟩
abbrev main_v69 : Ref sig .tc := ⟨.hbm, 120, rfl⟩
abbrev main_v70 : Ref sig .tc := ⟨.hbm, 121, rfl⟩
abbrev main_cst_22 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_23 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_24 : Ref sig .tc := ⟨.hbm, 131, rfl⟩
abbrev main_v78 : Ref sig .tc := ⟨.hbm, 132, rfl⟩
abbrev main_v79 : Ref sig .tc := ⟨.hbm, 133, rfl⟩
abbrev main_cst_25 : Ref sig .tc := ⟨.hbm, 134, rfl⟩
abbrev main_call2_v0 : Ref sig .tc := ⟨.hbm, 135, rfl⟩
abbrev main_call2_v1 : Ref sig .tc := ⟨.hbm, 136, rfl⟩
abbrev main_v80 : Ref sig .tc := ⟨.hbm, 137, rfl⟩
abbrev main_cst_26 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_27 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_28 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_29 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)

variable [Facts₀]

class Facts : Prop extends Facts₀ where

variable [Facts]
-- ==== Proof.Transform.lean ====
/-
  The row transform both programs compute, written once over the extended reals.

  A row `r : Fin 4096 → EReal` is standardised (`xs = (r - mean r) / sqrt (var r + ε)`), then sent through a
  power transform `sign(xs) · ((1 + |xs|)^e - 1) / e` whose exponent `e` comes from one Newton step on the row
  (first and second derivative means `g1`, `g2` of the log-likelihood in the exponent), with the logarithmic branch
  `sign(xs) · log(1 + |xs|)` where the exponent is within `√ε` of zero.  The two programs spell five
  ingredients differently, and each is a parameter (or a pair of definitions) here:
    · the mean of a row: `(∑ f) / N` against `(0 + ∑ f) / N`;
    · the sign with `0 ↦ 1`: `t ≥ 0 ? 1 : -1` against `sign t = 0 ? 1 : sign t`;
    · the standardisation: `(r - m) · rsqrt (E[r²] - m² + ε)` against `(r - m) / sqrt (E[(r - m)²] + ε)`;
    · the second-moment term of `g2`: `E[xs·d2] + E[d²] - E[d]²` against `E[xs·d2 + (d - E[d])²]`;
    · the power: `exp (e · log1p |xs|)` against `(1 + |xs|) ^ e`.
  Every float literal stays the word the programs print; only the laws between the two arrangements evaluate the few they must.
-/
import Idealize.ShloMosaic.PureOps
import Idealize.ShloMosaic.PureOps.Ideal
import Idealize.ShloMosaic.Lib.ValueIdx

noncomputable section

namespace Cert.PowerNorm

open Idealize.ShloMosaic

/-- A row of the last axis. -/
abbrev Row := Fin 4096 → EReal

/-! ## The literals, as printed -/
def c0 : EReal := Ideal.ofBits .f32 0x00000000#32     -- 0
def c1 : EReal := Ideal.ofBits .f32 0x3F800000#32     -- 1
def cm1 : EReal := Ideal.ofBits .f32 0xBF800000#32    -- -1
def c2 : EReal := Ideal.ofBits .f32 0x40000000#32     -- 2
def cHalf : EReal := Ideal.ofBits .f32 0x3F000000#32  -- 1/2
def cmHalf : EReal := Ideal.ofBits .f32 0xBF000000#32 -- -1/2
def cN : EReal := Ideal.ofBits .f32 0x45800000#32     -- 4096, the row length
def cEps : EReal := Ideal.ofBits .f32 0x3727C5AC#32   -- ε, the float nearest 1e-5
def cRt : EReal := Ideal.ofBits .f32 0x3B4F3E37#32    -- the float nearest √ε
def cNaN : EReal := Ideal.ofBits .f32 0x7FC00000#32   -- the variance's fallback for an empty row (never selected)
/-- The degrees-of-freedom correction of the variance, the integer 0 converted. -/
def ddof : EReal := (((0#32 : BitVec 32).toInt : ℝ) : EReal)

/-! ## Pointwise pieces -/
def absx (t : EReal) : EReal := max t (-t)
def l1p (t : EReal) : EReal := Ideal.log1p (absx t)
/-- `d = (1 + |t|) log(1 + |t|) - |t|`. -/
def dOf (t : EReal) : EReal := (c1 + absx t) * l1p t - absx t
/-- `p1 = (1 + |t|) log²(1 + |t|) - 2 d`. -/
def p1Of (t : EReal) : EReal := (c1 + absx t) * (l1p t * l1p t) - c2 * dOf t

/-- The sign with `0 ↦ 1`, as a comparison against zero. -/
def sgK (t : EReal) : EReal := Scalar.select (Ideal.cmp .oge t c0) c1 cm1
/-- The sign with `0 ↦ 1`, as `sign` patched at zero. -/
def sgR (t : EReal) : EReal := Scalar.select (Ideal.cmp .oeq (Ideal.sign t) c0) c1 (Ideal.sign t)

/-- The mean of a row, from the bare sum. -/
def meanK (f : Row) : EReal := Ideal.div (∑ k, f k) cN
/-- The mean of a row, from a sum started at the zero literal. -/
def meanR (f : Row) : EReal := Ideal.div (c0 + ∑ k, f k) cN

/-- `(1 + |t|)^e` as `exp (e · log(1 + |t|))`. -/
def pwK (t e : EReal) : EReal := Ideal.exp (e * l1p t)
/-- `(1 + |t|)^e` as a power. -/
def pwR (t e : EReal) : EReal := Ideal.pow (c1 + absx t) e

/-! ## The row statistics and the transform, over a mean `mn` and a sign `sg` -/
section
variable (mn : Row → EReal) (sg : EReal → EReal)

def s1 (xs : Row) : EReal := mn fun k => sg (xs k) * l1p (xs k)
def dvar (xs : Row) : EReal := c2 * mn fun k => xs k * dOf (xs k)
def g1 (xs : Row) : EReal := cHalf * dvar mn xs - s1 mn sg xs
def dmean (xs : Row) : EReal := mn fun k => dOf (xs k)
def d2Of (t : EReal) : EReal := sg t * p1Of t
/-- Half the second variance derivative, with the spread of `d` as `E[d²] - E[d]²`. -/
def m2K (xs : Row) : EReal :=
  mn (fun k => xs k * d2Of sg (xs k)) + mn (fun k => dOf (xs k) * dOf (xs k)) - dmean mn xs * dmean mn xs
/-- Half the second variance derivative, with the spread of `d` as `E[(d - E[d])²]` under one mean. -/
def m2R (xs : Row) : EReal :=
  mn fun k => xs k * d2Of sg (xs k) + (dOf (xs k) - dmean mn xs) * (dOf (xs k) - dmean mn xs)
def g2 (m2 : EReal) (xs : Row) : EReal := cmHalf * (dvar mn xs * dvar mn xs) + cHalf * (c2 * m2)
/-- `λ - 1` with `λ = 1 - g1 / (g2 + √ε)`. -/
def lm1 (m2 : EReal) (xs : Row) : EReal := (c1 - Ideal.div (g1 mn sg xs) (g2 mn m2 xs + cRt)) - c1
def eta (m2 : EReal) (xs : Row) (k : Fin 4096) : EReal := c1 + sg (xs k) * lm1 mn sg m2 xs
def expo (m2 : EReal) (xs : Row) (k : Fin 4096) : EReal := eta mn sg m2 xs k + sg (eta mn sg m2 xs k) * cRt
/-- The transformed entry: the logarithmic branch where `|η| ≤ √ε`, else `sg/e · ((1 + |xs|)^e - 1)`. -/
def tr (pw : EReal → EReal → EReal) (m2 : EReal) (xs : Row) (k : Fin 4096) : EReal :=
  Scalar.select (Ideal.cmp .ole (absx (eta mn sg m2 xs k)) cRt) (sg (xs k) * l1p (xs k))
    (Ideal.div (sg (xs k)) (expo mn sg m2 xs k) * (pw (xs k) (expo mn sg m2 xs k) - c1))
end

/-! ## The two standardisations -/
def xsK (r : Row) : Row := fun k =>
  (r k - meanK r) * Ideal.rsqrt ((meanK (fun j => r j * r j) - meanK r * meanK r) + cEps)
/-- The variance as the library function spells it: the centred squares' sum over `N - ddof`, guarded by `N - ddof > 0`. -/
def varR (r : Row) : EReal :=
  Scalar.select (Ideal.cmp .ogt (cN - ddof) c0)
    (Ideal.div (c0 + ∑ j, (r j - meanR r) * (r j - meanR r)) (cN - ddof)) cNaN
def xsR (r : Row) : Row := fun k => Ideal.div (r k - meanR r) (Ideal.sqrt (varR r + cEps))

/-! ## The two arrangements of the whole row transform -/
def rowK (r : Row) : Row := tr meanK sgK pwK (m2K meanK sgK (xsK r)) (xsK r)
def rowR (r : Row) : Row := tr meanR sgR pwR (m2R meanR sgR (xsR r)) (xsR r)

/-- The result array: the transformed row entry scaled by the weight and shifted by the bias of its column. -/
def G (x : (⟨3, ![4, 2048, 4096]⟩ : Shape).Idx → EReal) (w b : (⟨1, ![4096]⟩ : Shape).Idx → EReal) :
    (⟨3, ![4, 2048, 4096]⟩ : Shape).Idx → EReal := fun i =>
  rowK (fun k => x (ValueIdx.ix3 (i 0) (i 1) k)) (i 2) * w (ValueIdx.ix1 (i 2)) + b (ValueIdx.ix1 (i 2))

/-- The same array with each row transformed in the second arrangement. -/
def GR (x : (⟨3, ![4, 2048, 4096]⟩ : Shape).Idx → EReal) (w b : (⟨1, ![4096]⟩ : Shape).Idx → EReal) :
    (⟨3, ![4, 2048, 4096]⟩ : Shape).Idx → EReal := fun i =>
  rowR (fun k => x (ValueIdx.ix3 (i 0) (i 1) k)) (i 2) * w (ValueIdx.ix1 (i 2)) + b (ValueIdx.ix1 (i 2))

end Cert.PowerNorm

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.KernelRow.lean ====
/-
  The kernel body at one block, read at an index.

  A grid point holds a block of 128 consecutive rows, all 4096 columns of each.  Every reduction of the body runs along
  a row, so the entry the body stores at row `p`, column `q` of the block depends on row `p` of the input block only:
  it is the row transform `rowK` of that row at `q`, times the weight's entry `q`, plus the bias's entry `q`.
  The non-pointwise steps are three layout facts: a lane sum kept as a column reads the sum of its row, a column
  spread across the lanes reads its row's entry, and a one-row block spread down the rows reads its column's entry.
-/
import proofs.«141878_j5377299054673_2_alg».proof.Proof.Gen.KernelIdeal.Frame
import proofs.«141878_j5377299054673_2_alg».proof.Proof.Transform
import proofs.«141878_j5377299054673_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx Idealize.ShloMosaic.Keepdims
open Cert.PowerNorm

/-! ## Pointwise operations at an index (each by unfolding) -/

theorem rsqrt_apply (a : FVec Ideal S128x1 .f32) (i : S128x1.Idx) : rsqrt a i = Ideal.rsqrt (a i) := rfl
theorem absf_apply (a : FVec Ideal S128x4096 .f32) (i : S128x4096.Idx) : absf a i = max (a i) (-(a i)) := rfl
theorem log1p_apply (a : FVec Ideal S128x4096 .f32) (i : S128x4096.Idx) : log1p a i = Ideal.log1p (a i) := rfl
theorem exp_apply (a : FVec Ideal S128x4096 .f32) (i : S128x4096.Idx) : exp a i = Ideal.exp (a i) := rfl

/-! ## The three layout facts -/

/-- A lane sum kept as a column: entry `p` of the column is the sum of row `p`. -/
theorem rowSum_apply (v : FVec Ideal S128x4096 .f32) (h : S128x4096.Reduces [1] S128) (hφ : FKind.Formats .f32)
    (hacc : (0x00000000#32 : BitVec 32) = 0x00000000#32) (hc : S128.ShapeCasts S128x1) (p : Fin 128) (u : Fin 1) :
    shapeCast S128x1 (multiReduction .add [1] S128 v 0x00000000#32 h hφ hacc) hc (ix2 p u)
      = ∑ k : Fin 4096, v (ix2 p k) := by
  refine (shapeCast_a_a1_apply _ hc p u).trans ?_
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- A column spread across the lanes reads its row's entry. -/
theorem colSpread_apply (v : FVec Ideal S128x1 .f32) (h : S128x1.Broadcasts S128x4096) (p : Fin 128) (q : Fin 4096) :
    broadcastTo S128x4096 v h (ix2 p q) = v (ix2 p (0 : Fin 1)) :=
  broadcastTo_a1_ab_apply v h p q

/-- A one-row block spread down the rows reads its column's entry. -/
theorem rowSpread_apply (v : FVec Ideal S1x4096 .f32) (h : S1x4096.Broadcasts S128x4096) (p : Fin 128) (q : Fin 4096) :
    broadcastTo S128x4096 v h (ix2 p q) = v (ix2 (0 : Fin 1) q) :=
  broadcastTo_1b_ab_apply v h p q

/-! ## The body's values at row `p` of a block `x0` -/

/-- Row `p` of a block. -/
def rowOf (x0 : Vec Ideal S128x4096 .f32) (p : Fin 128) : Row := fun k => x0 (ix2 p k)

/-- The standardised entry. -/
theorem pay2_apply (x0 : Vec Ideal S128x4096 .f32) (p : Fin 128) (q : Fin 4096) :
    k0_pay2 (F := Ideal) x0 (ix2 p q) = xsK (rowOf x0 p) q := by
  unfold k0_pay2
  simp only [shapeCast_self, mulf_apply, subf_apply, addf_apply, divf_apply, broadcast_apply, rsqrt_apply,
    colSpread_apply]
  rw [rowSum_apply, rowSum_apply]
  rfl

/-- The sign of the standardised entry. -/
theorem pay3_apply (x0 : Vec Ideal S128x4096 .f32) (p : Fin 128) (q : Fin 4096) :
    k0_pay3 (F := Ideal) x0 (ix2 p q) = sgK (xsK (rowOf x0 p) q) := by
  unfold k0_pay3
  simp only [select_apply, cmpf_apply, broadcast_apply, pay2_apply]
  rfl

/-- Its absolute value. -/
theorem pay4_apply (x0 : Vec Ideal S128x4096 .f32) (p : Fin 128) (q : Fin 4096) :
    k0_pay4 (F := Ideal) x0 (ix2 p q) = absx (xsK (rowOf x0 p) q) := by
  unfold k0_pay4
  simp only [absf_apply, pay2_apply]
  rfl

/-- `log (1 + |xs|)`. -/
theorem pay5_apply (x0 : Vec Ideal S128x4096 .f32) (p : Fin 128) (q : Fin 4096) :
    k0_pay5 (F := Ideal) x0 (ix2 p q) = l1p (xsK (rowOf x0 p) q) := by
  unfold k0_pay5
  simp only [log1p_apply, pay4_apply]
  rfl

/-- The logarithmic branch `sign · log (1 + |xs|)`. -/
theorem pay6_apply (x0 : Vec Ideal S128x4096 .f32) (p : Fin 128) (q : Fin 4096) :
    k0_pay6 (F := Ideal) x0 (ix2 p q) = sgK (xsK (rowOf x0 p) q) * l1p (xsK (rowOf x0 p) q) := by
  unfold k0_pay6
  simp only [mulf_apply, pay3_apply, pay5_apply]

/-- `d`. -/
theorem pay8_apply (x0 : Vec Ideal S128x4096 .f32) (p : Fin 128) (q : Fin 4096) :
    k0_pay8 (F := Ideal) x0 (ix2 p q) = dOf (xsK (rowOf x0 p) q) := by
  unfold k0_pay8
  simp only [subf_apply, mulf_apply, addf_apply, broadcast_apply, pay4_apply, pay5_apply]
  rfl

/-- The row's mean of the logarithmic branch. -/
theorem pay7_apply (x0 : Vec Ideal S128x4096 .f32) (p : Fin 128) (u : Fin 1) :
    k0_pay7 (F := Ideal) x0 (ix2 p u) = s1 meanK sgK (xsK (rowOf x0 p)) := by
  unfold k0_pay7
  simp only [divf_apply, broadcast_apply]
  rw [rowSum_apply]
  simp only [pay6_apply]
  rfl

/-- The row's first variance derivative. -/
theorem pay9_apply (x0 : Vec Ideal S128x4096 .f32) (p : Fin 128) (u : Fin 1) :
    k0_pay9 (F := Ideal) x0 (ix2 p u) = dvar meanK (xsK (rowOf x0 p)) := by
  unfold k0_pay9
  simp only [mulf_apply, divf_apply, broadcast_apply]
  rw [rowSum_apply]
  simp only [mulf_apply, pay2_apply, pay8_apply]
  rfl

/-- `sign · (λ - 1)`: the Newton step of the row, spread over its entries. -/
theorem pay10_apply (x0 : Vec Ideal S128x4096 .f32) (p : Fin 128) (q : Fin 4096) :
    k0_pay10 (F := Ideal) (k0_pay2 x0) (k0_pay3 x0) (k0_pay4 x0) (k0_pay5 x0) (k0_pay7 x0) (k0_pay8 x0) (k0_pay9 x0) (ix2 p q)
      = sgK (xsK (rowOf x0 p) q)
          * lm1 meanK sgK (m2K meanK sgK (xsK (rowOf x0 p))) (xsK (rowOf x0 p)) := by
  unfold k0_pay10
  simp only [mulf_apply, subf_apply, addf_apply, divf_apply, broadcast_apply, colSpread_apply, pay3_apply, pay7_apply,
    pay9_apply]
  rw [rowSum_apply, rowSum_apply, rowSum_apply]
  simp only [mulf_apply, subf_apply, addf_apply, broadcast_apply, pay2_apply, pay3_apply, pay4_apply, pay5_apply,
    pay8_apply]
  rfl

/-- The stored entry: the transformed entry times the weight's, plus the bias's. -/
theorem pay1_apply (x0 : Vec Ideal S128x4096 .f32) (x1 x2 : Vec Ideal S1x4096 .f32) (p : Fin 128) (q : Fin 4096) :
    k0_pay1 (F := Ideal) (k0_pay3 x0) (k0_pay5 x0) (k0_pay6 x0)
        (k0_pay10 (k0_pay2 x0) (k0_pay3 x0) (k0_pay4 x0) (k0_pay5 x0) (k0_pay7 x0) (k0_pay8 x0) (k0_pay9 x0)) x1 x2 (ix2 p q)
      = rowK (rowOf x0 p) q * x1 (ix2 (0 : Fin 1) q) + x2 (ix2 (0 : Fin 1) q) := by
  unfold k0_pay1
  simp only [shapeCast_self, mulf_apply, subf_apply, addf_apply, divf_apply, broadcast_apply, select_apply, cmpf_apply,
    absf_apply, exp_apply, rowSpread_apply, pay3_apply, pay5_apply, pay6_apply, pay10_apply]
  rfl

/-- The offsets of a whole-block access. -/
theorem hz : (![0, 0] : Fin 2 → Nat) = fun _ => 0 := funext fun a => by fin_cases a <;> rfl

/-- What the body leaves in the output block, at row `p` and column `q`. -/
theorem out_apply (x0 : Vec Ideal S128x4096 .f32) (x1 x2 : Vec Ideal S1x4096 .f32) (p : Fin 128) (q : Fin 4096) :
    out0_3 (F := Ideal) x0 x1 x2 (ix2 p q)
      = rowK (rowOf x0 p) q * x1 (ix2 (0 : Fin 1) q) + x2 (ix2 (0 : Fin 1) q) := by
  unfold out0_3
  rw [View.canon_unit_zero hz]
  simp only [View.ld_unit_zero (S := S128x4096) hz, View.ld_unit_zero (S := S1x4096) hz]
  exact pay1_apply x0 x1 x2 p q

end Cert.KernelIdeal.RowValue

end
-- ==== Proof.KernelArray.lean ====
/-
  From blocks to the array.

  The region's arrays are the rows-by-columns views `[8192, 4096]` of the input, and `[1, 4096]` of the weight and the
  bias.  Grid point `t` works on rows `128 t … 128 t + 127`; what it writes back is that block of rows of ONE
  whole-array function `G2` — the transformed row, scaled and shifted column by column — because the body reads
  row `p` of its block only, which is row `128 t + p` of the array, and the one-row blocks of the weight and the bias
  are the same for every point.  The 64 blocks tile the 8192 rows, so the output array ends at `G2`.
-/
import proofs.«141878_j5377299054673_2_alg».proof.Proof.Gen.KernelIdeal.Frame
import proofs.«141878_j5377299054673_2_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.PowerNorm Cert.KernelIdeal.RowValue
open Idealize.ShloMosaic.Pipeline (Dat)

variable (m : (ℓ : Loc nD τ sig) → Buf (Elt Ideal) ℓ) (ρ : Dev nD → PrngReg)

/-- The output array as a function of the three arrays of the region: row `i 0` transformed, read at column `i 1`,
    times the weight's entry of that column, plus the bias's. -/
def G2 (x : S8192x4096.Idx → EReal) (w b : S1x4096.Idx → EReal) : S8192x4096.Idx → EReal := fun i =>
  rowK (fun k => x (ix2 (i 0) k)) (i 1) * w (ix2 (0 : Fin 1) (i 1)) + b (ix2 (0 : Fin 1) (i 1))

/-- The printed index maps over the grid: the input's and the output's blocks are block `t` of the rows, the weight's
    and the bias's the one block there is. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- One point's stored entry against `G2`: if the point's input block holds rows `128 T + p` of `x` and its weight and
    bias blocks are `w` and `b`, then what the body stores at `y` is `G2` at row `128 T + y 0`, column `y 1`. -/
theorem point_eq (x : S8192x4096.Idx → EReal) (w b : S1x4096.Idx → EReal)
    (b0 : Vec Ideal S128x4096 .f32) (b1 b2 : Vec Ideal S1x4096 .f32) (T : Nat)
    (h0 : ∀ (p : Fin 128) (k : Fin 4096) (r : Fin 8192), r.val = T * 128 + p.val → b0 (ix2 p k) = x (ix2 r k))
    (h1 : ∀ k : Fin 4096, b1 (ix2 (0 : Fin 1) k) = w (ix2 (0 : Fin 1) k))
    (h2 : ∀ k : Fin 4096, b2 (ix2 (0 : Fin 1) k) = b (ix2 (0 : Fin 1) k))
    (y : S128x4096.Idx) (i : S8192x4096.Idx) (hi0 : (i 0).val = T * 128 + (y 0).val) (hi1 : (i 1).val = (y 1).val) :
    out0_3 (F := Ideal) b0 b1 b2 y = G2 x w b i := by
  obtain ⟨p, q, rfl⟩ : ∃ (p : Fin 128) (q : Fin 4096), y = ix2 p q := ⟨y 0, y 1, eq_ix2 y⟩
  obtain ⟨r, s, rfl⟩ : ∃ (r : Fin 8192) (s : Fin 4096), i = ix2 r s := ⟨i 0, i 1, eq_ix2 i⟩
  have hr : r.val = T * 128 + p.val := hi0
  obtain rfl : s = q := Fin.ext hi1
  rw [out_apply, h1, h2]
  show rowK (rowOf b0 p) s * w (ix2 (0 : Fin 1) s) + b (ix2 (0 : Fin 1) s)
      = rowK (fun k => x (ix2 r k)) s * w (ix2 (0 : Fin 1) s) + b (ix2 (0 : Fin 1) s)
  have hrow : rowOf b0 p = fun k => x (ix2 r k) := funext fun k => h0 p k r hr
  rw [hrow]

/-! ## Each window's block at a point -/

/-- The input block at point `t` holds rows `128 t + p` of the array. -/
theorem iblk0_eq (c : Dev nD) (t : Fin cfg0.N) (p : Fin 128) (k : Fin 4096) (r : Fin 8192)
    (hr : r.val = t.val * 128 + p.val) : iblk m c 0 t (ix2 p k) = V m c main_v0 (ix2 r k) := by
  obtain ⟨e00, e01, -⟩ := idx_facts t
  show V m c main_v0 (((cfg0.win 0).blk t).view.emb (ix2 p k)) = V m c main_v0 (ix2 r k)
  refine congrArg (V m c main_v0) ?_
  funext a; apply Fin.ext
  match a with
  | ⟨0, _⟩ => show win0_0.index t (0 : Fin 2) * 128 + 1 * p.val = r.val; omega
  | ⟨1, _⟩ => show win0_0.index t (1 : Fin 2) * 4096 + 1 * k.val = k.val; omega

/-- The weight's block is the whole one-row array, at every point. -/
theorem iblk1_eq (c : Dev nD) (t : Fin cfg0.N) (k : Fin 4096) :
    iblk m c 1 t (ix2 (0 : Fin 1) k) = V m c main_v1 (ix2 (0 : Fin 1) k) := by
  obtain ⟨-, -, -, -, e10, e11, -⟩ := idx_facts t
  show V m c main_v1 (((cfg0.win 1).blk t).view.emb (ix2 (0 : Fin 1) k)) = V m c main_v1 (ix2 (0 : Fin 1) k)
  refine congrArg (V m c main_v1) ?_
  funext a; apply Fin.ext
  match a with
  | ⟨0, _⟩ => show win0_1.index t (0 : Fin 2) * 1 + 1 * 0 = 0; omega
  | ⟨1, _⟩ => show win0_1.index t (1 : Fin 2) * 4096 + 1 * k.val = k.val; omega

/-- So is the bias's. -/
theorem iblk2_eq (c : Dev nD) (t : Fin cfg0.N) (k : Fin 4096) :
    iblk m c 2 t (ix2 (0 : Fin 1) k) = V m c main_v2 (ix2 (0 : Fin 1) k) := by
  obtain ⟨-, -, -, -, -, -, e20, e21⟩ := idx_facts t
  show V m c main_v2 (((cfg0.win 2).blk t).view.emb (ix2 (0 : Fin 1) k)) = V m c main_v2 (ix2 (0 : Fin 1) k)
  refine congrArg (V m c main_v2) ?_
  funext a; apply Fin.ext
  match a with
  | ⟨0, _⟩ => show win0_2.index t (0 : Fin 2) * 1 + 1 * 0 = 0; omega
  | ⟨1, _⟩ => show win0_2.index t (1 : Fin 2) * 4096 + 1 * k.val = k.val; omega

/-! ## What a point writes back, the cover, the final array -/

/-- What point `t` writes back is block `t` of `G2` of the arrays as the region finds them. -/
theorem flushed_eq (c : Dev nD) (t : Fin cfg0.N) :
    (dats m 0 c).flushed 3 t
      = ((cfg0.win 3).blk t).view.read (Elt Ideal) (G2 (V m c main_v0) (V m c main_v1) (V m c main_v2)) := by
  show (cfg0.win 3).cut (grid0.coords t) ((dats m 0 c).after 3 t) = _
  rw [after0_3]
  obtain ⟨-, -, e30, e31, -⟩ := idx_facts t
  funext j
  show out0_3 (iblk m c 0 t) (iblk m c 1 t) (iblk m c 2 t) j
      = G2 (V m c main_v0) (V m c main_v1) (V m c main_v2) (((cfg0.win 3).blk t).view.emb j)
  refine point_eq (V m c main_v0) (V m c main_v1) (V m c main_v2) (iblk m c 0 t) (iblk m c 1 t) (iblk m c 2 t) t.val
    (fun p k r hr => iblk0_eq m c t p k r hr) (fun k => iblk1_eq m c t k) (fun k => iblk2_eq m c t k) j
    (((cfg0.win 3).blk t).view.emb j) ?_ ?_
  · show win0_3.index t (0 : Fin 2) * 128 + 1 * (j 0).val = t.val * 128 + (j 0).val; omega
  · show win0_3.index t (1 : Fin 2) * 4096 + 1 * (j 1).val = (j 1).val; omega

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v3).slice (win0_3.rect t)).set ↔ _
  rw [View.set_slice_whole, Rect.mem_set_unit]
  exact Iff.rfl

/-- Every row is in the block of the point `row / 128`: the 64 blocks tile the array. -/
theorem cover (i : S8192x4096.Idx) :
    ∃ t : Fin cfg0.N, (cfg0.win 3).flush t = true ∧ i ∈ ((cfg0.win 3).blk t).view.set := by
  have hN : grid0.N = 64 := Gen.N_0
  have hi0 : (i 0).val < 8192 := (i 0).isLt
  have hi1 : (i 1).val < 4096 := (i 1).isLt
  have hlt : (i 0).val / 128 < grid0.N := by rw [hN]; omega
  obtain ⟨-, -, e30, e31, -⟩ := idx_facts ⟨(i 0).val / 128, hlt⟩
  have e30' : win0_3.index ⟨(i 0).val / 128, hlt⟩ (0 : Fin 2) = (i 0).val / 128 := e30
  refine ⟨⟨(i 0).val / 128, hlt⟩, flush0_3 _, ?_⟩
  rw [mem_blk]
  intro a
  match a with
  | ⟨0, _⟩ =>
    show win0_3.index ⟨(i 0).val / 128, hlt⟩ (0 : Fin 2) * 128 ≤ (i 0).val
      ∧ (i 0).val < win0_3.index ⟨(i 0).val / 128, hlt⟩ (0 : Fin 2) * 128 + 128
    omega
  | ⟨1, _⟩ =>
    show win0_3.index ⟨(i 0).val / 128, hlt⟩ (1 : Fin 2) * 4096 ≤ (i 1).val
      ∧ (i 1).val < win0_3.index ⟨(i 0).val / 128, hlt⟩ (1 : Fin 2) * 4096 + 4096
    omega

/-- The output array after the region. -/
theorem final (c : Dev nD) :
    (dats m 0 c).arrAt 3 cfg0.N = G2 (V m c main_v0) (V m c main_v1) (V m c main_v2) :=
  (dats m 0 c).arrAt_eq_of_cover 3 (G2 (V m c main_v0) (V m c main_v1) (V m c main_v2))
    (fun t _ => flushed_eq m c t) cover

end Cert.KernelIdeal.ArrayValue

end
-- ==== Proof.LibRank3Layout.lean ====
/-
  A general lemma file: layout facts for rank-3 vectors read at an index. A vector with a unit axis spread along that axis
  reads its one entry there; a shorter vector recast with unit axes in front, behind or in the middle reads the entry with
  the same row-major position; a matrix [N, c] with N = a·b recast as [a, b, c] (and back) reads row p·b + q at (p, q);
  and a sum along the last axis, at the extended reals, is the sum over that axis's positions. General over the extents.
-/
import Idealize.ShloMosaic.Lib.Pipeline.Value
import Idealize.ShloMosaic.Lib.ValueIdx
import Idealize.ShloMosaic.PureOps.Ideal.Laws

namespace Idealize.ShloMosaic.Rank3Layout

open Idealize.ShloMosaic Idealize.ShloMosaic.ValueIdx

variable {α : Type}

/-- `[a, 1, c]` spread over `b` middle positions reads, at `(p, q, r)`, entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, b, c]` spread over `a` leading positions reads, at `(p, q, r)`, entry `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[1, 1, c]` spread over `a · b` leading positions reads, at `(p, q, r)`, entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` spread over `c` lanes reads, at `(p, q, r)`, entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` recast as `[1, 1, c]` reads, at `(u, u', r)`, entry `r`. -/
theorem shapeCast_c_11c_apply {c : ℕ} (x : (⟨1, ![c]⟩ : Shape).Idx → α) (h : (⟨1, ![c]⟩ : Shape).ShapeCasts ⟨3, ![1, 1, c]⟩)
    (u u' : Fin 1) (r : Fin c) : shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    rw [hu, hu']; simp)

/-- A matrix `[a, b]` recast as `[a, b, 1]` reads, at `(p, q, u)`, entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; simp)

/-- `[a, b, c]` recast as the matrix `[N, c]` of its `N = a · b` rows reads, at row `p · b + q`, entry `(p, q, ·)`. -/
theorem shapeCast_abc_Nc_apply {a b c N : ℕ} (x : (⟨3, ![a, b, c]⟩ : Shape).Idx → α) (h : (⟨3, ![a, b, c]⟩ : Shape).ShapeCasts ⟨2, ![N, c]⟩)
    (p : Fin a) (q : Fin b) (r : Fin c) (n : Fin N) (hn : n.val = p.val * b + q.val) :
    shapeCast ⟨2, ![N, c]⟩ x h (ix2 n r) = x (ix3 p q r) :=
  shapeCast_apply x h _ _ (by
    rw [Shape.rowMajor_val_three, Shape.rowMajor_val_two]
    show (p.val * b + q.val) * c + r.val = n.val * c + r.val
    rw [hn])

/-- The matrix `[N, c]` recast as `[a, b, c]` with `N = a · b` reads, at `(p, q, ·)`, row `p · b + q`. -/
theorem shapeCast_Nc_abc_apply {a b c N : ℕ} (x : (⟨2, ![N, c]⟩ : Shape).Idx → α) (h : (⟨2, ![N, c]⟩ : Shape).ShapeCasts ⟨3, ![a, b, c]⟩)
    (p : Fin a) (q : Fin b) (r : Fin c) (n : Fin N) (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A sum along the lanes of a matrix, at the extended reals, read at row `p`: the sum of the row's entries. -/
theorem laneSum2_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun d => Fin.ext ?_)
  rw [Shape.Reduces.lift_val]
  match d with
  | ⟨0, _⟩ => rfl
  | ⟨1, _⟩ => rfl

/-- A sum along the last axis of a rank-3 vector, at the extended reals, read at `(p, q)`: the sum of that fibre's entries. -/
theorem laneSum3_apply {a b c : ℕ} (src : FVec Ideal ⟨3, ![a, b, c]⟩ .f32) (h : (⟨3, ![a, b, c]⟩ : Shape).Reduces [(2 : Fin 3)] ⟨2, ![a, b]⟩)
    (hφ : FKind.Formats .f32) (hacc : (0x00000000#32 : BitVec 32) = FKind.add.neutral .f32 hφ) (p : Fin a) (q : Fin b) :
    multiReduction .add [(2 : Fin 3)] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

end Idealize.ShloMosaic.Rank3Layout
-- ==== Proof.KernelValue.lean ====
/-
  The kernel's result array as one function of its arguments.

  Around the region the host only recasts: the input `[4, 2048, 4096]` to its `8192` rows, the weight and the bias
  `[4096]` to one row each, and the region's output back to `[4, 2048, 4096]`.  Row `a · 2048 + s` of the recast input is
  the row `(a, s, ·)` of the input, so the result at `(a, s, k)` is the transformed row `(a, s)` at `k`, times the
  weight's entry `k`, plus the bias's: the specification `G`.
-/
import proofs.«141878_j5377299054673_2_alg».proof.Proof.Gen.KernelIdeal.Frame
import proofs.«141878_j5377299054673_2_alg».proof.Proof.KernelArray
import proofs.«141878_j5377299054673_2_alg».proof.Proof.LibRank3Layout
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Rank3Layout Cert.PowerNorm Cert.KernelIdeal.ArrayValue
open Idealize.ShloMosaic.Pipeline (Dat)

variable (m : (ℓ : Loc nD τ sig) → Buf (Elt Ideal) ℓ) (ρ : Dev nD → PrngReg)

/-! ## The host lines before the region -/

theorem V_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

theorem V_v1 (c : Dev nD) : (V m c main_v1 : S1x4096.Idx → EReal)
    = shapeCast S1x4096 (m ((c : Thread nD τ).loc main_arg1)) shapeCasts_S4096_S1x4096 := by
  show StableHlo.after hostOps0 (fun b => m (c, b)) (Proc.devRef .tc main_v1) = _
  after_results
  rfl

theorem V_v2 (c : Dev nD) : (V m c main_v2 : S1x4096.Idx → EReal)
    = shapeCast S1x4096 (m ((c : Thread nD τ).loc main_arg2)) shapeCasts_S4096_S1x4096 := by
  show StableHlo.after hostOps0 (fun b => m (c, b)) (Proc.devRef .tc main_v2) = _
  after_results
  rfl

/-! ## The host line after the region -/

theorem tail_v4 (c : Dev nD) :
    (Pipeline.afterTail₀ cfgs (dats m) 0 (V0 m) [hostOps1] c main_v4 : S4x2048x4096.Idx → EReal)
      = shapeCast S4x2048x4096 (G2 (V m c main_v0) (V m c main_v1) (V m c main_v2)) shapeCasts_S8192x4096_S4x2048x4096 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = G2 (V m c main_v0) (V m c main_v1) (V m c main_v2) :=
    (Pipeline.withArrays_arr spec0 launch0.win.arr_inj c _ _ 3).trans (final m c)
  rw [hw]
  rfl

/-! ## The recasts read at an index -/

/-- The region's function of the recast arguments, recast back, is the specification of the arguments. -/
theorem recast_eq (x : S4x2048x4096.Idx → EReal) (w b : S4096.Idx → EReal)
    (h1 : S4x2048x4096.ShapeCasts S8192x4096) (h2 : S4096.ShapeCasts S1x4096) (h3 : S8192x4096.ShapeCasts S4x2048x4096) :
    shapeCast S4x2048x4096 (G2 (shapeCast S8192x4096 x h1) (shapeCast S1x4096 w h2) (shapeCast S1x4096 b h2)) h3
      = G x w b := by
  funext i
  obtain ⟨a, s, k, rfl⟩ : ∃ (a : Fin 4) (s : Fin 2048) (k : Fin 4096), i = ix3 a s k := ⟨i 0, i 1, i 2, eq_ix3 i⟩
  have hn : a.val * 2048 + s.val < 8192 := by have := a.isLt; have := s.isLt; omega
  rw [shapeCast_Nc_abc_apply _ h3 a s k ⟨a.val * 2048 + s.val, hn⟩ rfl]
  show rowK (fun k' => shapeCast S8192x4096 x h1 (ix2 (⟨a.val * 2048 + s.val, hn⟩ : Fin 8192) k')) k
        * shapeCast S1x4096 w h2 (ix2 (0 : Fin 1) k) + shapeCast S1x4096 b h2 (ix2 (0 : Fin 1) k)
      = rowK (fun k' => x (ix3 a s k')) k * w (ix1 k) + b (ix1 k)
  have hrow : (fun k' => shapeCast S8192x4096 x h1 (ix2 (⟨a.val * 2048 + s.val, hn⟩ : Fin 8192) k'))
      = fun k' => x (ix3 a s k') :=
    funext fun k' => shapeCast_abc_Nc_apply x h1 a s k' ⟨a.val * 2048 + s.val, hn⟩ rfl
  rw [hrow, shapeCast_a_1a_apply w h2 0 k, shapeCast_a_1a_apply b h2 0 k]

/-! ## The run -/

/-- What @main's result holds after the run, as the specification of the argument arrays. -/
theorem value (c : Dev nD) :
    (Pipeline.afterTail₀ cfgs (dats m) 0 (V0 m) [hostOps1] c main_v4 : S4x2048x4096.Idx → EReal)
      = G (m ((c : Thread nD τ).loc main_arg0)) (m ((c : Thread nD τ).loc main_arg1)) (m ((c : Thread nD τ).loc main_arg2)) := by
  rw [tail_v4, V_v0, V_v1, V_v2]
  exact recast_eq _ _ _ _ _ _

/-- Every weakly fair execution of the kernel's program ends with the result array at the specification of the
    arguments, and the arguments unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.TransformConsts.lean ====
/-
  The values of the few float literals the laws between the two arrangements need: the zero, the one, the minus one and the
  row length exactly; the variance's ε only as a positive real; the remaining ones only as real numbers.
-/
import proofs.«141878_j5377299054673_2_alg».proof.Proof.Transform
import Idealize.ShloMosaic.PureOps.Ideal.Laws
import Idealize.ShloMosaic.Lib.IdealHost

noncomputable section

namespace Cert.PowerNorm

open Idealize.ShloMosaic

/-- The zero pattern denotes `0`. -/
theorem c0_eq : c0 = 0 := Ideal.ofBits_zero_f32

/-- The pattern of `1.0` denotes `1`. -/
theorem c1_eq : c1 = 1 := Ideal.ofBits_one_f32

/-- The pattern of `-1.0`: sign bit set, significand `2^23`, exponent `-23`. -/
theorem cm1_eq : cm1 = ((-1 : ℝ) : EReal) := by
  unfold cm1
  simp [Ideal.ofBits, Ideal.ieee, -EReal.coe_mul]
  norm_num

/-- The pattern of `4096.0`: significand `2^23`, exponent `-11`. -/
theorem cN_eq : cN = ((4096 : ℝ) : EReal) := by
  unfold cN
  simp [Ideal.ofBits, Ideal.ieee, -EReal.coe_mul]
  norm_num

/-- The variance's ε is a positive real (a normal pattern with the sign bit clear). -/
theorem cEps_pos : ∃ e : ℝ, 0 < e ∧ cEps = (e : EReal) := by
  unfold cEps
  simp [Ideal.ofBits, Ideal.ieee, -EReal.coe_mul]

/-- The literal `2.0` is a real number. -/
theorem c2_real : ∃ a : ℝ, c2 = (a : EReal) := by
  unfold c2
  simp [Ideal.ofBits, Ideal.ieee, -EReal.coe_mul]

/-- The literal `0.5` is a real number. -/
theorem cHalf_real : ∃ a : ℝ, cHalf = (a : EReal) := by
  unfold cHalf
  simp [Ideal.ofBits, Ideal.ieee, -EReal.coe_mul]

/-- The literal `-0.5` is a real number. -/
theorem cmHalf_real : ∃ a : ℝ, cmHalf = (a : EReal) := by
  unfold cmHalf
  simp [Ideal.ofBits, Ideal.ieee, -EReal.coe_mul]
  exact ⟨_, (EReal.coe_neg _).symm⟩

/-- The literal nearest `√ε` is a real number. -/
theorem cRt_real : ∃ a : ℝ, cRt = (a : EReal) := by
  unfold cRt
  simp [Ideal.ofBits, Ideal.ieee, -EReal.coe_mul]

/-- The degrees-of-freedom correction is the integer `0`. -/
theorem ddof_eq : ddof = 0 := by
  unfold ddof
  simp

end Cert.PowerNorm

end
-- ==== Proof.TransformReal.lean ====
/-
  The pointwise pieces of the row transform on real arguments, and the two ingredients that agree on every extended real:
  the mean from a sum started at the zero literal is the mean from the bare sum, and the sign patched at zero is the
  comparison against zero.
-/
import proofs.«141878_j5377299054673_2_alg».proof.Proof.TransformConsts

noncomputable section

namespace Cert.PowerNorm

open Idealize.ShloMosaic

/-! ### Real sums inside the extended reals -/

/-- The inclusion of the reals in the extended reals, as an additive homomorphism. -/
def coeHom : ℝ →+ EReal where
  toFun := fun a => (a : EReal)
  map_zero' := EReal.coe_zero
  map_add' := EReal.coe_add

/-- The inclusion commutes with a sum over a finite type. -/
theorem coe_sum {ι : Type} [Fintype ι] (f : ι → ℝ) : ((∑ i, f i : ℝ) : EReal) = ∑ i, (f i : EReal) :=
  map_sum coeHom f Finset.univ

/-- The literal `-1` as the extended real `-1`. -/
theorem cm1_eq' : cm1 = -1 := by
  rw [cm1_eq, EReal.coe_neg, EReal.coe_one]

/-! ### A select on a decided proposition -/

theorem select_decide_true {α : Type} {p : Prop} [Decidable p] (hp : p) (a b : α) :
    Scalar.select (BitVec.ofBool (decide p)) a b = a := by
  rw [decide_eq_true hp]; exact ValueIdx.select_one a b

theorem select_decide_false {α : Type} {p : Prop} [Decidable p] (hp : ¬ p) (a b : α) :
    Scalar.select (BitVec.ofBool (decide p)) a b = b := by
  rw [decide_eq_false hp]; exact ValueIdx.select_zero a b

/-! ### The mean -/

/-- A sum started at the zero literal is the bare sum, so the two means are one function. -/
theorem meanR_eq_meanK : meanR = meanK := by
  funext f
  unfold meanR meanK
  rw [c0_eq, zero_add]

/-- The mean of a real row is the real mean. -/
theorem meanK_coe (a : Fin 4096 → ℝ) : meanK (fun k => (a k : EReal)) = (((∑ k, a k) / 4096 : ℝ) : EReal) := by
  unfold meanK
  rw [cN_eq, Ideal.div_coe (by norm_num : (4096 : ℝ) ≠ 0), ← coe_sum, ← EReal.coe_mul]
  congr 1
  ring

/-! ### The sign -/

theorem sgK_of_nonneg {t : EReal} (h : 0 ≤ t) : sgK t = 1 := by
  show Scalar.select (BitVec.ofBool (decide (c0 ≤ t))) c1 cm1 = 1
  rw [select_decide_true (by rw [c0_eq]; exact h), c1_eq]

theorem sgK_of_neg {t : EReal} (h : t < 0) : sgK t = -1 := by
  show Scalar.select (BitVec.ofBool (decide (c0 ≤ t))) c1 cm1 = -1
  rw [select_decide_false (by rw [c0_eq]; exact not_le.2 h), cm1_eq']

theorem sgR_of_pos {t : EReal} (h : 0 < t) : sgR t = 1 := by
  show Scalar.select (BitVec.ofBool (decide (Ideal.sign t = c0))) c1 (Ideal.sign t) = 1
  rw [Ideal.sign_of_pos h, select_decide_false (by rw [c0_eq]; exact one_ne_zero)]

theorem sgR_zero : sgR 0 = 1 := by
  show Scalar.select (BitVec.ofBool (decide (Ideal.sign 0 = c0))) c1 (Ideal.sign 0) = 1
  rw [Ideal.sign_zero, select_decide_true c0_eq.symm, c1_eq]

theorem sgR_of_neg {t : EReal} (h : t < 0) : sgR t = -1 := by
  show Scalar.select (BitVec.ofBool (decide (Ideal.sign t = c0))) c1 (Ideal.sign t) = -1
  rw [Ideal.sign_of_neg h, select_decide_false]
  rw [c0_eq]
  intro h0
  have : (-1 : EReal) < 0 := by
    rw [← EReal.coe_one, ← EReal.coe_neg, ← EReal.coe_zero, EReal.coe_lt_coe_iff]; norm_num
  exact absurd h0 this.ne

/-- The sign patched at zero is the comparison against zero, on every extended real. -/
theorem sgR_eq_sgK : sgR = sgK := by
  funext t
  rcases lt_trichotomy t 0 with h | h | h
  · rw [sgR_of_neg h, sgK_of_neg h]
  · rw [h, sgR_zero, sgK_of_nonneg le_rfl]
  · rw [sgR_of_pos h, sgK_of_nonneg h.le]

/-- On a real the sign is the real `1` or `-1`. -/
theorem sgK_coe (a : ℝ) : sgK (a : EReal) = ((if 0 ≤ a then 1 else -1 : ℝ) : EReal) := by
  by_cases h : 0 ≤ a
  · rw [if_pos h, sgK_of_nonneg (EReal.coe_nonneg.2 h), EReal.coe_one]
  · rw [if_neg h, sgK_of_neg (EReal.coe_neg'.2 (not_le.1 h)), EReal.coe_neg, EReal.coe_one]

/-! ### The pointwise pieces on a real -/

/-- `|a|` as the larger of `a` and `-a`. -/
theorem absx_coe (a : ℝ) : absx (a : EReal) = ((|a| : ℝ) : EReal) := by
  unfold absx
  rw [← EReal.coe_neg, abs_eq_max_neg]
  exact (EReal.coe_strictMono.monotone.map_max).symm

/-- `1 + |a|` is positive, so its logarithm is the real one. -/
theorem l1p_coe (a : ℝ) : l1p (a : EReal) = ((Real.log (1 + |a|) : ℝ) : EReal) := by
  unfold l1p Ideal.log1p
  rw [absx_coe, ← EReal.coe_one, ← EReal.coe_add, Ideal.log_coe, if_neg]
  have : (0 : ℝ) < 1 + |a| := by positivity
  exact not_le.2 this

theorem dOf_coe (a : ℝ) :
    dOf (a : EReal) = (((1 + |a|) * Real.log (1 + |a|) - |a| : ℝ) : EReal) := by
  unfold dOf
  rw [c1_eq, absx_coe, l1p_coe, ← EReal.coe_one, ← EReal.coe_add, ← EReal.coe_mul, ← EReal.coe_sub]

theorem p1Of_real (a : ℝ) : ∃ p : ℝ, p1Of (a : EReal) = (p : EReal) := by
  obtain ⟨q, hq⟩ := c2_real
  unfold p1Of
  rw [c1_eq, hq, dOf_coe, absx_coe, l1p_coe, ← EReal.coe_one, ← EReal.coe_add, ← EReal.coe_mul, ← EReal.coe_mul,
    ← EReal.coe_mul, ← EReal.coe_sub]
  exact ⟨_, rfl⟩

theorem d2Of_real (a : ℝ) : ∃ p : ℝ, d2Of sgK (a : EReal) = (p : EReal) := by
  obtain ⟨p, hp⟩ := p1Of_real a
  unfold d2Of
  rw [sgK_coe, hp, ← EReal.coe_mul]
  exact ⟨_, rfl⟩

end Cert.PowerNorm

end
-- ==== Proof.TransformStd.lean ====
/-
  The standardisation of a real row. With `m` the mean, the mean of the centred squares is the mean of the squares minus
  `m²` (the divisor is the number of terms), so the two variances are one nonnegative real; adding the positive ε gives a
  positive real `v`, and both `(r - m) · rsqrt v` and `(r - m) / sqrt v` are the real `(r - m) · (√v)⁻¹`.
-/
import proofs.«141878_j5377299054673_2_alg».proof.Proof.TransformReal

noncomputable section

namespace Cert.PowerNorm

open Idealize.ShloMosaic

/-! ### The real identity `E[(d - E d)²] = E[d²] - (E d)²` over 4096 terms -/

theorem real_spread (d : Fin 4096 → ℝ) :
    (∑ k, (d k - (∑ j, d j) / 4096) * (d k - (∑ j, d j) / 4096)) / 4096
      = (∑ k, d k * d k) / 4096 - (∑ j, d j) / 4096 * ((∑ j, d j) / 4096) := by
  have hS : ∑ j, d j = 4096 * ((∑ j, d j) / 4096) := by ring
  generalize (∑ j, d j) / 4096 = m at hS ⊢
  have h1 : ∑ k, (d k - m) * (d k - m) = ∑ k, d k * d k - 2 * m * ∑ k, d k + 4096 * (m * m) := by
    have h2 : ∀ k, (d k - m) * (d k - m) = d k * d k - 2 * m * d k + m * m := fun k => by ring
    rw [Finset.sum_congr rfl (fun k _ => h2 k), Finset.sum_add_distrib, Finset.sum_sub_distrib, ← Finset.mul_sum,
      Finset.sum_const, Finset.card_univ, Fintype.card_fin, nsmul_eq_mul]
    norm_num
  rw [h1, hS]
  ring

/-- The mean of the centred squares of a real row is nonnegative. -/
theorem real_spread_nonneg (d : Fin 4096 → ℝ) :
    0 ≤ (∑ k, d k * d k) / 4096 - (∑ j, d j) / 4096 * ((∑ j, d j) / 4096) := by
  rw [← real_spread]
  exact div_nonneg (Finset.sum_nonneg fun k _ => mul_self_nonneg _) (by norm_num)

/-! ### The two standardisations of a real row -/

/-- The standardised entry, as a real number. -/
def xsReal (a : Fin 4096 → ℝ) (ε : ℝ) (k : Fin 4096) : ℝ :=
  (a k - (∑ j, a j) / 4096)
    * (Real.sqrt ((∑ j, a j * a j) / 4096 - (∑ j, a j) / 4096 * ((∑ j, a j) / 4096) + ε))⁻¹

theorem xsK_coe (a : Fin 4096 → ℝ) {ε : ℝ} (hε : 0 < ε) (hc : cEps = (ε : EReal)) (k : Fin 4096) :
    xsK (fun j => (a j : EReal)) k = ((xsReal a ε k : ℝ) : EReal) := by
  have hv : 0 < (∑ j, a j * a j) / 4096 - (∑ j, a j) / 4096 * ((∑ j, a j) / 4096) + ε :=
    add_pos_of_nonneg_of_pos (real_spread_nonneg a) hε
  have h1 : meanK (fun j => (a j : EReal)) = (((∑ j, a j) / 4096 : ℝ) : EReal) := meanK_coe a
  have h2 : meanK (fun j => (a j : EReal) * (a j : EReal)) = (((∑ j, a j * a j) / 4096 : ℝ) : EReal) := by
    rw [← meanK_coe]
    exact congrArg meanK (funext fun j => (EReal.coe_mul _ _).symm)
  show ((a k : EReal) - meanK (fun j => (a j : EReal)))
      * Ideal.rsqrt ((meanK (fun j => (a j : EReal) * (a j : EReal))
          - meanK (fun j => (a j : EReal)) * meanK (fun j => (a j : EReal))) + cEps) = _
  rw [h1, h2, hc, ← EReal.coe_mul, ← EReal.coe_sub, ← EReal.coe_sub, ← EReal.coe_add, Ideal.rsqrt_coe,
    if_neg (not_lt.2 hv.le), if_neg hv.ne', ← EReal.coe_mul]
  rfl

/-- The variance as the library function spells it, on a real row: the guard holds (`4096 - 0 > 0`). -/
theorem varR_coe (a : Fin 4096 → ℝ) :
    varR (fun j => (a j : EReal))
      = (((∑ k, (a k - (∑ j, a j) / 4096) * (a k - (∑ j, a j) / 4096)) / 4096 : ℝ) : EReal) := by
  have hN : cN - ddof = ((4096 : ℝ) : EReal) := by rw [cN_eq, ddof_eq, sub_zero]
  have h1 : meanK (fun j => (a j : EReal)) = (((∑ j, a j) / 4096 : ℝ) : EReal) := meanK_coe a
  show Scalar.select (BitVec.ofBool (decide (c0 < cN - ddof)))
      (Ideal.div (c0 + ∑ j, ((a j : EReal) - meanR (fun j => (a j : EReal))) * ((a j : EReal) - meanR (fun j => (a j : EReal))))
        (cN - ddof)) cNaN = _
  rw [select_decide_true (by rw [c0_eq, hN]; exact EReal.coe_pos.2 (by norm_num)), c0_eq, zero_add, hN, meanR_eq_meanK, h1,
    Ideal.div_coe (by norm_num : (4096 : ℝ) ≠ 0)]
  have h3 : ∀ j, ((a j : EReal) - (((∑ j, a j) / 4096 : ℝ) : EReal)) * ((a j : EReal) - (((∑ j, a j) / 4096 : ℝ) : EReal))
      = (((a j - (∑ j, a j) / 4096) * (a j - (∑ j, a j) / 4096) : ℝ) : EReal) := fun j => by
    rw [← EReal.coe_sub, ← EReal.coe_mul]
  rw [Finset.sum_congr rfl (fun j _ => h3 j), ← coe_sum, ← EReal.coe_mul]
  congr 1
  ring

theorem xsR_coe (a : Fin 4096 → ℝ) {ε : ℝ} (hε : 0 < ε) (hc : cEps = (ε : EReal)) (k : Fin 4096) :
    xsR (fun j => (a j : EReal)) k = ((xsReal a ε k : ℝ) : EReal) := by
  have hv : 0 < (∑ j, a j * a j) / 4096 - (∑ j, a j) / 4096 * ((∑ j, a j) / 4096) + ε :=
    add_pos_of_nonneg_of_pos (real_spread_nonneg a) hε
  have h1 : meanK (fun j => (a j : EReal)) = (((∑ j, a j) / 4096 : ℝ) : EReal) := meanK_coe a
  show Ideal.div ((a k : EReal) - meanR (fun j => (a j : EReal))) (Ideal.sqrt (varR (fun j => (a j : EReal)) + cEps)) = _
  rw [varR_coe, real_spread, meanR_eq_meanK, h1, hc, ← EReal.coe_sub, ← EReal.coe_add, Ideal.sqrt_coe,
    if_neg (not_lt.2 hv.le), Ideal.div_coe (Real.sqrt_pos.2 hv).ne', ← EReal.coe_mul, one_div]
  rfl

/-- On a real row the two standardisations are one row … -/
theorem xsR_eq_xsK (r : Row) (hr : ∀ k, ∃ a : ℝ, r k = (a : EReal)) : xsR r = xsK r := by
  choose a ha using hr
  obtain ⟨ε, hε, hc⟩ := cEps_pos
  have hra : r = fun j => (a j : EReal) := funext ha
  rw [hra]
  funext k
  rw [xsR_coe a hε hc, xsK_coe a hε hc]

/-- … and that row is real. -/
theorem xsK_real (r : Row) (hr : ∀ k, ∃ a : ℝ, r k = (a : EReal)) : ∀ k, ∃ a : ℝ, xsK r k = (a : EReal) := by
  choose a ha using hr
  obtain ⟨ε, hε, hc⟩ := cEps_pos
  have hra : r = fun j => (a j : EReal) := funext ha
  rw [hra]
  exact fun k => ⟨_, xsK_coe a hε hc k⟩

end Cert.PowerNorm

end
-- ==== Proof.TransformMoments.lean ====
/-
  The second-moment term of the exponent's Newton step, on a real row: with real `A k` (the entry times its second
  derivative term) and real `d k`, and `D` the mean of `d`,
      E[A + (d - D)²] = E[A] + E[d²] - D²,
  the spread of `d` under one mean against the mean of its squares minus the squared mean.
-/
import proofs.«141878_j5377299054673_2_alg».proof.Proof.TransformStd

noncomputable section

namespace Cert.PowerNorm

open Idealize.ShloMosaic

/-- The law for real families, inside the extended reals. -/
theorem m2_coe (A d : Fin 4096 → ℝ) :
    meanK (fun k => (A k : EReal)
        + ((d k : EReal) - meanK (fun j => (d j : EReal))) * ((d k : EReal) - meanK (fun j => (d j : EReal))))
      = meanK (fun k => (A k : EReal)) + meanK (fun k => (d k : EReal) * (d k : EReal))
        - meanK (fun j => (d j : EReal)) * meanK (fun j => (d j : EReal)) := by
  have h1 : meanK (fun j => (d j : EReal)) = (((∑ j, d j) / 4096 : ℝ) : EReal) := meanK_coe d
  have h2 : meanK (fun j => (d j : EReal) * (d j : EReal)) = (((∑ j, d j * d j) / 4096 : ℝ) : EReal) := by
    rw [← meanK_coe]
    exact congrArg meanK (funext fun j => (EReal.coe_mul _ _).symm)
  have h3 : (fun k => (A k : EReal)
        + ((d k : EReal) - (((∑ j, d j) / 4096 : ℝ) : EReal)) * ((d k : EReal) - (((∑ j, d j) / 4096 : ℝ) : EReal)))
      = fun k => (((A k + (d k - (∑ j, d j) / 4096) * (d k - (∑ j, d j) / 4096) : ℝ)) : EReal) := by
    funext k
    rw [← EReal.coe_sub, ← EReal.coe_mul, ← EReal.coe_add]
  rw [h2, h1, h3, meanK_coe, meanK_coe, ← EReal.coe_mul, ← EReal.coe_add, ← EReal.coe_sub]
  congr 1
  rw [Finset.sum_add_distrib, add_div, real_spread d]
  ring

/-- The two arrangements of the second-moment term agree on a real row. -/
theorem m2R_eq_m2K (xs : Row) (hxs : ∀ k, ∃ a : ℝ, xs k = (a : EReal)) : m2R meanK sgK xs = m2K meanK sgK xs := by
  choose x hx using hxs
  have hxa : xs = fun j => (x j : EReal) := funext hx
  rw [hxa]
  have hA : ∀ k, ∃ A : ℝ, (x k : EReal) * d2Of sgK (x k : EReal) = (A : EReal) := fun k => by
    obtain ⟨p, hp⟩ := d2Of_real (x k)
    exact ⟨x k * p, by rw [hp, EReal.coe_mul]⟩
  choose A hA using hA
  show meanK (fun k => (x k : EReal) * d2Of sgK (x k : EReal)
        + (dOf (x k : EReal) - meanK (fun j => dOf (x j : EReal))) * (dOf (x k : EReal) - meanK (fun j => dOf (x j : EReal))))
      = meanK (fun k => (x k : EReal) * d2Of sgK (x k : EReal)) + meanK (fun k => dOf (x k : EReal) * dOf (x k : EReal))
        - meanK (fun j => dOf (x j : EReal)) * meanK (fun j => dOf (x j : EReal))
  simp only [hA, dOf_coe]
  exact m2_coe A _

end Cert.PowerNorm

end
-- ==== Proof.TransformPower.lean ====
/-
  The power of a base `1 + |t|`, `t` real, as the exponential of the exponent times the logarithm of the base — for
  every exponent, the two infinities included: the base is a real at least `1`, so at an infinite exponent both sides
  are decided by whether the base exceeds `1` (then its logarithm is positive) or equals `1` (then it is zero).
-/
import proofs.«141878_j5377299054673_2_alg».proof.Proof.TransformReal

noncomputable section

namespace Cert.PowerNorm

open Idealize.ShloMosaic

/-- `b ^ e = exp (e · log b)` for a real base `b ≥ 1` and every extended-real exponent. -/
theorem pow_eq_exp_mul_log {b : ℝ} (hb1 : 1 ≤ b) (e : EReal) :
    Ideal.pow (b : EReal) e = Ideal.exp (e * ((Real.log b : ℝ) : EReal)) := by
  have hb0 : 0 < b := lt_of_lt_of_le one_pos hb1
  induction e using EReal.rec with
  | bot =>
    rw [Ideal.pow_coe_bot, if_neg (not_lt.2 hb0.le)]
    rcases hb1.lt_or_eq with h | h
    · rw [if_pos h, EReal.bot_mul_coe_of_pos (Real.log_pos h), Ideal.exp_bot]
    · subst h
      rw [if_neg (lt_irrefl _), if_pos rfl, Real.log_one, EReal.coe_zero, mul_zero, ← EReal.coe_zero, Ideal.exp_coe,
        Real.exp_zero, EReal.coe_one]
  | top =>
    rw [Ideal.pow_coe_top, if_neg (not_lt.2 hb0.le)]
    rcases hb1.lt_or_eq with h | h
    · rw [if_pos h, EReal.top_mul_coe_of_pos (Real.log_pos h), Ideal.exp_top]
    · subst h
      rw [if_neg (lt_irrefl _), if_pos rfl, Real.log_one, EReal.coe_zero, mul_zero, ← EReal.coe_zero, Ideal.exp_coe,
        Real.exp_zero, EReal.coe_one]
  | coe y =>
    rw [Ideal.pow_coe_coe, ← EReal.coe_mul, Ideal.exp_coe, Real.rpow_eq_pow, Real.rpow_def_of_pos hb0, mul_comm]

/-- The two spellings of `(1 + |t|)^e` agree at a real `t`, for every exponent. -/
theorem pwR_eq_pwK (a : ℝ) (e : EReal) : pwR (a : EReal) e = pwK (a : EReal) e := by
  unfold pwR pwK
  rw [c1_eq, absx_coe, l1p_coe, ← EReal.coe_one, ← EReal.coe_add]
  exact pow_eq_exp_mul_log (le_add_of_nonneg_right (abs_nonneg a)) e

end Cert.PowerNorm

end
-- ==== Proof.TransformLaws.lean ====
/-
  The two arrangements of the row transform agree on every real row: the means and the signs are the same functions, the
  standardised rows are the same real row, on it the two second-moment terms agree, and at its (real) entries the power is
  the exponential of the exponent times the logarithm, for every exponent. Everything else is the same term on both sides.
-/
import proofs.«141878_j5377299054673_2_alg».proof.Proof.TransformMoments
import proofs.«141878_j5377299054673_2_alg».proof.Proof.TransformPower

noncomputable section

namespace Cert.PowerNorm

open Idealize.ShloMosaic

/-- On a real row the transformed entry does not depend on the spelling of the power: it is only taken at the row's
    entries. -/
theorem tr_pwR_eq_pwK (m2 : EReal) (xs : Row) (hxs : ∀ k, ∃ a : ℝ, xs k = (a : EReal)) :
    tr meanK sgK pwR m2 xs = tr meanK sgK pwK m2 xs := by
  funext k
  obtain ⟨a, ha⟩ := hxs k
  have h : pwR (xs k) (expo meanK sgK m2 xs k) = pwK (xs k) (expo meanK sgK m2 xs k) := by
    rw [ha]
    exact pwR_eq_pwK a _
  unfold tr
  rw [h]

/-- The two arrangements of the row transform agree on a real row. -/
theorem rowR_eq_rowK (r : Row) (hr : ∀ k, ∃ a : ℝ, r k = (a : EReal)) : rowR r = rowK r := by
  unfold rowR rowK
  rw [meanR_eq_meanK, sgR_eq_sgK, xsR_eq_xsK r hr, m2R_eq_m2K (xsK r) (xsK_real r hr)]
  exact tr_pwR_eq_pwK _ (xsK r) (xsK_real r hr)

/-- The two result arrays agree on real inputs, whatever the weights and the biases. -/
theorem GR_eq_G (x : (⟨3, ![4, 2048, 4096]⟩ : Shape).Idx → EReal) (w b : (⟨1, ![4096]⟩ : Shape).Idx → EReal)
    (hx : ∀ i, ∃ a : ℝ, x i = (a : EReal)) : GR x w b = G x w b := by
  funext i
  unfold GR G
  rw [rowR_eq_rowK (fun k => x (ValueIdx.ix3 (i 0) (i 1) k)) (fun k => hx _)]

end Cert.PowerNorm

end
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.InputsReal.lean ====
/-
  The precondition, read: every entry of the input array is a real number.

  The printed precondition is the conjunction, over the three arguments, of `all (|v| < +inf)`.  Its first conjunct
  alone gives what the laws between the two arrangements need: each entry of the input is neither infinity.  (The
  weight and the bias enter the result only through one product and one sum, which are the same on both sides for
  any extended reals.)
-/
import proofs.«141878_j5377299054673_2_alg».proof.Pre_finite_inputs
import proofs.«141878_j5377299054673_2_alg».proof.Proof.Gen.Pre_finite_inputs
import proofs.«141878_j5377299054673_2_alg».proof.Proof.LibFiniteAll
import Idealize.ShloMosaic.Lib.ReduceAll
import Idealize.ShloMosaic.Lib.Affine

noncomputable section

namespace Cert.Pre_finite_inputs.RealInputs

open Cert.Pre_finite_inputs Cert.Pre_finite_inputs.Gen Idealize.ShloMosaic

/-- Under the precondition every entry of the first argument is a real number. -/
theorem input_real (x : FVec Ideal S4x2048x4096 .f32) (w b : FVec Ideal S4096 .f32)
    (h : Cert.Pre_finite_inputs.fn (F := Ideal) x w b = fun _ => 1#1) (i : S4x2048x4096.Idx) :
    ∃ r : ℝ, x i = (r : EReal) := by
  have h0 := congrFun h ValueIdx.ix0
  dsimp only [Cert.Pre_finite_inputs.fn] at h0
  have h1 := (IntOp.andi_eq_one.mp h0).1
  have h2 := (IntOp.andi_eq_one.mp h1).1
  exact FiniteAll.all_real x _ _ _ ValueIdx.ix0 h2 i

end Cert.Pre_finite_inputs.RealInputs

end
-- ==== Proof.RefRun.lean ====
/-
  The reference program's @main as a straight line of its 160 host operations, the four module-local functions
  (the variance, the two patched signs, the final branch select) written out at their call sites over the calls'
  buffer records (each line at that call's own buffer, its function as the function's text states it), cut into 28 consecutive stretches: each stretch ends at a value that later lines read more than
  once or that the row transform names (the mean, the variance, the standardised entry, its sign, modulus and
  logarithm, the row statistics, the exponent, the power, the selected branch, the scaled and shifted result).
  `run_main`: from any memory with zero counters every weakly fair execution of @main terminates and every
  buffer ends at the operations' fold over the launch contents.
-/
import proofs.«141878_j5377299054673_2_alg».proof.ReferenceIdeal
import proofs.«141878_j5377299054673_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 6 of 160: up to `main_v3`. -/
abbrev seg01 : List (HloOp τ sig (Elt F)) :=
  [ nullary main_cst (constant S_ .f32 0x00000000#32),
    binary main_arg0 main_cst main_v0 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x45800000#32),
    unary main_cst_0 main_v2 (broadcastInDim S4x2048x1 ![] bcast_S_S4x2048x1 : (⟨S_, .f32⟩ : BufTy).Contents (Elt F) → (⟨S4x2048x1, .f32⟩ : BufTy).Contents (Elt F)),
    binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)) ]

/-- Operations 7 … 13 of 160: up to `main_call0_v3`. -/
abbrev seg02 : List (HloOp τ sig (Elt F)) :=
  [ nullary main_c (constantI S_ 32 0#32),
    nullary main_call0_cst (constant S_ .f32 0x00000000#32),
    binary main_arg0 main_call0_cst main_call0_v0 (fun x v => Host.reduceAdd x v reducesTo_S4x2048x4096_S4x2048_d2 h_S_ : (⟨S4x2048x4096, .f32⟩ : BufTy).Contents (Elt F) → (⟨S_, .f32⟩ : BufTy).Contents (Elt F) → (⟨S4x2048, .f32⟩ : BufTy).Contents (Elt F)),
    unary main_call0_v0 main_call0_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_call0_cst_0 (constant S_ .f32 0x45800000#32),
    unary main_call0_cst_0 main_call0_v2 (broadcastInDim S4x2048x1 ![] bcast_S_S4x2048x1 : (⟨S_, .f32⟩ : BufTy).Contents (Elt F) → (⟨S4x2048x1, .f32⟩ : BufTy).Contents (Elt F)),
    binary main_call0_v1 main_call0_v2 main_call0_v3 (Host.divf : (⟨S4x2048x1, .f32⟩ : BufTy).Contents (Elt F) → (⟨S4x2048x1, .f32⟩ : BufTy).Contents (Elt F) → (⟨S4x2048x1, .f32⟩ : BufTy).Contents (Elt F)) ]

/-- Operations 14 … 15 of 160: up to `main_call0_v5`. -/
abbrev seg03 : List (HloOp τ sig (Elt F)) :=
  [ unary main_call0_v3 main_call0_v4 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_call0_v4 main_call0_v5 (subf : (⟨S4x2048x4096, .f32⟩ : BufTy).Contents (Elt F) → (⟨S4x2048x4096, .f32⟩ : BufTy).Contents (Elt F) → (⟨S4x2048x4096, .f32⟩ : BufTy).Contents (Elt F)) ]

/-- Operations 16 … 19 of 160: up to `main_call0_v8`. -/
abbrev seg04 : List (HloOp τ sig (Elt F)) :=
  [ binary main_call0_v5 main_call0_v5 main_call0_v6 (mulf : (⟨S4x2048x4096, .f32⟩ : BufTy).Contents (Elt F) → (⟨S4x2048x4096, .f32⟩ : BufTy).Contents (Elt F) → (⟨S4x2048x4096, .f32⟩ : BufTy).Contents (Elt F)),
    unary main_c main_call0_v7 (sitofp .f32 : (⟨S_, .i32⟩ : BufTy).Contents (Elt F) → (⟨S_, .f32⟩ : BufTy).Contents (Elt F)),
    nullary main_call0_cst_1 (constant S_ .f32 0x45800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)) ]

/-- Operations 20 … 30 of 160: up to `main_v4`. -/
abbrev seg05 : List (HloOp τ sig (Elt F)) :=
  [ nullary main_call0_cst_2 (constant S_ .f32 0x00000000#32),
    binary main_call0_v6 main_call0_cst_2 main_call0_v9 (fun x v => Host.reduceAdd x v reducesTo_S4x2048x4096_S4x2048_d2 h_S_ : (⟨S4x2048x4096, .f32⟩ : BufTy).Contents (Elt F) → (⟨S_, .f32⟩ : BufTy).Contents (Elt F) → (⟨S4x2048, .f32⟩ : BufTy).Contents (Elt F)),
    unary main_call0_v9 main_call0_v10 (broadcastInDim S4x2048x1 ![0, 1] bcast_S4x2048_S4x2048x1_0_1 : (⟨S4x2048, .f32⟩ : BufTy).Contents (Elt F) → (⟨S4x2048x1, .f32⟩ : BufTy).Contents (Elt F)),
    unary main_call0_v8 main_call0_v11 (broadcastInDim S4x2048x1 ![] bcast_S_S4x2048x1 : (⟨S_, .f32⟩ : BufTy).Contents (Elt F) → (⟨S4x2048x1, .f32⟩ : BufTy).Contents (Elt F)),
    binary main_call0_v10 main_call0_v11 main_call0_v12 (Host.divf : (⟨S4x2048x1, .f32⟩ : BufTy).Contents (Elt F) → (⟨S4x2048x1, .f32⟩ : BufTy).Contents (Elt F) → (⟨S4x2048x1, .f32⟩ : BufTy).Contents (Elt F)),
    nullary main_call0_cst_3 (constant S_ .f32 0x00000000#32),
    binary main_call0_v8 main_call0_cst_3 main_call0_v13 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S4x2048x1 ![] bcast_S_S4x2048x1 : (⟨S_, .f32⟩ : BufTy).Contents (Elt F) → (⟨S4x2048x1, .f32⟩ : BufTy).Contents (Elt F)),
    ternary main_call0_v13 main_call0_v12 main_call0_call0_v1 main_v4 (fun p a b => select (broadcastInDim S4x2048x1 ![] bcast_S_S4x2048x1 p) a b : (⟨S_, .i1⟩ : BufTy).Contents (Elt F) → (⟨S4x2048x1, .f32⟩ : BufTy).Contents (Elt F) → (⟨S4x2048x1, .f32⟩ : BufTy).Contents (Elt F) → (⟨S4x2048x1, .f32⟩ : BufTy).Contents (Elt F)) ]

/-- Operations 31 … 38 of 160: up to `main_v11`. -/
abbrev seg06 : List (HloOp τ sig (Elt F)) :=
  [ unary main_v3 main_v5 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v5 main_v6 (subf : (⟨S4x2048x4096, .f32⟩ : BufTy).Contents (Elt F) → (⟨S4x2048x4096, .f32⟩ : BufTy).Contents (Elt F) → (⟨S4x2048x4096, .f32⟩ : BufTy).Contents (Elt F)),
    nullary main_cst_1 (constant S_ .f32 0x3727C5AC#32),
    unary main_cst_1 main_v7 (broadcastInDim S4x2048x1 ![] bcast_S_S4x2048x1 : (⟨S_, .f32⟩ : BufTy).Contents (Elt F) → (⟨S4x2048x1, .f32⟩ : BufTy).Contents (Elt F)),
    binary main_v4 main_v7 main_v8 (addf : (⟨S4x2048x1, .f32⟩ : BufTy).Contents (Elt F) → (⟨S4x2048x1, .f32⟩ : BufTy).Contents (Elt F) → (⟨S4x2048x1, .f32⟩ : BufTy).Contents (Elt F)),
    unary main_v8 main_v9 (Host.sqrt : (⟨S4x2048x1, .f32⟩ : BufTy).Contents (Elt F) → (⟨S4x2048x1, .f32⟩ : BufTy).Contents (Elt F)),
    unary main_v9 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v6 main_v10 main_v11 (Host.divf : (⟨S4x2048x4096, .f32⟩ : BufTy).Contents (Elt F) → (⟨S4x2048x4096, .f32⟩ : BufTy).Contents (Elt F) → (⟨S4x2048x4096, .f32⟩ : BufTy).Contents (Elt F)) ]

/-- Operations 39 … 39 of 160: up to `main_v12`. -/
abbrev seg07 : List (HloOp τ sig (Elt F)) :=
  [ unary main_v11 main_v12 (Host.sign : (⟨S4x2048x4096, .f32⟩ : BufTy).Contents (Elt F) → (⟨S4x2048x4096, .f32⟩ : BufTy).Contents (Elt F)) ]

/-- Operations 40 … 46 of 160: up to `main_v15`. -/
abbrev seg08 : List (HloOp τ sig (Elt F)) :=
  [ nullary main_cst_2 (constant S_ .f32 0x00000000#32),
    unary main_cst_2 main_v13 (broadcastInDim S4x2048x4096 ![] bcast_S_S4x2048x4096 : (⟨S_, .f32⟩ : BufTy).Contents (Elt F) → (⟨S4x2048x4096, .f32⟩ : BufTy).Contents (Elt F)),
    binary main_v12 main_v13 main_v14 (cmpf .oeq : (⟨S4x2048x4096, .f32⟩ : BufTy).Contents (Elt F) → (⟨S4x2048x4096, .f32⟩ : BufTy).Contents (Elt F) → (⟨S4x2048x4096, .i1⟩ : BufTy).Contents (Elt F)),
    nullary main_cst_3 (constant S_ .f32 0x3F800000#32),
    unary main_cst_3 main_call1_v0 (id : (⟨S_, .f32⟩ : BufTy).Contents (Elt F) → (⟨S_, .f32⟩ : BufTy).Contents (Elt F)),
    unary main_call1_v0 main_call1_v1 (broadcastInDim S4x2048x4096 ![] bcast_S_S4x2048x4096 : (⟨S_, .f32⟩ : BufTy).Contents (Elt F) → (⟨S4x2048x4096, .f32⟩ : BufTy).Contents (Elt F)),
    ternary main_v14 main_call1_v1 main_v12 main_v15 (select : (⟨S4x2048x4096, .i1⟩ : BufTy).Contents (Elt F) → (⟨S4x2048x4096, .f32⟩ : BufTy).Contents (Elt F) → (⟨S4x2048x4096, .f32⟩ : BufTy).Contents (Elt F) → (⟨S4x2048x4096, .f32⟩ : BufTy).Contents (Elt F)) ]

/-- Operations 47 … 47 of 160: up to `main_v16`. -/
abbrev seg09 : List (HloOp τ sig (Elt F)) :=
  [ unary main_v11 main_v16 (Host.absf : (⟨S4x2048x4096, .f32⟩ : BufTy).Contents (Elt F) → (⟨S4x2048x4096, .f32⟩ : BufTy).Contents (Elt F)) ]

/-- Operations 48 … 48 of 160: up to `main_v17`. -/
abbrev seg10 : List (HloOp τ sig (Elt F)) :=
  [ unary main_v16 main_v17 (Host.log1p : (⟨S4x2048x4096, .f32⟩ : BufTy).Contents (Elt F) → (⟨S4x2048x4096, .f32⟩ : BufTy).Contents (Elt F)) ]

/-- Operations 49 … 55 of 160: up to `main_v22`. -/
abbrev seg11 : List (HloOp τ sig (Elt F)) :=
  [ binary main_v15 main_v17 main_v18 (mulf : (⟨S4x2048x4096, .f32⟩ : BufTy).Contents (Elt F) → (⟨S4x2048x4096, .f32⟩ : BufTy).Contents (Elt F) → (⟨S4x2048x4096, .f32⟩ : BufTy).Contents (Elt F)),
    nullary main_cst_4 (constant S_ .f32 0x00000000#32),
    binary main_v18 main_cst_4 main_v19 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v19 main_v20 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_5 (constant S_ .f32 0x45800000#32),
    unary main_cst_5 main_v21 (broadcastInDim S4x2048x1 ![] bcast_S_S4x2048x1 : (⟨S_, .f32⟩ : BufTy).Contents (Elt F) → (⟨S4x2048x1, .f32⟩ : BufTy).Contents (Elt F)),
    binary main_v20 main_v21 main_v22 (Host.divf : (⟨S4x2048x1, .f32⟩ : BufTy).Contents (Elt F) → (⟨S4x2048x1, .f32⟩ : BufTy).Contents (Elt F) → (⟨S4x2048x1, .f32⟩ : BufTy).Contents (Elt F)) ]

/-- Operations 56 … 60 of 160: up to `main_v26`. -/
abbrev seg12 : List (HloOp τ sig (Elt F)) :=
  [ nullary main_cst_6 (constant S_ .f32 0x3F800000#32),
    unary main_cst_6 main_v23 (broadcastInDim S4x2048x4096 ![] bcast_S_S4x2048x4096 : (⟨S_, .f32⟩ : BufTy).Contents (Elt F) → (⟨S4x2048x4096, .f32⟩ : BufTy).Contents (Elt F)),
    binary main_v23 main_v16 main_v24 (addf : (⟨S4x2048x4096, .f32⟩ : BufTy).Contents (Elt F) → (⟨S4x2048x4096, .f32⟩ : BufTy).Contents (Elt F) → (⟨S4x2048x4096, .f32⟩ : BufTy).Contents (Elt F)),
    binary main_v24 main_v17 main_v25 (mulf : (⟨S4x2048x4096, .f32⟩ : BufTy).Contents (Elt F) → (⟨S4x2048x4096, .f32⟩ : BufTy).Contents (Elt F) → (⟨S4x2048x4096, .f32⟩ : BufTy).Contents (Elt F)),
    binary main_v25 main_v16 main_v26 (subf : (⟨S4x2048x4096, .f32⟩ : BufTy).Contents (Elt F) → (⟨S4x2048x4096, .f32⟩ : BufTy).Contents (Elt F) → (⟨S4x2048x4096, .f32⟩ : BufTy).Contents (Elt F)) ]

/-- Operations 61 … 70 of 160: up to `main_v33`. -/
abbrev seg13 : List (HloOp τ sig (Elt F)) :=
  [ binary main_v11 main_v26 main_v27 (mulf : (⟨S4x2048x4096, .f32⟩ : BufTy).Contents (Elt F) → (⟨S4x2048x4096, .f32⟩ : BufTy).Contents (Elt F) → (⟨S4x2048x4096, .f32⟩ : BufTy).Contents (Elt F)),
    nullary main_cst_7 (constant S_ .f32 0x00000000#32),
    binary main_v27 main_cst_7 main_v28 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v28 main_v29 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_8 (constant S_ .f32 0x45800000#32),
    unary main_cst_8 main_v30 (broadcastInDim S4x2048x1 ![] bcast_S_S4x2048x1 : (⟨S_, .f32⟩ : BufTy).Contents (Elt F) → (⟨S4x2048x1, .f32⟩ : BufTy).Contents (Elt F)),
    binary main_v29 main_v30 main_v31 (Host.divf : (⟨S4x2048x1, .f32⟩ : BufTy).Contents (Elt F) → (⟨S4x2048x1, .f32⟩ : BufTy).Contents (Elt F) → (⟨S4x2048x1, .f32⟩ : BufTy).Contents (Elt F)),
    nullary main_cst_9 (constant S_ .f32 0x40000000#32),
    unary main_cst_9 main_v32 (broadcastInDim S4x2048x1 ![] bcast_S_S4x2048x1 : (⟨S_, .f32⟩ : BufTy).Contents (Elt F) → (⟨S4x2048x1, .f32⟩ : BufTy).Contents (Elt F)),
    binary main_v32 main_v31 main_v33 (mulf : (⟨S4x2048x1, .f32⟩ : BufTy).Contents (Elt F) → (⟨S4x2048x1, .f32⟩ : BufTy).Contents (Elt F) → (⟨S4x2048x1, .f32⟩ : BufTy).Contents (Elt F)) ]

/-- Operations 71 … 74 of 160: up to `main_v36`. -/
abbrev seg14 : List (HloOp τ sig (Elt F)) :=
  [ nullary main_cst_10 (constant S_ .f32 0x3F000000#32),
    unary main_cst_10 main_v34 (broadcastInDim S4x2048x1 ![] bcast_S_S4x2048x1 : (⟨S_, .f32⟩ : BufTy).Contents (Elt F) → (⟨S4x2048x1, .f32⟩ : BufTy).Contents (Elt F)),
    binary main_v34 main_v33 main_v35 (mulf : (⟨S4x2048x1, .f32⟩ : BufTy).Contents (Elt F) → (⟨S4x2048x1, .f32⟩ : BufTy).Contents (Elt F) → (⟨S4x2048x1, .f32⟩ : BufTy).Contents (Elt F)),
    binary main_v35 main_v22 main_v36 (subf : (⟨S4x2048x1, .f32⟩ : BufTy).Contents (Elt F) → (⟨S4x2048x1, .f32⟩ : BufTy).Contents (Elt F) → (⟨S4x2048x1, .f32⟩ : BufTy).Contents (Elt F)) ]

/-- Operations 75 … 80 of 160: up to `main_v40`. -/
abbrev seg15 : List (HloOp τ sig (Elt F)) :=
  [ nullary main_cst_11 (constant S_ .f32 0x00000000#32),
    binary main_v26 main_cst_11 main_v37 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v37 main_v38 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_12 (constant S_ .f32 0x45800000#32),
    unary main_cst_12 main_v39 (broadcastInDim S4x2048x1 ![] bcast_S_S4x2048x1 : (⟨S_, .f32⟩ : BufTy).Contents (Elt F) → (⟨S4x2048x1, .f32⟩ : BufTy).Contents (Elt F)),
    binary main_v38 main_v39 main_v40 (Host.divf : (⟨S4x2048x1, .f32⟩ : BufTy).Contents (Elt F) → (⟨S4x2048x1, .f32⟩ : BufTy).Contents (Elt F) → (⟨S4x2048x1, .f32⟩ : BufTy).Contents (Elt F)) ]

/-- Operations 81 … 82 of 160: up to `main_v42`. -/
abbrev seg16 : List (HloOp τ sig (Elt F)) :=
  [ unary main_v40 main_v41 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v26 main_v41 main_v42 (subf : (⟨S4x2048x4096, .f32⟩ : BufTy).Contents (Elt F) → (⟨S4x2048x4096, .f32⟩ : BufTy).Contents (Elt F) → (⟨S4x2048x4096, .f32⟩ : BufTy).Contents (Elt F)) ]

/-- Operations 83 … 92 of 160: up to `main_v50`. -/
abbrev seg17 : List (HloOp τ sig (Elt F)) :=
  [ binary main_v42 main_v42 main_v43 (mulf : (⟨S4x2048x4096, .f32⟩ : BufTy).Contents (Elt F) → (⟨S4x2048x4096, .f32⟩ : BufTy).Contents (Elt F) → (⟨S4x2048x4096, .f32⟩ : BufTy).Contents (Elt F)),
    nullary main_cst_13 (constant S_ .f32 0x3F800000#32),
    unary main_cst_13 main_v44 (broadcastInDim S4x2048x4096 ![] bcast_S_S4x2048x4096 : (⟨S_, .f32⟩ : BufTy).Contents (Elt F) → (⟨S4x2048x4096, .f32⟩ : BufTy).Contents (Elt F)),
    binary main_v44 main_v16 main_v45 (addf : (⟨S4x2048x4096, .f32⟩ : BufTy).Contents (Elt F) → (⟨S4x2048x4096, .f32⟩ : BufTy).Contents (Elt F) → (⟨S4x2048x4096, .f32⟩ : BufTy).Contents (Elt F)),
    binary main_v17 main_v17 main_v46 (mulf : (⟨S4x2048x4096, .f32⟩ : BufTy).Contents (Elt F) → (⟨S4x2048x4096, .f32⟩ : BufTy).Contents (Elt F) → (⟨S4x2048x4096, .f32⟩ : BufTy).Contents (Elt F)),
    binary main_v45 main_v46 main_v47 (mulf : (⟨S4x2048x4096, .f32⟩ : BufTy).Contents (Elt F) → (⟨S4x2048x4096, .f32⟩ : BufTy).Contents (Elt F) → (⟨S4x2048x4096, .f32⟩ : BufTy).Contents (Elt F)),
    nullary main_cst_14 (constant S_ .f32 0x40000000#32),
    unary main_cst_14 main_v48 (broadcastInDim S4x2048x4096 ![] bcast_S_S4x2048x4096 : (⟨S_, .f32⟩ : BufTy).Contents (Elt F) → (⟨S4x2048x4096, .f32⟩ : BufTy).Contents (Elt F)),
    binary main_v48 main_v26 main_v49 (mulf : (⟨S4x2048x4096, .f32⟩ : BufTy).Contents (Elt F) → (⟨S4x2048x4096, .f32⟩ : BufTy).Contents (Elt F) → (⟨S4x2048x4096, .f32⟩ : BufTy).Contents (Elt F)),
    binary main_v47 main_v49 main_v50 (subf : (⟨S4x2048x4096, .f32⟩ : BufTy).Contents (Elt F) → (⟨S4x2048x4096, .f32⟩ : BufTy).Contents (Elt F) → (⟨S4x2048x4096, .f32⟩ : BufTy).Contents (Elt F)) ]

/-- Operations 93 … 93 of 160: up to `main_v51`. -/
abbrev seg18 : List (HloOp τ sig (Elt F)) :=
  [ binary main_v15 main_v50 main_v51 (mulf : (⟨S4x2048x4096, .f32⟩ : BufTy).Contents (Elt F) → (⟨S4x2048x4096, .f32⟩ : BufTy).Contents (Elt F) → (⟨S4x2048x4096, .f32⟩ : BufTy).Contents (Elt F)) ]

/-- Operations 94 … 101 of 160: up to `main_v57`. -/
abbrev seg19 : List (HloOp τ sig (Elt F)) :=
  [ binary main_v11 main_v51 main_v52 (mulf : (⟨S4x2048x4096, .f32⟩ : BufTy).Contents (Elt F) → (⟨S4x2048x4096, .f32⟩ : BufTy).Contents (Elt F) → (⟨S4x2048x4096, .f32⟩ : BufTy).Contents (Elt F)),
    binary main_v52 main_v43 main_v53 (addf : (⟨S4x2048x4096, .f32⟩ : BufTy).Contents (Elt F) → (⟨S4x2048x4096, .f32⟩ : BufTy).Contents (Elt F) → (⟨S4x2048x4096, .f32⟩ : BufTy).Contents (Elt F)),
    nullary main_cst_15 (constant S_ .f32 0x00000000#32),
    binary main_v53 main_cst_15 main_v54 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v54 main_v55 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_16 (constant S_ .f32 0x45800000#32),
    unary main_cst_16 main_v56 (broadcastInDim S4x2048x1 ![] bcast_S_S4x2048x1 : (⟨S_, .f32⟩ : BufTy).Contents (Elt F) → (⟨S4x2048x1, .f32⟩ : BufTy).Contents (Elt F)),
    binary main_v55 main_v56 main_v57 (Host.divf : (⟨S4x2048x1, .f32⟩ : BufTy).Contents (Elt F) → (⟨S4x2048x1, .f32⟩ : BufTy).Contents (Elt F) → (⟨S4x2048x1, .f32⟩ : BufTy).Contents (Elt F)) ]

/-- Operations 102 … 112 of 160: up to `main_v65`. -/
abbrev seg20 : List (HloOp τ sig (Elt F)) :=
  [ nullary main_cst_17 (constant S_ .f32 0x40000000#32),
    unary main_cst_17 main_v58 (broadcastInDim S4x2048x1 ![] bcast_S_S4x2048x1 : (⟨S_, .f32⟩ : BufTy).Contents (Elt F) → (⟨S4x2048x1, .f32⟩ : BufTy).Contents (Elt F)),
    binary main_v58 main_v57 main_v59 (mulf : (⟨S4x2048x1, .f32⟩ : BufTy).Contents (Elt F) → (⟨S4x2048x1, .f32⟩ : BufTy).Contents (Elt F) → (⟨S4x2048x1, .f32⟩ : BufTy).Contents (Elt F)),
    binary main_v33 main_v33 main_v60 (mulf : (⟨S4x2048x1, .f32⟩ : BufTy).Contents (Elt F) → (⟨S4x2048x1, .f32⟩ : BufTy).Contents (Elt F) → (⟨S4x2048x1, .f32⟩ : BufTy).Contents (Elt F)),
    nullary main_cst_18 (constant S_ .f32 0xBF000000#32),
    unary main_cst_18 main_v61 (broadcastInDim S4x2048x1 ![] bcast_S_S4x2048x1 : (⟨S_, .f32⟩ : BufTy).Contents (Elt F) → (⟨S4x2048x1, .f32⟩ : BufTy).Contents (Elt F)),
    binary main_v61 main_v60 main_v62 (mulf : (⟨S4x2048x1, .f32⟩ : BufTy).Contents (Elt F) → (⟨S4x2048x1, .f32⟩ : BufTy).Contents (Elt F) → (⟨S4x2048x1, .f32⟩ : BufTy).Contents (Elt F)),
    nullary main_cst_19 (constant S_ .f32 0x3F000000#32),
    unary main_cst_19 main_v63 (broadcastInDim S4x2048x1 ![] bcast_S_S4x2048x1 : (⟨S_, .f32⟩ : BufTy).Contents (Elt F) → (⟨S4x2048x1, .f32⟩ : BufTy).Contents (Elt F)),
    binary main_v63 main_v59 main_v64 (mulf : (⟨S4x2048x1, .f32⟩ : BufTy).Contents (Elt F) → (⟨S4x2048x1, .f32⟩ : BufTy).Contents (Elt F) → (⟨S4x2048x1, .f32⟩ : BufTy).Contents (Elt F)),
    binary main_v62 main_v64 main_v65 (addf : (⟨S4x2048x1, .f32⟩ : BufTy).Contents (Elt F) → (⟨S4x2048x1, .f32⟩ : BufTy).Contents (Elt F) → (⟨S4x2048x1, .f32⟩ : BufTy).Contents (Elt F)) ]

/-- Operations 113 … 122 of 160: up to `main_v72`. -/
abbrev seg21 : List (HloOp τ sig (Elt F)) :=
  [ nullary main_cst_20 (constant S_ .f32 0x3B4F3E37#32),
    unary main_cst_20 main_v66 (broadcastInDim S4x2048x1 ![] bcast_S_S4x2048x1 : (⟨S_, .f32⟩ : BufTy).Contents (Elt F) → (⟨S4x2048x1, .f32⟩ : BufTy).Contents (Elt F)),
    binary main_v65 main_v66 main_v67 (addf : (⟨S4x2048x1, .f32⟩ : BufTy).Contents (Elt F) → (⟨S4x2048x1, .f32⟩ : BufTy).Contents (Elt F) → (⟨S4x2048x1, .f32⟩ : BufTy).Contents (Elt F)),
    binary main_v36 main_v67 main_v68 (Host.divf : (⟨S4x2048x1, .f32⟩ : BufTy).Contents (Elt F) → (⟨S4x2048x1, .f32⟩ : BufTy).Contents (Elt F) → (⟨S4x2048x1, .f32⟩ : BufTy).Contents (Elt F)),
    nullary main_cst_21 (constant S_ .f32 0x3F800000#32),
    unary main_cst_21 main_v69 (broadcastInDim S4x2048x1 ![] bcast_S_S4x2048x1 : (⟨S_, .f32⟩ : BufTy).Contents (Elt F) → (⟨S4x2048x1, .f32⟩ : BufTy).Contents (Elt F)),
    binary main_v69 main_v68 main_v70 (subf : (⟨S4x2048x1, .f32⟩ : BufTy).Contents (Elt F) → (⟨S4x2048x1, .f32⟩ : BufTy).Contents (Elt F) → (⟨S4x2048x1, .f32⟩ : BufTy).Contents (Elt F)),
    nullary main_cst_22 (constant S_ .f32 0x3F800000#32),
    unary main_cst_22 main_v71 (broadcastInDim S4x2048x1 ![] bcast_S_S4x2048x1 : (⟨S_, .f32⟩ : BufTy).Contents (Elt F) → (⟨S4x2048x1, .f32⟩ : BufTy).Contents (Elt F)),
    binary main_v70 main_v71 main_v72 (subf : (⟨S4x2048x1, .f32⟩ : BufTy).Contents (Elt F) → (⟨S4x2048x1, .f32⟩ : BufTy).Contents (Elt F) → (⟨S4x2048x1, .f32⟩ : BufTy).Contents (Elt F)) ]

/-- Operations 123 … 127 of 160: up to `main_v76`. -/
abbrev seg22 : List (HloOp τ sig (Elt F)) :=
  [ unary main_v72 main_v73 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v15 main_v73 main_v74 (mulf : (⟨S4x2048x4096, .f32⟩ : BufTy).Contents (Elt F) → (⟨S4x2048x4096, .f32⟩ : BufTy).Contents (Elt F) → (⟨S4x2048x4096, .f32⟩ : BufTy).Contents (Elt F)),
    nullary main_cst_23 (constant S_ .f32 0x3F800000#32),
    unary main_cst_23 main_v75 (broadcastInDim S4x2048x4096 ![] bcast_S_S4x2048x4096 : (⟨S_, .f32⟩ : BufTy).Contents (Elt F) → (⟨S4x2048x4096, .f32⟩ : BufTy).Contents (Elt F)),
    binary main_v75 main_v74 main_v76 (addf : (⟨S4x2048x4096, .f32⟩ : BufTy).Contents (Elt F) → (⟨S4x2048x4096, .f32⟩ : BufTy).Contents (Elt F) → (⟨S4x2048x4096, .f32⟩ : BufTy).Contents (Elt F)) ]

/-- Operations 128 … 128 of 160: up to `main_v77`. -/
abbrev seg23 : List (HloOp τ sig (Elt F)) :=
  [ unary main_v76 main_v77 (Host.sign : (⟨S4x2048x4096, .f32⟩ : BufTy).Contents (Elt F) → (⟨S4x2048x4096, .f32⟩ : BufTy).Contents (Elt F)) ]

/-- Operations 129 … 135 of 160: up to `main_v80`. -/
abbrev seg24 : List (HloOp τ sig (Elt F)) :=
  [ nullary main_cst_24 (constant S_ .f32 0x00000000#32),
    unary main_cst_24 main_v78 (broadcastInDim S4x2048x4096 ![] bcast_S_S4x2048x4096 : (⟨S_, .f32⟩ : BufTy).Contents (Elt F) → (⟨S4x2048x4096, .f32⟩ : BufTy).Contents (Elt F)),
    binary main_v77 main_v78 main_v79 (cmpf .oeq : (⟨S4x2048x4096, .f32⟩ : BufTy).Contents (Elt F) → (⟨S4x2048x4096, .f32⟩ : BufTy).Contents (Elt F) → (⟨S4x2048x4096, .i1⟩ : BufTy).Contents (Elt F)),
    nullary main_cst_25 (constant S_ .f32 0x3F800000#32),
    unary main_cst_25 main_call2_v0 (id : (⟨S_, .f32⟩ : BufTy).Contents (Elt F) → (⟨S_, .f32⟩ : BufTy).Contents (Elt F)),
    unary main_call2_v0 main_call2_v1 (broadcastInDim S4x2048x4096 ![] bcast_S_S4x2048x4096 : (⟨S_, .f32⟩ : BufTy).Contents (Elt F) → (⟨S4x2048x4096, .f32⟩ : BufTy).Contents (Elt F)),
    ternary main_v79 main_call2_v1 main_v77 main_v80 (select : (⟨S4x2048x4096, .i1⟩ : BufTy).Contents (Elt F) → (⟨S4x2048x4096, .f32⟩ : BufTy).Contents (Elt F) → (⟨S4x2048x4096, .f32⟩ : BufTy).Contents (Elt F) → (⟨S4x2048x4096, .f32⟩ : BufTy).Contents (Elt F)) ]

/-- Operations 136 … 139 of 160: up to `main_v83`. -/
abbrev seg25 : List (HloOp τ sig (Elt F)) :=
  [ nullary main_cst_26 (constant S_ .f32 0x3B4F3E37#32),
    unary main_cst_26 main_v81 (broadcastInDim S4x2048x4096 ![] bcast_S_S4x2048x4096 : (⟨S_, .f32⟩ : BufTy).Contents (Elt F) → (⟨S4x2048x4096, .f32⟩ : BufTy).Contents (Elt F)),
    binary main_v80 main_v81 main_v82 (mulf : (⟨S4x2048x4096, .f32⟩ : BufTy).Contents (Elt F) → (⟨S4x2048x4096, .f32⟩ : BufTy).Contents (Elt F) → (⟨S4x2048x4096, .f32⟩ : BufTy).Contents (Elt F)),
    binary main_v76 main_v82 main_v83 (addf : (⟨S4x2048x4096, .f32⟩ : BufTy).Contents (Elt F) → (⟨S4x2048x4096, .f32⟩ : BufTy).Contents (Elt F) → (⟨S4x2048x4096, .f32⟩ : BufTy).Contents (Elt F)) ]

/-- Operations 140 … 144 of 160: up to `main_v87`. -/
abbrev seg26 : List (HloOp τ sig (Elt F)) :=
  [ binary main_v15 main_v83 main_v84 (Host.divf : (⟨S4x2048x4096, .f32⟩ : BufTy).Contents (Elt F) → (⟨S4x2048x4096, .f32⟩ : BufTy).Contents (Elt F) → (⟨S4x2048x4096, .f32⟩ : BufTy).Contents (Elt F)),
    nullary main_cst_27 (constant S_ .f32 0x3F800000#32),
    unary main_cst_27 main_v85 (broadcastInDim S4x2048x4096 ![] bcast_S_S4x2048x4096 : (⟨S_, .f32⟩ : BufTy).Contents (Elt F) → (⟨S4x2048x4096, .f32⟩ : BufTy).Contents (Elt F)),
    binary main_v85 main_v16 main_v86 (addf : (⟨S4x2048x4096, .f32⟩ : BufTy).Contents (Elt F) → (⟨S4x2048x4096, .f32⟩ : BufTy).Contents (Elt F) → (⟨S4x2048x4096, .f32⟩ : BufTy).Contents (Elt F)),
    binary main_v86 main_v83 main_v87 (Host.powf : (⟨S4x2048x4096, .f32⟩ : BufTy).Contents (Elt F) → (⟨S4x2048x4096, .f32⟩ : BufTy).Contents (Elt F) → (⟨S4x2048x4096, .f32⟩ : BufTy).Contents (Elt F)) ]

/-- Operations 145 … 154 of 160: up to `main_v95`. -/
abbrev seg27 : List (HloOp τ sig (Elt F)) :=
  [ nullary main_cst_28 (constant S_ .f32 0x3F800000#32),
    unary main_cst_28 main_v88 (broadcastInDim S4x2048x4096 ![] bcast_S_S4x2048x4096 : (⟨S_, .f32⟩ : BufTy).Contents (Elt F) → (⟨S4x2048x4096, .f32⟩ : BufTy).Contents (Elt F)),
    binary main_v87 main_v88 main_v89 (subf : (⟨S4x2048x4096, .f32⟩ : BufTy).Contents (Elt F) → (⟨S4x2048x4096, .f32⟩ : BufTy).Contents (Elt F) → (⟨S4x2048x4096, .f32⟩ : BufTy).Contents (Elt F)),
    binary main_v84 main_v89 main_v90 (mulf : (⟨S4x2048x4096, .f32⟩ : BufTy).Contents (Elt F) → (⟨S4x2048x4096, .f32⟩ : BufTy).Contents (Elt F) → (⟨S4x2048x4096, .f32⟩ : BufTy).Contents (Elt F)),
    binary main_v15 main_v17 main_v91 (mulf : (⟨S4x2048x4096, .f32⟩ : BufTy).Contents (Elt F) → (⟨S4x2048x4096, .f32⟩ : BufTy).Contents (Elt F) → (⟨S4x2048x4096, .f32⟩ : BufTy).Contents (Elt F)),
    unary main_v76 main_v92 (Host.absf : (⟨S4x2048x4096, .f32⟩ : BufTy).Contents (Elt F) → (⟨S4x2048x4096, .f32⟩ : BufTy).Contents (Elt F)),
    nullary main_cst_29 (constant S_ .f32 0x3B4F3E37#32),
    unary main_cst_29 main_v93 (broadcastInDim S4x2048x4096 ![] bcast_S_S4x2048x4096 : (⟨S_, .f32⟩ : BufTy).Contents (Elt F) → (⟨S4x2048x4096, .f32⟩ : BufTy).Contents (Elt F)),
    binary main_v92 main_v93 main_v94 (cmpf .ole : (⟨S4x2048x4096, .f32⟩ : BufTy).Contents (Elt F) → (⟨S4x2048x4096, .f32⟩ : BufTy).Contents (Elt F) → (⟨S4x2048x4096, .i1⟩ : BufTy).Contents (Elt F)),
    ternary main_v94 main_v91 main_v90 main_v95 (select : (⟨S4x2048x4096, .i1⟩ : BufTy).Contents (Elt F) → (⟨S4x2048x4096, .f32⟩ : BufTy).Contents (Elt F) → (⟨S4x2048x4096, .f32⟩ : BufTy).Contents (Elt F) → (⟨S4x2048x4096, .f32⟩ : BufTy).Contents (Elt F)) ]

/-- Operations 155 … 160 of 160: up to `main_v101`. -/
abbrev seg28 : List (HloOp τ sig (Elt F)) :=
  [ unary main_arg1 main_v96 (broadcastInDim S1x1x4096 ![2] bcast_S4096_S1x1x4096_2 : (⟨S4096, .f32⟩ : BufTy).Contents (Elt F) → (⟨S1x1x4096, .f32⟩ : BufTy).Contents (Elt F)),
    unary main_v96 main_v97 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v95 main_v97 main_v98 (mulf : (⟨S4x2048x4096, .f32⟩ : BufTy).Contents (Elt F) → (⟨S4x2048x4096, .f32⟩ : BufTy).Contents (Elt F) → (⟨S4x2048x4096, .f32⟩ : BufTy).Contents (Elt F)),
    unary main_arg2 main_v99 (broadcastInDim S1x1x4096 ![2] bcast_S4096_S1x1x4096_2 : (⟨S4096, .f32⟩ : BufTy).Contents (Elt F) → (⟨S1x1x4096, .f32⟩ : BufTy).Contents (Elt F)),
    unary main_v99 main_v100 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v98 main_v100 main_v101 (addf : (⟨S4x2048x4096, .f32⟩ : BufTy).Contents (Elt F) → (⟨S4x2048x4096, .f32⟩ : BufTy).Contents (Elt F) → (⟨S4x2048x4096, .f32⟩ : BufTy).Contents (Elt F)) ]

/-- @main's 160 operations, in order, the calls unfolded. -/
abbrev ops : List (HloOp τ sig (Elt F)) :=
  seg01 ++ (seg02 ++ (seg03 ++ (seg04 ++ (seg05 ++ (seg06 ++ (seg07 ++ (seg08 ++ (seg09 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28)))))))))))))))))))))))))))

set_option maxRecDepth 8192 in
set_option maxHeartbeats 4000000 in
/-- @main is that straight line: the three windows and the functions' definitions unfolded at their calls, both sides
    are one chain of `hlo` steps once sequencing is reassociated. -/
theorem main_eq (c : Dev nD) : main (F := F) c = seq ops := by
  simp only [main, main_part0, main_part1, main_part2, fn_var.body, fn_where.body, fn_where_0.body, fn_where_1.body,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem seg01_sub : (seg01 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem seg02_sub : (seg02 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub ..⟩
theorem seg03_sub : (seg03 : List (HloOp τ sig (Elt F))).Forall fun op => op.bufs ⊆ tcRefs τ sig :=
  ⟨unary_bufs_sub .., binary_bufs_sub ..⟩
theorem seg04_sub : (seg04 : List (HloOp τ sig (Elt F))).Forall fun op => op.bufs ⊆ tcRefs τ sig :=
  ⟨binary_bufs_sub .., unary_bufs_sub .., nullary_bufs_sub .., binary_bufs_sub ..⟩
theorem seg05_sub : (seg05 : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem seg06_sub : (seg06 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem seg07_sub : (seg07 : List (HloOp τ sig (Elt F))).Forall fun op => op.bufs ⊆ tcRefs τ sig :=
  unary_bufs_sub ..
theorem seg08_sub : (seg08 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..⟩
theorem seg09_sub : (seg09 : List (HloOp τ sig (Elt F))).Forall fun op => op.bufs ⊆ tcRefs τ sig :=
  unary_bufs_sub ..
theorem seg10_sub : (seg10 : List (HloOp τ sig (Elt F))).Forall fun op => op.bufs ⊆ tcRefs τ sig :=
  unary_bufs_sub ..
theorem seg11_sub : (seg11 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub ..⟩
theorem seg12_sub : (seg12 : List (HloOp τ sig (Elt F))).Forall fun op => op.bufs ⊆ tcRefs τ sig :=
  ⟨nullary_bufs_sub .., unary_bufs_sub .., binary_bufs_sub .., binary_bufs_sub .., binary_bufs_sub ..⟩
theorem seg13_sub : (seg13 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub ..⟩
theorem seg14_sub : (seg14 : List (HloOp τ sig (Elt F))).Forall fun op => op.bufs ⊆ tcRefs τ sig :=
  ⟨nullary_bufs_sub .., unary_bufs_sub .., binary_bufs_sub .., binary_bufs_sub ..⟩
theorem seg15_sub : (seg15 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem seg16_sub : (seg16 : List (HloOp τ sig (Elt F))).Forall fun op => op.bufs ⊆ tcRefs τ sig :=
  ⟨unary_bufs_sub .., binary_bufs_sub ..⟩
theorem seg17_sub : (seg17 : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., binary_bufs_sub .., binary_bufs_sub ..⟩
theorem seg18_sub : (seg18 : List (HloOp τ sig (Elt F))).Forall fun op => op.bufs ⊆ tcRefs τ sig :=
  binary_bufs_sub ..
theorem seg19_sub : (seg19 : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub ..⟩
theorem seg20_sub : (seg20 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
theorem seg21_sub : (seg21 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub ..⟩
theorem seg22_sub : (seg22 : List (HloOp τ sig (Elt F))).Forall fun op => op.bufs ⊆ tcRefs τ sig :=
  ⟨unary_bufs_sub .., binary_bufs_sub .., nullary_bufs_sub .., unary_bufs_sub .., binary_bufs_sub ..⟩
theorem seg23_sub : (seg23 : List (HloOp τ sig (Elt F))).Forall fun op => op.bufs ⊆ tcRefs τ sig :=
  unary_bufs_sub ..
theorem seg24_sub : (seg24 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..⟩
theorem seg25_sub : (seg25 : List (HloOp τ sig (Elt F))).Forall fun op => op.bufs ⊆ tcRefs τ sig :=
  ⟨nullary_bufs_sub .., unary_bufs_sub .., binary_bufs_sub .., binary_bufs_sub ..⟩
theorem seg26_sub : (seg26 : List (HloOp τ sig (Elt F))).Forall fun op => op.bufs ⊆ tcRefs τ sig :=
  ⟨binary_bufs_sub .., nullary_bufs_sub .., unary_bufs_sub .., binary_bufs_sub .., binary_bufs_sub ..⟩
theorem seg27_sub : (seg27 : List (HloOp τ sig (Elt F))).Forall fun op => op.bufs ⊆ tcRefs τ sig :=
  ⟨nullary_bufs_sub .., unary_bufs_sub .., binary_bufs_sub .., binary_bufs_sub .., binary_bufs_sub .., unary_bufs_sub .., nullary_bufs_sub .., unary_bufs_sub .., binary_bufs_sub .., ternary_bufs_sub ..⟩
theorem seg28_sub : (seg28 : List (HloOp τ sig (Elt F))).Forall fun op => op.bufs ⊆ tcRefs τ sig :=
  ⟨unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h | h
    exacts [List.forall_iff_forall_mem.mp seg01_sub op h, List.forall_iff_forall_mem.mp seg02_sub op h, List.forall_iff_forall_mem.mp seg03_sub op h, List.forall_iff_forall_mem.mp seg04_sub op h, List.forall_iff_forall_mem.mp seg05_sub op h, List.forall_iff_forall_mem.mp seg06_sub op h, List.forall_iff_forall_mem.mp seg07_sub op h, List.forall_iff_forall_mem.mp seg08_sub op h, List.forall_iff_forall_mem.mp seg09_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h, List.forall_iff_forall_mem.mp seg15_sub op h, List.forall_iff_forall_mem.mp seg16_sub op h, List.forall_iff_forall_mem.mp seg17_sub op h, List.forall_iff_forall_mem.mp seg18_sub op h, List.forall_iff_forall_mem.mp seg19_sub op h, List.forall_iff_forall_mem.mp seg20_sub op h, List.forall_iff_forall_mem.mp seg21_sub op h, List.forall_iff_forall_mem.mp seg22_sub op h, List.forall_iff_forall_mem.mp seg23_sub op h, List.forall_iff_forall_mem.mp seg24_sub op h, List.forall_iff_forall_mem.mp seg25_sub op h, List.forall_iff_forall_mem.mp seg26_sub op h, List.forall_iff_forall_mem.mp seg27_sub op h, List.forall_iff_forall_mem.mp seg28_sub op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefWrites.lean ====
/-
  What each stretch of the reference's operations writes, as a literal list of references: a reference outside the
  list keeps its contents through the stretch.
-/
import proofs.«141878_j5377299054673_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references stretch 1 writes. -/
abbrev seg01_W : List (Ref sig .tc) := [main_cst, main_v0, main_v1, main_cst_0, main_v2, main_v3]
theorem seg01_writes : (seg01 : List (HloOp τ sig (Elt F))).Forall fun op => op.writes ⊆ (seg01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 2 writes. -/
abbrev seg02_W : List (Ref sig .tc) := [main_c, main_call0_cst, main_call0_v0, main_call0_v1, main_call0_cst_0, main_call0_v2, main_call0_v3]
theorem seg02_writes : (seg02 : List (HloOp τ sig (Elt F))).Forall fun op => op.writes ⊆ (seg02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 3 writes. -/
abbrev seg03_W : List (Ref sig .tc) := [main_call0_v4, main_call0_v5]
theorem seg03_writes : (seg03 : List (HloOp τ sig (Elt F))).Forall fun op => op.writes ⊆ (seg03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 4 writes. -/
abbrev seg04_W : List (Ref sig .tc) := [main_call0_v6, main_call0_v7, main_call0_cst_1, main_call0_v8]
theorem seg04_writes : (seg04 : List (HloOp τ sig (Elt F))).Forall fun op => op.writes ⊆ (seg04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 5 writes. -/
abbrev seg05_W : List (Ref sig .tc) := [main_call0_cst_2, main_call0_v9, main_call0_v10, main_call0_v11, main_call0_v12, main_call0_cst_3, main_call0_v13, main_call0_cst_4, main_call0_call0_v0, main_call0_call0_v1, main_v4]
theorem seg05_writes : (seg05 : List (HloOp τ sig (Elt F))).Forall fun op => op.writes ⊆ (seg05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 6 writes. -/
abbrev seg06_W : List (Ref sig .tc) := [main_v5, main_v6, main_cst_1, main_v7, main_v8, main_v9, main_v10, main_v11]
theorem seg06_writes : (seg06 : List (HloOp τ sig (Elt F))).Forall fun op => op.writes ⊆ (seg06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 7 writes. -/
abbrev seg07_W : List (Ref sig .tc) := [main_v12]
theorem seg07_writes : (seg07 : List (HloOp τ sig (Elt F))).Forall fun op => op.writes ⊆ (seg07_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- The references stretch 8 writes. -/
abbrev seg08_W : List (Ref sig .tc) := [main_cst_2, main_v13, main_v14, main_cst_3, main_call1_v0, main_call1_v1, main_v15]
theorem seg08_writes : (seg08 : List (HloOp τ sig (Elt F))).Forall fun op => op.writes ⊆ (seg08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 9 writes. -/
abbrev seg09_W : List (Ref sig .tc) := [main_v16]
theorem seg09_writes : (seg09 : List (HloOp τ sig (Elt F))).Forall fun op => op.writes ⊆ (seg09_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- The references stretch 10 writes. -/
abbrev seg10_W : List (Ref sig .tc) := [main_v17]
theorem seg10_writes : (seg10 : List (HloOp τ sig (Elt F))).Forall fun op => op.writes ⊆ (seg10_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- The references stretch 11 writes. -/
abbrev seg11_W : List (Ref sig .tc) := [main_v18, main_cst_4, main_v19, main_v20, main_cst_5, main_v21, main_v22]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 12 writes. -/
abbrev seg12_W : List (Ref sig .tc) := [main_cst_6, main_v23, main_v24, main_v25, main_v26]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 13 writes. -/
abbrev seg13_W : List (Ref sig .tc) := [main_v27, main_cst_7, main_v28, main_v29, main_cst_8, main_v30, main_v31, main_cst_9, main_v32, main_v33]
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 14 writes. -/
abbrev seg14_W : List (Ref sig .tc) := [main_cst_10, main_v34, main_v35, main_v36]
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 15 writes. -/
abbrev seg15_W : List (Ref sig .tc) := [main_cst_11, main_v37, main_v38, main_cst_12, main_v39, main_v40]
theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 16 writes. -/
abbrev seg16_W : List (Ref sig .tc) := [main_v41, main_v42]
theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 17 writes. -/
abbrev seg17_W : List (Ref sig .tc) := [main_v43, main_cst_13, main_v44, main_v45, main_v46, main_v47, main_cst_14, main_v48, main_v49, main_v50]
theorem seg17_writes : (seg17 : List (HloOp τ sig (Elt F))).Forall fun op => op.writes ⊆ (seg17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 18 writes. -/
abbrev seg18_W : List (Ref sig .tc) := [main_v51]
theorem seg18_writes : (seg18 : List (HloOp τ sig (Elt F))).Forall fun op => op.writes ⊆ (seg18_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- The references stretch 19 writes. -/
abbrev seg19_W : List (Ref sig .tc) := [main_v52, main_v53, main_cst_15, main_v54, main_v55, main_cst_16, main_v56, main_v57]
theorem seg19_writes : (seg19 : List (HloOp τ sig (Elt F))).Forall fun op => op.writes ⊆ (seg19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 20 writes. -/
abbrev seg20_W : List (Ref sig .tc) := [main_cst_17, main_v58, main_v59, main_v60, main_cst_18, main_v61, main_v62, main_cst_19, main_v63, main_v64, main_v65]
theorem seg20_writes : (seg20 : List (HloOp τ sig (Elt F))).Forall fun op => op.writes ⊆ (seg20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 21 writes. -/
abbrev seg21_W : List (Ref sig .tc) := [main_cst_20, main_v66, main_v67, main_v68, main_cst_21, main_v69, main_v70, main_cst_22, main_v71, main_v72]
theorem seg21_writes : (seg21 : List (HloOp τ sig (Elt F))).Forall fun op => op.writes ⊆ (seg21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 22 writes. -/
abbrev seg22_W : List (Ref sig .tc) := [main_v73, main_v74, main_cst_23, main_v75, main_v76]
theorem seg22_writes : (seg22 : List (HloOp τ sig (Elt F))).Forall fun op => op.writes ⊆ (seg22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 23 writes. -/
abbrev seg23_W : List (Ref sig .tc) := [main_v77]
theorem seg23_writes : (seg23 : List (HloOp τ sig (Elt F))).Forall fun op => op.writes ⊆ (seg23_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- The references stretch 24 writes. -/
abbrev seg24_W : List (Ref sig .tc) := [main_cst_24, main_v78, main_v79, main_cst_25, main_call2_v0, main_call2_v1, main_v80]
theorem seg24_writes : (seg24 : List (HloOp τ sig (Elt F))).Forall fun op => op.writes ⊆ (seg24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 25 writes. -/
abbrev seg25_W : List (Ref sig .tc) := [main_cst_26, main_v81, main_v82, main_v83]
theorem seg25_writes : (seg25 : List (HloOp τ sig (Elt F))).Forall fun op => op.writes ⊆ (seg25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 26 writes. -/
abbrev seg26_W : List (Ref sig .tc) := [main_v84, main_cst_27, main_v85, main_v86, main_v87]
theorem seg26_writes : (seg26 : List (HloOp τ sig (Elt F))).Forall fun op => op.writes ⊆ (seg26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 27 writes. -/
abbrev seg27_W : List (Ref sig .tc) := [main_cst_28, main_v88, main_v89, main_v90, main_v91, main_v92, main_cst_29, main_v93, main_v94, main_v95]
theorem seg27_writes : (seg27 : List (HloOp τ sig (Elt F))).Forall fun op => op.writes ⊆ (seg27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references stretch 28 writes. -/
abbrev seg28_W : List (Ref sig .tc) := [main_v96, main_v97, main_v98, main_v99, main_v100, main_v101]
theorem seg28_writes : (seg28 : List (HloOp τ sig (Elt F))).Forall fun op => op.writes ⊆ (seg28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.RefStages.lean ====
/-
  The reference's values as named stages: each a function of the argument arrays, written with the program's own
  operations over the earlier stages, at the exact-real instance. A stage is a value that later lines read more than
  once, or one the row transform names.
-/
import proofs.«141878_j5377299054673_2_alg».proof.ReferenceIdeal
import proofs.«141878_j5377299054673_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The row means `%3`: the sum of each row from the zero literal, over the row length, as a `[4, 2048, 1]` column. -/
def stMean (x : FVec Ideal S4x2048x4096 .f32) : FVec Ideal S4x2048x1 .f32 :=
  ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) (((fun x v => Host.reduceAdd (F := Ideal) (φ := .f32) x v reducesTo_S4x2048x4096_S4x2048_d2 h_S_) : (⟨S4x2048x4096, .f32⟩ : BufTy).Contents (Elt Ideal) → (⟨S_, .f32⟩ : BufTy).Contents (Elt Ideal) → (⟨S4x2048, .f32⟩ : BufTy).Contents (Elt Ideal)) x (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32)))

/-- The variance function's own row means. -/
def stMeanV (x : FVec Ideal S4x2048x4096 .f32) : FVec Ideal S4x2048x1 .f32 :=
  ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) ((fun x v => Host.reduceAdd (F := Ideal) (φ := .f32) x v reducesTo_S4x2048x4096_S4x2048_d2 h_S_ : (⟨S4x2048x4096, .f32⟩ : BufTy).Contents (Elt Ideal) → (⟨S_, .f32⟩ : BufTy).Contents (Elt Ideal) → (⟨S4x2048, .f32⟩ : BufTy).Contents (Elt Ideal)) x (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32)))

/-- The entries less their row mean, inside the variance function. -/
def stCen (x : FVec Ideal S4x2048x4096 .f32) : FVec Ideal S4x2048x4096 .f32 :=
  ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) x ((broadcastInDim S4x2048x4096 ![0, 1, 2] bcast_S4x2048x1_S4x2048x4096_0_1_2 : (⟨S4x2048x1, .f32⟩ : BufTy).Contents (Elt Ideal) → (⟨S4x2048x4096, .f32⟩ : BufTy).Contents (Elt Ideal)) (stMeanV x)))

/-- The row length less the degrees-of-freedom correction, a scalar. -/
def stNd (x : FVec Ideal S4x2048x4096 .f32) : FVec Ideal S_ .f32 :=
  ((subf (F := Ideal) (φ := .f32) : (⟨S_, .f32⟩ : BufTy).Contents (Elt Ideal) → (⟨S_, .f32⟩ : BufTy).Contents (Elt Ideal) → (⟨S_, .f32⟩ : BufTy).Contents (Elt Ideal)) (constant (F := Ideal) S_ .f32 0x45800000#32) ((sitofp (F := Ideal) .f32 : (⟨S_, .i32⟩ : BufTy).Contents (Elt Ideal) → (⟨S_, .f32⟩ : BufTy).Contents (Elt Ideal)) (constantI S_ 32 0#32)))

/-- The row variances `%4`: the centred squares' sum over `N - ddof`, guarded by `N - ddof > 0` against the NaN literal. -/
def stVar (x : FVec Ideal S4x2048x4096 .f32) : FVec Ideal S4x2048x1 .f32 :=
  ((fun p a b => select (broadcastInDim S4x2048x1 ![] bcast_S_S4x2048x1 p) a b : (⟨S_, .i1⟩ : BufTy).Contents (Elt Ideal) → (⟨S4x2048x1, .f32⟩ : BufTy).Contents (Elt Ideal) → (⟨S4x2048x1, .f32⟩ : BufTy).Contents (Elt Ideal) → (⟨S4x2048x1, .f32⟩ : BufTy).Contents (Elt Ideal)) ((cmpf (F := Ideal) (φ := .f32) .ogt : (⟨S_, .f32⟩ : BufTy).Contents (Elt Ideal) → (⟨S_, .f32⟩ : BufTy).Contents (Elt Ideal) → (⟨S_, .i1⟩ : BufTy).Contents (Elt Ideal)) (stNd x) (constant (F := Ideal) S_ .f32 0x00000000#32)) ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) ((fun x v => Host.reduceAdd (F := Ideal) (φ := .f32) x v reducesTo_S4x2048x4096_S4x2048_d2 h_S_ : (⟨S4x2048x4096, .f32⟩ : BufTy).Contents (Elt Ideal) → (⟨S_, .f32⟩ : BufTy).Contents (Elt Ideal) → (⟨S4x2048, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stCen x) (stCen x)) (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (stNd x))) ((broadcastInDim S4x2048x1 ![] bcast_S_S4x2048x1 : (⟨S_, .f32⟩ : BufTy).Contents (Elt Ideal) → (⟨S4x2048x1, .f32⟩ : BufTy).Contents (Elt Ideal)) ((id : (⟨S_, .f32⟩ : BufTy).Contents (Elt Ideal) → (⟨S_, .f32⟩ : BufTy).Contents (Elt Ideal)) (constant (F := Ideal) S_ .f32 0x7FC00000#32))))

/-- The standardised entries `%11`. -/
def stXs (x : FVec Ideal S4x2048x4096 .f32) : FVec Ideal S4x2048x4096 .f32 :=
  ((Host.divf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) x ((broadcastInDim S4x2048x4096 ![0, 1, 2] bcast_S4x2048x1_S4x2048x4096_0_1_2 : (⟨S4x2048x1, .f32⟩ : BufTy).Contents (Elt Ideal) → (⟨S4x2048x4096, .f32⟩ : BufTy).Contents (Elt Ideal)) (stMean x))) ((broadcastInDim S4x2048x4096 ![0, 1, 2] bcast_S4x2048x1_S4x2048x4096_0_1_2 : (⟨S4x2048x1, .f32⟩ : BufTy).Contents (Elt Ideal) → (⟨S4x2048x4096, .f32⟩ : BufTy).Contents (Elt Ideal)) ((Host.sqrt (F := Ideal) (φ := .f32) : (⟨S4x2048x1, .f32⟩ : BufTy).Contents (Elt Ideal) → (⟨S4x2048x1, .f32⟩ : BufTy).Contents (Elt Ideal)) ((addf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) (stVar x) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3727C5AC#32))))))

/-- Their signs `%12`. -/
def stSign (x : FVec Ideal S4x2048x4096 .f32) : FVec Ideal S4x2048x4096 .f32 :=
  ((Host.sign (F := Ideal) (φ := .f32) : (⟨S4x2048x4096, .f32⟩ : BufTy).Contents (Elt Ideal) → (⟨S4x2048x4096, .f32⟩ : BufTy).Contents (Elt Ideal)) (stXs x))

/-- The signs patched to one at zero `%15`. -/
def stSg (x : FVec Ideal S4x2048x4096 .f32) : FVec Ideal S4x2048x4096 .f32 :=
  ((select : (⟨S4x2048x4096, .i1⟩ : BufTy).Contents (Elt Ideal) → (⟨S4x2048x4096, .f32⟩ : BufTy).Contents (Elt Ideal) → (⟨S4x2048x4096, .f32⟩ : BufTy).Contents (Elt Ideal) → (⟨S4x2048x4096, .f32⟩ : BufTy).Contents (Elt Ideal)) ((cmpf (F := Ideal) (φ := .f32) .oeq : (⟨S4x2048x4096, .f32⟩ : BufTy).Contents (Elt Ideal) → (⟨S4x2048x4096, .f32⟩ : BufTy).Contents (Elt Ideal) → (⟨S4x2048x4096, .i1⟩ : BufTy).Contents (Elt Ideal)) (stSign x) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x00000000#32))) ((broadcastInDim S4x2048x4096 ![] bcast_S_S4x2048x4096 : (⟨S_, .f32⟩ : BufTy).Contents (Elt Ideal) → (⟨S4x2048x4096, .f32⟩ : BufTy).Contents (Elt Ideal)) ((id : (⟨S_, .f32⟩ : BufTy).Contents (Elt Ideal) → (⟨S_, .f32⟩ : BufTy).Contents (Elt Ideal)) (constant (F := Ideal) S_ .f32 0x3F800000#32))) (stSign x))

/-- Their moduli `%16`. -/
def stAbs (x : FVec Ideal S4x2048x4096 .f32) : FVec Ideal S4x2048x4096 .f32 :=
  ((Host.absf (F := Ideal) (φ := .f32) : (⟨S4x2048x4096, .f32⟩ : BufTy).Contents (Elt Ideal) → (⟨S4x2048x4096, .f32⟩ : BufTy).Contents (Elt Ideal)) (stXs x))

/-- `log(1 + |xs|)`, `%17`. -/
def stL1p (x : FVec Ideal S4x2048x4096 .f32) : FVec Ideal S4x2048x4096 .f32 :=
  ((Host.log1p (F := Ideal) (φ := .f32) : (⟨S4x2048x4096, .f32⟩ : BufTy).Contents (Elt Ideal) → (⟨S4x2048x4096, .f32⟩ : BufTy).Contents (Elt Ideal)) (stAbs x))

/-- The row means of `sg · log(1 + |xs|)`, `%22`. -/
def stS1 (x : FVec Ideal S4x2048x4096 .f32) : FVec Ideal S4x2048x1 .f32 :=
  ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) (((fun x v => Host.reduceAdd (F := Ideal) (φ := .f32) x v reducesTo_S4x2048x4096_S4x2048_d2 h_S_) : (⟨S4x2048x4096, .f32⟩ : BufTy).Contents (Elt Ideal) → (⟨S_, .f32⟩ : BufTy).Contents (Elt Ideal) → (⟨S4x2048, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg x) (stL1p x)) (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32)))

/-- `d = (1 + |xs|) log(1 + |xs|) - |xs|`, `%26`. -/
def stD (x : FVec Ideal S4x2048x4096 .f32) : FVec Ideal S4x2048x4096 .f32 :=
  ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3F800000#32)) (stAbs x)) (stL1p x)) (stAbs x))

/-- Twice the row means of `xs · d`, `%33`. -/
def stDvar (x : FVec Ideal S4x2048x4096 .f32) : FVec Ideal S4x2048x1 .f32 :=
  ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x40000000#32)) ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) (((fun x v => Host.reduceAdd (F := Ideal) (φ := .f32) x v reducesTo_S4x2048x4096_S4x2048_d2 h_S_) : (⟨S4x2048x4096, .f32⟩ : BufTy).Contents (Elt Ideal) → (⟨S_, .f32⟩ : BufTy).Contents (Elt Ideal) → (⟨S4x2048, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stXs x) (stD x)) (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32))))

/-- The first derivative `%36`. -/
def stG1 (x : FVec Ideal S4x2048x4096 .f32) : FVec Ideal S4x2048x1 .f32 :=
  ((subf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3F000000#32)) (stDvar x)) (stS1 x))

/-- The row means of `d`, `%40`. -/
def stDmean (x : FVec Ideal S4x2048x4096 .f32) : FVec Ideal S4x2048x1 .f32 :=
  ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) (((fun x v => Host.reduceAdd (F := Ideal) (φ := .f32) x v reducesTo_S4x2048x4096_S4x2048_d2 h_S_) : (⟨S4x2048x4096, .f32⟩ : BufTy).Contents (Elt Ideal) → (⟨S_, .f32⟩ : BufTy).Contents (Elt Ideal) → (⟨S4x2048, .f32⟩ : BufTy).Contents (Elt Ideal)) (stD x) (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32)))

/-- `d` less its row mean, `%42`. -/
def stDc (x : FVec Ideal S4x2048x4096 .f32) : FVec Ideal S4x2048x4096 .f32 :=
  ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stD x) ((broadcastInDim S4x2048x4096 ![0, 1, 2] bcast_S4x2048x1_S4x2048x4096_0_1_2 : (⟨S4x2048x1, .f32⟩ : BufTy).Contents (Elt Ideal) → (⟨S4x2048x4096, .f32⟩ : BufTy).Contents (Elt Ideal)) (stDmean x)))

/-- `p1 = (1 + |xs|) log² - 2 d`, `%50`. -/
def stP1 (x : FVec Ideal S4x2048x4096 .f32) : FVec Ideal S4x2048x4096 .f32 :=
  ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3F800000#32)) (stAbs x)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stL1p x) (stL1p x))) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x40000000#32)) (stD x)))

/-- `sg · p1`, `%51`. -/
def stD2 (x : FVec Ideal S4x2048x4096 .f32) : FVec Ideal S4x2048x4096 .f32 :=
  ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg x) (stP1 x))

/-- The row means of `xs · d2 + (d - E d)²`, `%57`. -/
def stM2 (x : FVec Ideal S4x2048x4096 .f32) : FVec Ideal S4x2048x1 .f32 :=
  ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![0, 1] bcast_S4x2048_S4x2048x1_0_1 : (⟨S4x2048, .f32⟩ : BufTy).Contents (Elt Ideal) → (⟨S4x2048x1, .f32⟩ : BufTy).Contents (Elt Ideal)) (((fun x v => Host.reduceAdd (F := Ideal) (φ := .f32) x v reducesTo_S4x2048x4096_S4x2048_d2 h_S_) : (⟨S4x2048x4096, .f32⟩ : BufTy).Contents (Elt Ideal) → (⟨S_, .f32⟩ : BufTy).Contents (Elt Ideal) → (⟨S4x2048, .f32⟩ : BufTy).Contents (Elt Ideal)) ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stXs x) (stD2 x)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stDc x) (stDc x))) (constant (F := Ideal) S_ .f32 0x00000000#32))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x45800000#32)))

/-- The second derivative `%65`. -/
def stG2 (x : FVec Ideal S4x2048x4096 .f32) : FVec Ideal S4x2048x1 .f32 :=
  ((addf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0xBF000000#32)) ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) (stDvar x) (stDvar x))) ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3F000000#32)) ((mulf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x40000000#32)) (stM2 x))))

/-- `λ - 1`, `%72`. -/
def stLm1 (x : FVec Ideal S4x2048x4096 .f32) : FVec Ideal S4x2048x1 .f32 :=
  ((subf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((subf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3F800000#32)) ((Host.divf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) (stG1 x) ((addf (F := Ideal) (φ := .f32) : (⟨S4x2048x1, .f32⟩ : BufTy).Contents (Elt Ideal) → (⟨S4x2048x1, .f32⟩ : BufTy).Contents (Elt Ideal) → (⟨S4x2048x1, .f32⟩ : BufTy).Contents (Elt Ideal)) (stG2 x) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3B4F3E37#32))))) ((broadcastInDim S4x2048x1 ![] bcast_S_S4x2048x1 : (⟨S_, .f32⟩ : BufTy).Contents (Elt Ideal) → (⟨S4x2048x1, .f32⟩ : BufTy).Contents (Elt Ideal)) (constant (F := Ideal) S_ .f32 0x3F800000#32)))

/-- `η = 1 + sg · (λ - 1)`, `%76`. -/
def stEta (x : FVec Ideal S4x2048x4096 .f32) : FVec Ideal S4x2048x4096 .f32 :=
  ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3F800000#32)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg x) ((broadcastInDim S4x2048x4096 ![0, 1, 2] bcast_S4x2048x1_S4x2048x4096_0_1_2 : (⟨S4x2048x1, .f32⟩ : BufTy).Contents (Elt Ideal) → (⟨S4x2048x4096, .f32⟩ : BufTy).Contents (Elt Ideal)) (stLm1 x))))

/-- The sign of `η`, `%77`. -/
def stSignEta (x : FVec Ideal S4x2048x4096 .f32) : FVec Ideal S4x2048x4096 .f32 :=
  ((Host.sign (F := Ideal) (φ := .f32) : (⟨S4x2048x4096, .f32⟩ : BufTy).Contents (Elt Ideal) → (⟨S4x2048x4096, .f32⟩ : BufTy).Contents (Elt Ideal)) (stEta x))

/-- That sign patched to one at zero, `%80`. -/
def stSgEta (x : FVec Ideal S4x2048x4096 .f32) : FVec Ideal S4x2048x4096 .f32 :=
  ((select : (⟨S4x2048x4096, .i1⟩ : BufTy).Contents (Elt Ideal) → (⟨S4x2048x4096, .f32⟩ : BufTy).Contents (Elt Ideal) → (⟨S4x2048x4096, .f32⟩ : BufTy).Contents (Elt Ideal) → (⟨S4x2048x4096, .f32⟩ : BufTy).Contents (Elt Ideal)) ((cmpf (F := Ideal) (φ := .f32) .oeq : (⟨S4x2048x4096, .f32⟩ : BufTy).Contents (Elt Ideal) → (⟨S4x2048x4096, .f32⟩ : BufTy).Contents (Elt Ideal) → (⟨S4x2048x4096, .i1⟩ : BufTy).Contents (Elt Ideal)) (stSignEta x) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x00000000#32))) ((broadcastInDim S4x2048x4096 ![] bcast_S_S4x2048x4096 : (⟨S_, .f32⟩ : BufTy).Contents (Elt Ideal) → (⟨S4x2048x4096, .f32⟩ : BufTy).Contents (Elt Ideal)) ((id : (⟨S_, .f32⟩ : BufTy).Contents (Elt Ideal) → (⟨S_, .f32⟩ : BufTy).Contents (Elt Ideal)) (constant (F := Ideal) S_ .f32 0x3F800000#32))) (stSignEta x))

/-- The exponent `η + sg(η) √ε`, `%83`. -/
def stExpo (x : FVec Ideal S4x2048x4096 .f32) : FVec Ideal S4x2048x4096 .f32 :=
  ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stEta x) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSgEta x) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3B4F3E37#32))))

/-- `(1 + |xs|) ^ e`, `%87`. -/
def stPw (x : FVec Ideal S4x2048x4096 .f32) : FVec Ideal S4x2048x4096 .f32 :=
  ((Host.powf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3F800000#32)) (stAbs x)) (stExpo x))

/-- The transformed entries `%95`: the logarithmic branch where `|η| ≤ √ε`, else the power branch. -/
def stTr (x : FVec Ideal S4x2048x4096 .f32) : FVec Ideal S4x2048x4096 .f32 :=
  ((select : (⟨S4x2048x4096, .i1⟩ : BufTy).Contents (Elt Ideal) → (⟨S4x2048x4096, .f32⟩ : BufTy).Contents (Elt Ideal) → (⟨S4x2048x4096, .f32⟩ : BufTy).Contents (Elt Ideal) → (⟨S4x2048x4096, .f32⟩ : BufTy).Contents (Elt Ideal)) ((cmpf (F := Ideal) (φ := .f32) .ole : (⟨S4x2048x4096, .f32⟩ : BufTy).Contents (Elt Ideal) → (⟨S4x2048x4096, .f32⟩ : BufTy).Contents (Elt Ideal) → (⟨S4x2048x4096, .i1⟩ : BufTy).Contents (Elt Ideal)) ((Host.absf (F := Ideal) (φ := .f32) : (⟨S4x2048x4096, .f32⟩ : BufTy).Contents (Elt Ideal) → (⟨S4x2048x4096, .f32⟩ : BufTy).Contents (Elt Ideal)) (stEta x)) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3B4F3E37#32))) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg x) (stL1p x)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((Host.divf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg x) (stExpo x)) ((subf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stPw x) ((broadcastInDim S4x2048x4096 ![] bcast_S_S4x2048x4096 : (⟨S_, .f32⟩ : BufTy).Contents (Elt Ideal) → (⟨S4x2048x4096, .f32⟩ : BufTy).Contents (Elt Ideal)) (constant (F := Ideal) S_ .f32 0x3F800000#32)))))

/-- The result `%101`: the transformed entries scaled by the weights and shifted by the biases. -/
def stOut (x : FVec Ideal S4x2048x4096 .f32) (w b : FVec Ideal S4096 .f32) : FVec Ideal S4x2048x4096 .f32 :=
  ((addf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stTr x) ((broadcastInDim S4x2048x4096 ![0, 1, 2] bcast_S1x1x4096_S4x2048x4096_0_1_2 : (⟨S1x1x4096, .f32⟩ : BufTy).Contents (Elt Ideal) → (⟨S4x2048x4096, .f32⟩ : BufTy).Contents (Elt Ideal)) ((broadcastInDim S1x1x4096 ![2] bcast_S4096_S1x1x4096_2 : (⟨S4096, .f32⟩ : BufTy).Contents (Elt Ideal) → (⟨S1x1x4096, .f32⟩ : BufTy).Contents (Elt Ideal)) w))) ((broadcastInDim S4x2048x4096 ![0, 1, 2] bcast_S1x1x4096_S4x2048x4096_0_1_2 : (⟨S1x1x4096, .f32⟩ : BufTy).Contents (Elt Ideal) → (⟨S4x2048x4096, .f32⟩ : BufTy).Contents (Elt Ideal)) ((broadcastInDim S1x1x4096 ![2] bcast_S4096_S1x1x4096_2 : (⟨S4096, .f32⟩ : BufTy).Contents (Elt Ideal) → (⟨S1x1x4096, .f32⟩ : BufTy).Contents (Elt Ideal)) b)))

end Cert.ReferenceIdeal.RefValue

end
-- ==== Proof.RefVal1.lean ====
/-
  The reference's run read stretch by stretch, first half: after each of the first fourteen stretches, every buffer a later
  line still reads holds its named stage of the argument arrays (or the short term of one).
-/
import proofs.«141878_j5377299054673_2_alg».proof.Proof.RefWrites
import proofs.«141878_j5377299054673_2_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The buffer contents before the first stretch. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl

/-- The buffer contents after the first 1 stretch. -/
def val1 (V0 : Valuation τ sig (Elt Ideal)) : Valuation τ sig (Elt Ideal) := after (seg01 (F := Ideal)) (val0 V0)
theorem val1_keep (V0 : Valuation τ sig (Elt Ideal)) (r : Ref sig .tc) (h : r ∉ seg01_W) :
    val1 V0 (Proc.devRef .tc r) = val0 V0 (Proc.devRef .tc r) :=
  after_of_writes_sub seg01 _ seg01_writes h
theorem val1_main_arg0 (V0 : Valuation τ sig (Elt Ideal)) : val1 V0 (no_index (Proc.devRef .tc main_arg0)) = (V0 (Proc.devRef .tc main_arg0)) :=
  (val1_keep V0 main_arg0 (by decide)).trans (val0_main_arg0 V0)
theorem val1_main_arg1 (V0 : Valuation τ sig (Elt Ideal)) : val1 V0 (no_index (Proc.devRef .tc main_arg1)) = (V0 (Proc.devRef .tc main_arg1)) :=
  (val1_keep V0 main_arg1 (by decide)).trans (val0_main_arg1 V0)
theorem val1_main_arg2 (V0 : Valuation τ sig (Elt Ideal)) : val1 V0 (no_index (Proc.devRef .tc main_arg2)) = (V0 (Proc.devRef .tc main_arg2)) :=
  (val1_keep V0 main_arg2 (by decide)).trans (val0_main_arg2 V0)
set_option maxRecDepth 8192 in
theorem val1_main_v3 (V0 : Valuation τ sig (Elt Ideal)) : val1 V0 (no_index (Proc.devRef .tc main_v3)) = stMean (V0 (Proc.devRef .tc main_arg0)) := by
  unfold val1
  simp only [seg01]
  after_results_simp
  simp only [val0_main_arg0] <;> rfl

/-- The buffer contents after the first 2 stretches. -/
def val2 (V0 : Valuation τ sig (Elt Ideal)) : Valuation τ sig (Elt Ideal) := after (seg02 (F := Ideal)) (val1 V0)
theorem val2_keep (V0 : Valuation τ sig (Elt Ideal)) (r : Ref sig .tc) (h : r ∉ seg02_W) :
    val2 V0 (Proc.devRef .tc r) = val1 V0 (Proc.devRef .tc r) :=
  after_of_writes_sub seg02 _ seg02_writes h
theorem val2_main_arg0 (V0 : Valuation τ sig (Elt Ideal)) : val2 V0 (no_index (Proc.devRef .tc main_arg0)) = (V0 (Proc.devRef .tc main_arg0)) :=
  (val2_keep V0 main_arg0 (by decide)).trans (val1_main_arg0 V0)
theorem val2_main_arg1 (V0 : Valuation τ sig (Elt Ideal)) : val2 V0 (no_index (Proc.devRef .tc main_arg1)) = (V0 (Proc.devRef .tc main_arg1)) :=
  (val2_keep V0 main_arg1 (by decide)).trans (val1_main_arg1 V0)
theorem val2_main_arg2 (V0 : Valuation τ sig (Elt Ideal)) : val2 V0 (no_index (Proc.devRef .tc main_arg2)) = (V0 (Proc.devRef .tc main_arg2)) :=
  (val2_keep V0 main_arg2 (by decide)).trans (val1_main_arg2 V0)
theorem val2_main_v3 (V0 : Valuation τ sig (Elt Ideal)) : val2 V0 (no_index (Proc.devRef .tc main_v3)) = stMean (V0 (Proc.devRef .tc main_arg0)) :=
  (val2_keep V0 main_v3 (by decide)).trans (val1_main_v3 V0)
set_option maxRecDepth 8192 in
theorem val2_main_c (V0 : Valuation τ sig (Elt Ideal)) : val2 V0 (no_index (Proc.devRef .tc main_c)) = (constantI S_ 32 0#32) := by
  unfold val2
  simp only [seg02]
  after_results_simp
  all_goals rfl
set_option maxRecDepth 8192 in
theorem val2_main_call0_v3 (V0 : Valuation τ sig (Elt Ideal)) : val2 V0 (no_index (Proc.devRef .tc main_call0_v3)) = stMeanV (V0 (Proc.devRef .tc main_arg0)) := by
  unfold val2
  simp only [seg02]
  after_results_simp
  simp only [val1_main_arg0] <;> rfl

/-- The buffer contents after the first 3 stretches. -/
def val3 (V0 : Valuation τ sig (Elt Ideal)) : Valuation τ sig (Elt Ideal) := after (seg03 (F := Ideal)) (val2 V0)
theorem val3_keep (V0 : Valuation τ sig (Elt Ideal)) (r : Ref sig .tc) (h : r ∉ seg03_W) :
    val3 V0 (Proc.devRef .tc r) = val2 V0 (Proc.devRef .tc r) :=
  after_of_writes_sub seg03 _ seg03_writes h
theorem val3_main_arg0 (V0 : Valuation τ sig (Elt Ideal)) : val3 V0 (no_index (Proc.devRef .tc main_arg0)) = (V0 (Proc.devRef .tc main_arg0)) :=
  (val3_keep V0 main_arg0 (by decide)).trans (val2_main_arg0 V0)
theorem val3_main_arg1 (V0 : Valuation τ sig (Elt Ideal)) : val3 V0 (no_index (Proc.devRef .tc main_arg1)) = (V0 (Proc.devRef .tc main_arg1)) :=
  (val3_keep V0 main_arg1 (by decide)).trans (val2_main_arg1 V0)
theorem val3_main_arg2 (V0 : Valuation τ sig (Elt Ideal)) : val3 V0 (no_index (Proc.devRef .tc main_arg2)) = (V0 (Proc.devRef .tc main_arg2)) :=
  (val3_keep V0 main_arg2 (by decide)).trans (val2_main_arg2 V0)
theorem val3_main_v3 (V0 : Valuation τ sig (Elt Ideal)) : val3 V0 (no_index (Proc.devRef .tc main_v3)) = stMean (V0 (Proc.devRef .tc main_arg0)) :=
  (val3_keep V0 main_v3 (by decide)).trans (val2_main_v3 V0)
theorem val3_main_c (V0 : Valuation τ sig (Elt Ideal)) : val3 V0 (no_index (Proc.devRef .tc main_c)) = (constantI S_ 32 0#32) :=
  (val3_keep V0 main_c (by decide)).trans (val2_main_c V0)
set_option maxRecDepth 8192 in
theorem val3_main_call0_v5 (V0 : Valuation τ sig (Elt Ideal)) : val3 V0 (no_index (Proc.devRef .tc main_call0_v5)) = stCen (V0 (Proc.devRef .tc main_arg0)) := by
  unfold val3
  simp only [seg03]
  after_results_simp
  simp only [val2_main_call0_v3, val2_main_arg0] <;> rfl

/-- The buffer contents after the first 4 stretches. -/
def val4 (V0 : Valuation τ sig (Elt Ideal)) : Valuation τ sig (Elt Ideal) := after (seg04 (F := Ideal)) (val3 V0)
theorem val4_keep (V0 : Valuation τ sig (Elt Ideal)) (r : Ref sig .tc) (h : r ∉ seg04_W) :
    val4 V0 (Proc.devRef .tc r) = val3 V0 (Proc.devRef .tc r) :=
  after_of_writes_sub seg04 _ seg04_writes h
theorem val4_main_arg0 (V0 : Valuation τ sig (Elt Ideal)) : val4 V0 (no_index (Proc.devRef .tc main_arg0)) = (V0 (Proc.devRef .tc main_arg0)) :=
  (val4_keep V0 main_arg0 (by decide)).trans (val3_main_arg0 V0)
theorem val4_main_arg1 (V0 : Valuation τ sig (Elt Ideal)) : val4 V0 (no_index (Proc.devRef .tc main_arg1)) = (V0 (Proc.devRef .tc main_arg1)) :=
  (val4_keep V0 main_arg1 (by decide)).trans (val3_main_arg1 V0)
theorem val4_main_arg2 (V0 : Valuation τ sig (Elt Ideal)) : val4 V0 (no_index (Proc.devRef .tc main_arg2)) = (V0 (Proc.devRef .tc main_arg2)) :=
  (val4_keep V0 main_arg2 (by decide)).trans (val3_main_arg2 V0)
theorem val4_main_v3 (V0 : Valuation τ sig (Elt Ideal)) : val4 V0 (no_index (Proc.devRef .tc main_v3)) = stMean (V0 (Proc.devRef .tc main_arg0)) :=
  (val4_keep V0 main_v3 (by decide)).trans (val3_main_v3 V0)
set_option maxRecDepth 8192 in
theorem val4_main_call0_v6 (V0 : Valuation τ sig (Elt Ideal)) : val4 V0 (no_index (Proc.devRef .tc main_call0_v6)) = ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stCen (V0 (Proc.devRef .tc main_arg0))) (stCen (V0 (Proc.devRef .tc main_arg0)))) := by
  unfold val4
  simp only [seg04]
  after_results_simp
  simp only [val3_main_call0_v5] <;> rfl
set_option maxRecDepth 8192 in
theorem val4_main_call0_v8 (V0 : Valuation τ sig (Elt Ideal)) : val4 V0 (no_index (Proc.devRef .tc main_call0_v8)) = stNd (V0 (Proc.devRef .tc main_arg0)) := by
  unfold val4
  simp only [seg04]
  after_results_simp
  simp only [val3_main_c] <;> rfl

/-- The buffer contents after the first 5 stretches. -/
def val5 (V0 : Valuation τ sig (Elt Ideal)) : Valuation τ sig (Elt Ideal) := after (seg05 (F := Ideal)) (val4 V0)
theorem val5_keep (V0 : Valuation τ sig (Elt Ideal)) (r : Ref sig .tc) (h : r ∉ seg05_W) :
    val5 V0 (Proc.devRef .tc r) = val4 V0 (Proc.devRef .tc r) :=
  after_of_writes_sub seg05 _ seg05_writes h
theorem val5_main_arg0 (V0 : Valuation τ sig (Elt Ideal)) : val5 V0 (no_index (Proc.devRef .tc main_arg0)) = (V0 (Proc.devRef .tc main_arg0)) :=
  (val5_keep V0 main_arg0 (by decide)).trans (val4_main_arg0 V0)
theorem val5_main_arg1 (V0 : Valuation τ sig (Elt Ideal)) : val5 V0 (no_index (Proc.devRef .tc main_arg1)) = (V0 (Proc.devRef .tc main_arg1)) :=
  (val5_keep V0 main_arg1 (by decide)).trans (val4_main_arg1 V0)
theorem val5_main_arg2 (V0 : Valuation τ sig (Elt Ideal)) : val5 V0 (no_index (Proc.devRef .tc main_arg2)) = (V0 (Proc.devRef .tc main_arg2)) :=
  (val5_keep V0 main_arg2 (by decide)).trans (val4_main_arg2 V0)
theorem val5_main_v3 (V0 : Valuation τ sig (Elt Ideal)) : val5 V0 (no_index (Proc.devRef .tc main_v3)) = stMean (V0 (Proc.devRef .tc main_arg0)) :=
  (val5_keep V0 main_v3 (by decide)).trans (val4_main_v3 V0)
set_option maxRecDepth 8192 in
set_option maxHeartbeats 1100000 in
theorem val5_main_v4 (V0 : Valuation τ sig (Elt Ideal)) : val5 V0 (no_index (Proc.devRef .tc main_v4)) = stVar (V0 (Proc.devRef .tc main_arg0)) := by
  unfold val5
  simp only [seg05]
  after_results_simp
  simp only [val4_main_call0_v8, val4_main_call0_v6] <;> rfl

/-- The buffer contents after the first 6 stretches. -/
def val6 (V0 : Valuation τ sig (Elt Ideal)) : Valuation τ sig (Elt Ideal) := after (seg06 (F := Ideal)) (val5 V0)
theorem val6_keep (V0 : Valuation τ sig (Elt Ideal)) (r : Ref sig .tc) (h : r ∉ seg06_W) :
    val6 V0 (Proc.devRef .tc r) = val5 V0 (Proc.devRef .tc r) :=
  after_of_writes_sub seg06 _ seg06_writes h
theorem val6_main_arg0 (V0 : Valuation τ sig (Elt Ideal)) : val6 V0 (no_index (Proc.devRef .tc main_arg0)) = (V0 (Proc.devRef .tc main_arg0)) :=
  (val6_keep V0 main_arg0 (by decide)).trans (val5_main_arg0 V0)
theorem val6_main_arg1 (V0 : Valuation τ sig (Elt Ideal)) : val6 V0 (no_index (Proc.devRef .tc main_arg1)) = (V0 (Proc.devRef .tc main_arg1)) :=
  (val6_keep V0 main_arg1 (by decide)).trans (val5_main_arg1 V0)
theorem val6_main_arg2 (V0 : Valuation τ sig (Elt Ideal)) : val6 V0 (no_index (Proc.devRef .tc main_arg2)) = (V0 (Proc.devRef .tc main_arg2)) :=
  (val6_keep V0 main_arg2 (by decide)).trans (val5_main_arg2 V0)
set_option maxRecDepth 8192 in
theorem val6_main_v11 (V0 : Valuation τ sig (Elt Ideal)) : val6 V0 (no_index (Proc.devRef .tc main_v11)) = stXs (V0 (Proc.devRef .tc main_arg0)) := by
  unfold val6
  simp only [seg06]
  after_results_simp
  simp only [val5_main_v4, val5_main_v3, val5_main_arg0] <;> rfl

/-- The buffer contents after the first 7 stretches. -/
def val7 (V0 : Valuation τ sig (Elt Ideal)) : Valuation τ sig (Elt Ideal) := after (seg07 (F := Ideal)) (val6 V0)
theorem val7_keep (V0 : Valuation τ sig (Elt Ideal)) (r : Ref sig .tc) (h : r ∉ seg07_W) :
    val7 V0 (Proc.devRef .tc r) = val6 V0 (Proc.devRef .tc r) :=
  after_of_writes_sub seg07 _ seg07_writes h
theorem val7_main_arg0 (V0 : Valuation τ sig (Elt Ideal)) : val7 V0 (no_index (Proc.devRef .tc main_arg0)) = (V0 (Proc.devRef .tc main_arg0)) :=
  (val7_keep V0 main_arg0 (by decide)).trans (val6_main_arg0 V0)
theorem val7_main_arg1 (V0 : Valuation τ sig (Elt Ideal)) : val7 V0 (no_index (Proc.devRef .tc main_arg1)) = (V0 (Proc.devRef .tc main_arg1)) :=
  (val7_keep V0 main_arg1 (by decide)).trans (val6_main_arg1 V0)
theorem val7_main_arg2 (V0 : Valuation τ sig (Elt Ideal)) : val7 V0 (no_index (Proc.devRef .tc main_arg2)) = (V0 (Proc.devRef .tc main_arg2)) :=
  (val7_keep V0 main_arg2 (by decide)).trans (val6_main_arg2 V0)
theorem val7_main_v11 (V0 : Valuation τ sig (Elt Ideal)) : val7 V0 (no_index (Proc.devRef .tc main_v11)) = stXs (V0 (Proc.devRef .tc main_arg0)) :=
  (val7_keep V0 main_v11 (by decide)).trans (val6_main_v11 V0)
set_option maxRecDepth 8192 in
theorem val7_main_v12 (V0 : Valuation τ sig (Elt Ideal)) : val7 V0 (no_index (Proc.devRef .tc main_v12)) = stSign (V0 (Proc.devRef .tc main_arg0)) := by
  unfold val7
  simp only [seg07]
  after_results_simp
  simp only [val6_main_v11] <;> rfl

/-- The buffer contents after the first 8 stretches. -/
def val8 (V0 : Valuation τ sig (Elt Ideal)) : Valuation τ sig (Elt Ideal) := after (seg08 (F := Ideal)) (val7 V0)
theorem val8_keep (V0 : Valuation τ sig (Elt Ideal)) (r : Ref sig .tc) (h : r ∉ seg08_W) :
    val8 V0 (Proc.devRef .tc r) = val7 V0 (Proc.devRef .tc r) :=
  after_of_writes_sub seg08 _ seg08_writes h
theorem val8_main_arg0 (V0 : Valuation τ sig (Elt Ideal)) : val8 V0 (no_index (Proc.devRef .tc main_arg0)) = (V0 (Proc.devRef .tc main_arg0)) :=
  (val8_keep V0 main_arg0 (by decide)).trans (val7_main_arg0 V0)
theorem val8_main_arg1 (V0 : Valuation τ sig (Elt Ideal)) : val8 V0 (no_index (Proc.devRef .tc main_arg1)) = (V0 (Proc.devRef .tc main_arg1)) :=
  (val8_keep V0 main_arg1 (by decide)).trans (val7_main_arg1 V0)
theorem val8_main_arg2 (V0 : Valuation τ sig (Elt Ideal)) : val8 V0 (no_index (Proc.devRef .tc main_arg2)) = (V0 (Proc.devRef .tc main_arg2)) :=
  (val8_keep V0 main_arg2 (by decide)).trans (val7_main_arg2 V0)
theorem val8_main_v11 (V0 : Valuation τ sig (Elt Ideal)) : val8 V0 (no_index (Proc.devRef .tc main_v11)) = stXs (V0 (Proc.devRef .tc main_arg0)) :=
  (val8_keep V0 main_v11 (by decide)).trans (val7_main_v11 V0)
set_option maxRecDepth 8192 in
theorem val8_main_v15 (V0 : Valuation τ sig (Elt Ideal)) : val8 V0 (no_index (Proc.devRef .tc main_v15)) = stSg (V0 (Proc.devRef .tc main_arg0)) := by
  unfold val8
  simp only [seg08]
  after_results_simp
  simp only [val7_main_v12] <;> rfl

/-- The buffer contents after the first 9 stretches. -/
def val9 (V0 : Valuation τ sig (Elt Ideal)) : Valuation τ sig (Elt Ideal) := after (seg09 (F := Ideal)) (val8 V0)
theorem val9_keep (V0 : Valuation τ sig (Elt Ideal)) (r : Ref sig .tc) (h : r ∉ seg09_W) :
    val9 V0 (Proc.devRef .tc r) = val8 V0 (Proc.devRef .tc r) :=
  after_of_writes_sub seg09 _ seg09_writes h
theorem val9_main_arg0 (V0 : Valuation τ sig (Elt Ideal)) : val9 V0 (no_index (Proc.devRef .tc main_arg0)) = (V0 (Proc.devRef .tc main_arg0)) :=
  (val9_keep V0 main_arg0 (by decide)).trans (val8_main_arg0 V0)
theorem val9_main_arg1 (V0 : Valuation τ sig (Elt Ideal)) : val9 V0 (no_index (Proc.devRef .tc main_arg1)) = (V0 (Proc.devRef .tc main_arg1)) :=
  (val9_keep V0 main_arg1 (by decide)).trans (val8_main_arg1 V0)
theorem val9_main_arg2 (V0 : Valuation τ sig (Elt Ideal)) : val9 V0 (no_index (Proc.devRef .tc main_arg2)) = (V0 (Proc.devRef .tc main_arg2)) :=
  (val9_keep V0 main_arg2 (by decide)).trans (val8_main_arg2 V0)
theorem val9_main_v11 (V0 : Valuation τ sig (Elt Ideal)) : val9 V0 (no_index (Proc.devRef .tc main_v11)) = stXs (V0 (Proc.devRef .tc main_arg0)) :=
  (val9_keep V0 main_v11 (by decide)).trans (val8_main_v11 V0)
theorem val9_main_v15 (V0 : Valuation τ sig (Elt Ideal)) : val9 V0 (no_index (Proc.devRef .tc main_v15)) = stSg (V0 (Proc.devRef .tc main_arg0)) :=
  (val9_keep V0 main_v15 (by decide)).trans (val8_main_v15 V0)
set_option maxRecDepth 8192 in
theorem val9_main_v16 (V0 : Valuation τ sig (Elt Ideal)) : val9 V0 (no_index (Proc.devRef .tc main_v16)) = stAbs (V0 (Proc.devRef .tc main_arg0)) := by
  unfold val9
  simp only [seg09]
  after_results_simp
  simp only [val8_main_v11] <;> rfl

/-- The buffer contents after the first 10 stretches. -/
def val10 (V0 : Valuation τ sig (Elt Ideal)) : Valuation τ sig (Elt Ideal) := after (seg10 (F := Ideal)) (val9 V0)
theorem val10_keep (V0 : Valuation τ sig (Elt Ideal)) (r : Ref sig .tc) (h : r ∉ seg10_W) :
    val10 V0 (Proc.devRef .tc r) = val9 V0 (Proc.devRef .tc r) :=
  after_of_writes_sub seg10 _ seg10_writes h
theorem val10_main_arg0 (V0 : Valuation τ sig (Elt Ideal)) : val10 V0 (no_index (Proc.devRef .tc main_arg0)) = (V0 (Proc.devRef .tc main_arg0)) :=
  (val10_keep V0 main_arg0 (by decide)).trans (val9_main_arg0 V0)
theorem val10_main_arg1 (V0 : Valuation τ sig (Elt Ideal)) : val10 V0 (no_index (Proc.devRef .tc main_arg1)) = (V0 (Proc.devRef .tc main_arg1)) :=
  (val10_keep V0 main_arg1 (by decide)).trans (val9_main_arg1 V0)
theorem val10_main_arg2 (V0 : Valuation τ sig (Elt Ideal)) : val10 V0 (no_index (Proc.devRef .tc main_arg2)) = (V0 (Proc.devRef .tc main_arg2)) :=
  (val10_keep V0 main_arg2 (by decide)).trans (val9_main_arg2 V0)
theorem val10_main_v11 (V0 : Valuation τ sig (Elt Ideal)) : val10 V0 (no_index (Proc.devRef .tc main_v11)) = stXs (V0 (Proc.devRef .tc main_arg0)) :=
  (val10_keep V0 main_v11 (by decide)).trans (val9_main_v11 V0)
theorem val10_main_v15 (V0 : Valuation τ sig (Elt Ideal)) : val10 V0 (no_index (Proc.devRef .tc main_v15)) = stSg (V0 (Proc.devRef .tc main_arg0)) :=
  (val10_keep V0 main_v15 (by decide)).trans (val9_main_v15 V0)
theorem val10_main_v16 (V0 : Valuation τ sig (Elt Ideal)) : val10 V0 (no_index (Proc.devRef .tc main_v16)) = stAbs (V0 (Proc.devRef .tc main_arg0)) :=
  (val10_keep V0 main_v16 (by decide)).trans (val9_main_v16 V0)
set_option maxRecDepth 8192 in
theorem val10_main_v17 (V0 : Valuation τ sig (Elt Ideal)) : val10 V0 (no_index (Proc.devRef .tc main_v17)) = stL1p (V0 (Proc.devRef .tc main_arg0)) := by
  unfold val10
  simp only [seg10]
  after_results_simp
  simp only [val9_main_v16] <;> rfl

/-- The buffer contents after the first 11 stretches. -/
def val11 (V0 : Valuation τ sig (Elt Ideal)) : Valuation τ sig (Elt Ideal) := after (seg11 (F := Ideal)) (val10 V0)
theorem val11_keep (V0 : Valuation τ sig (Elt Ideal)) (r : Ref sig .tc) (h : r ∉ seg11_W) :
    val11 V0 (Proc.devRef .tc r) = val10 V0 (Proc.devRef .tc r) :=
  after_of_writes_sub seg11 _ seg11_writes h
theorem val11_main_arg0 (V0 : Valuation τ sig (Elt Ideal)) : val11 V0 (no_index (Proc.devRef .tc main_arg0)) = (V0 (Proc.devRef .tc main_arg0)) :=
  (val11_keep V0 main_arg0 (by decide)).trans (val10_main_arg0 V0)
theorem val11_main_arg1 (V0 : Valuation τ sig (Elt Ideal)) : val11 V0 (no_index (Proc.devRef .tc main_arg1)) = (V0 (Proc.devRef .tc main_arg1)) :=
  (val11_keep V0 main_arg1 (by decide)).trans (val10_main_arg1 V0)
theorem val11_main_arg2 (V0 : Valuation τ sig (Elt Ideal)) : val11 V0 (no_index (Proc.devRef .tc main_arg2)) = (V0 (Proc.devRef .tc main_arg2)) :=
  (val11_keep V0 main_arg2 (by decide)).trans (val10_main_arg2 V0)
theorem val11_main_v11 (V0 : Valuation τ sig (Elt Ideal)) : val11 V0 (no_index (Proc.devRef .tc main_v11)) = stXs (V0 (Proc.devRef .tc main_arg0)) :=
  (val11_keep V0 main_v11 (by decide)).trans (val10_main_v11 V0)
theorem val11_main_v15 (V0 : Valuation τ sig (Elt Ideal)) : val11 V0 (no_index (Proc.devRef .tc main_v15)) = stSg (V0 (Proc.devRef .tc main_arg0)) :=
  (val11_keep V0 main_v15 (by decide)).trans (val10_main_v15 V0)
theorem val11_main_v16 (V0 : Valuation τ sig (Elt Ideal)) : val11 V0 (no_index (Proc.devRef .tc main_v16)) = stAbs (V0 (Proc.devRef .tc main_arg0)) :=
  (val11_keep V0 main_v16 (by decide)).trans (val10_main_v16 V0)
theorem val11_main_v17 (V0 : Valuation τ sig (Elt Ideal)) : val11 V0 (no_index (Proc.devRef .tc main_v17)) = stL1p (V0 (Proc.devRef .tc main_arg0)) :=
  (val11_keep V0 main_v17 (by decide)).trans (val10_main_v17 V0)
set_option maxRecDepth 8192 in
theorem val11_main_v22 (V0 : Valuation τ sig (Elt Ideal)) : val11 V0 (no_index (Proc.devRef .tc main_v22)) = stS1 (V0 (Proc.devRef .tc main_arg0)) := by
  unfold val11
  simp only [seg11]
  after_results_simp
  simp only [val10_main_v17, val10_main_v15] <;> rfl

/-- The buffer contents after the first 12 stretches. -/
def val12 (V0 : Valuation τ sig (Elt Ideal)) : Valuation τ sig (Elt Ideal) := after (seg12 (F := Ideal)) (val11 V0)
theorem val12_keep (V0 : Valuation τ sig (Elt Ideal)) (r : Ref sig .tc) (h : r ∉ seg12_W) :
    val12 V0 (Proc.devRef .tc r) = val11 V0 (Proc.devRef .tc r) :=
  after_of_writes_sub seg12 _ seg12_writes h
theorem val12_main_arg0 (V0 : Valuation τ sig (Elt Ideal)) : val12 V0 (no_index (Proc.devRef .tc main_arg0)) = (V0 (Proc.devRef .tc main_arg0)) :=
  (val12_keep V0 main_arg0 (by decide)).trans (val11_main_arg0 V0)
theorem val12_main_arg1 (V0 : Valuation τ sig (Elt Ideal)) : val12 V0 (no_index (Proc.devRef .tc main_arg1)) = (V0 (Proc.devRef .tc main_arg1)) :=
  (val12_keep V0 main_arg1 (by decide)).trans (val11_main_arg1 V0)
theorem val12_main_arg2 (V0 : Valuation τ sig (Elt Ideal)) : val12 V0 (no_index (Proc.devRef .tc main_arg2)) = (V0 (Proc.devRef .tc main_arg2)) :=
  (val12_keep V0 main_arg2 (by decide)).trans (val11_main_arg2 V0)
theorem val12_main_v11 (V0 : Valuation τ sig (Elt Ideal)) : val12 V0 (no_index (Proc.devRef .tc main_v11)) = stXs (V0 (Proc.devRef .tc main_arg0)) :=
  (val12_keep V0 main_v11 (by decide)).trans (val11_main_v11 V0)
theorem val12_main_v15 (V0 : Valuation τ sig (Elt Ideal)) : val12 V0 (no_index (Proc.devRef .tc main_v15)) = stSg (V0 (Proc.devRef .tc main_arg0)) :=
  (val12_keep V0 main_v15 (by decide)).trans (val11_main_v15 V0)
theorem val12_main_v16 (V0 : Valuation τ sig (Elt Ideal)) : val12 V0 (no_index (Proc.devRef .tc main_v16)) = stAbs (V0 (Proc.devRef .tc main_arg0)) :=
  (val12_keep V0 main_v16 (by decide)).trans (val11_main_v16 V0)
theorem val12_main_v17 (V0 : Valuation τ sig (Elt Ideal)) : val12 V0 (no_index (Proc.devRef .tc main_v17)) = stL1p (V0 (Proc.devRef .tc main_arg0)) :=
  (val12_keep V0 main_v17 (by decide)).trans (val11_main_v17 V0)
theorem val12_main_v22 (V0 : Valuation τ sig (Elt Ideal)) : val12 V0 (no_index (Proc.devRef .tc main_v22)) = stS1 (V0 (Proc.devRef .tc main_arg0)) :=
  (val12_keep V0 main_v22 (by decide)).trans (val11_main_v22 V0)
set_option maxRecDepth 8192 in
theorem val12_main_v26 (V0 : Valuation τ sig (Elt Ideal)) : val12 V0 (no_index (Proc.devRef .tc main_v26)) = stD (V0 (Proc.devRef .tc main_arg0)) := by
  unfold val12
  simp only [seg12]
  after_results_simp
  simp only [val11_main_v16, val11_main_v17] <;> rfl

/-- The buffer contents after the first 13 stretches. -/
def val13 (V0 : Valuation τ sig (Elt Ideal)) : Valuation τ sig (Elt Ideal) := after (seg13 (F := Ideal)) (val12 V0)
theorem val13_keep (V0 : Valuation τ sig (Elt Ideal)) (r : Ref sig .tc) (h : r ∉ seg13_W) :
    val13 V0 (Proc.devRef .tc r) = val12 V0 (Proc.devRef .tc r) :=
  after_of_writes_sub seg13 _ seg13_writes h
theorem val13_main_arg0 (V0 : Valuation τ sig (Elt Ideal)) : val13 V0 (no_index (Proc.devRef .tc main_arg0)) = (V0 (Proc.devRef .tc main_arg0)) :=
  (val13_keep V0 main_arg0 (by decide)).trans (val12_main_arg0 V0)
theorem val13_main_arg1 (V0 : Valuation τ sig (Elt Ideal)) : val13 V0 (no_index (Proc.devRef .tc main_arg1)) = (V0 (Proc.devRef .tc main_arg1)) :=
  (val13_keep V0 main_arg1 (by decide)).trans (val12_main_arg1 V0)
theorem val13_main_arg2 (V0 : Valuation τ sig (Elt Ideal)) : val13 V0 (no_index (Proc.devRef .tc main_arg2)) = (V0 (Proc.devRef .tc main_arg2)) :=
  (val13_keep V0 main_arg2 (by decide)).trans (val12_main_arg2 V0)
theorem val13_main_v11 (V0 : Valuation τ sig (Elt Ideal)) : val13 V0 (no_index (Proc.devRef .tc main_v11)) = stXs (V0 (Proc.devRef .tc main_arg0)) :=
  (val13_keep V0 main_v11 (by decide)).trans (val12_main_v11 V0)
theorem val13_main_v15 (V0 : Valuation τ sig (Elt Ideal)) : val13 V0 (no_index (Proc.devRef .tc main_v15)) = stSg (V0 (Proc.devRef .tc main_arg0)) :=
  (val13_keep V0 main_v15 (by decide)).trans (val12_main_v15 V0)
theorem val13_main_v16 (V0 : Valuation τ sig (Elt Ideal)) : val13 V0 (no_index (Proc.devRef .tc main_v16)) = stAbs (V0 (Proc.devRef .tc main_arg0)) :=
  (val13_keep V0 main_v16 (by decide)).trans (val12_main_v16 V0)
theorem val13_main_v17 (V0 : Valuation τ sig (Elt Ideal)) : val13 V0 (no_index (Proc.devRef .tc main_v17)) = stL1p (V0 (Proc.devRef .tc main_arg0)) :=
  (val13_keep V0 main_v17 (by decide)).trans (val12_main_v17 V0)
theorem val13_main_v22 (V0 : Valuation τ sig (Elt Ideal)) : val13 V0 (no_index (Proc.devRef .tc main_v22)) = stS1 (V0 (Proc.devRef .tc main_arg0)) :=
  (val13_keep V0 main_v22 (by decide)).trans (val12_main_v22 V0)
theorem val13_main_v26 (V0 : Valuation τ sig (Elt Ideal)) : val13 V0 (no_index (Proc.devRef .tc main_v26)) = stD (V0 (Proc.devRef .tc main_arg0)) :=
  (val13_keep V0 main_v26 (by decide)).trans (val12_main_v26 V0)
set_option maxRecDepth 8192 in
set_option maxHeartbeats 1000000 in
theorem val13_main_v33 (V0 : Valuation τ sig (Elt Ideal)) : val13 V0 (no_index (Proc.devRef .tc main_v33)) = stDvar (V0 (Proc.devRef .tc main_arg0)) := by
  unfold val13
  simp only [seg13]
  after_results_simp
  simp only [val12_main_v26, val12_main_v11] <;> rfl

/-- The buffer contents after the first 14 stretches. -/
def val14 (V0 : Valuation τ sig (Elt Ideal)) : Valuation τ sig (Elt Ideal) := after (seg14 (F := Ideal)) (val13 V0)
theorem val14_keep (V0 : Valuation τ sig (Elt Ideal)) (r : Ref sig .tc) (h : r ∉ seg14_W) :
    val14 V0 (Proc.devRef .tc r) = val13 V0 (Proc.devRef .tc r) :=
  after_of_writes_sub seg14 _ seg14_writes h
theorem val14_main_arg0 (V0 : Valuation τ sig (Elt Ideal)) : val14 V0 (no_index (Proc.devRef .tc main_arg0)) = (V0 (Proc.devRef .tc main_arg0)) :=
  (val14_keep V0 main_arg0 (by decide)).trans (val13_main_arg0 V0)
theorem val14_main_arg1 (V0 : Valuation τ sig (Elt Ideal)) : val14 V0 (no_index (Proc.devRef .tc main_arg1)) = (V0 (Proc.devRef .tc main_arg1)) :=
  (val14_keep V0 main_arg1 (by decide)).trans (val13_main_arg1 V0)
theorem val14_main_arg2 (V0 : Valuation τ sig (Elt Ideal)) : val14 V0 (no_index (Proc.devRef .tc main_arg2)) = (V0 (Proc.devRef .tc main_arg2)) :=
  (val14_keep V0 main_arg2 (by decide)).trans (val13_main_arg2 V0)
theorem val14_main_v11 (V0 : Valuation τ sig (Elt Ideal)) : val14 V0 (no_index (Proc.devRef .tc main_v11)) = stXs (V0 (Proc.devRef .tc main_arg0)) :=
  (val14_keep V0 main_v11 (by decide)).trans (val13_main_v11 V0)
theorem val14_main_v15 (V0 : Valuation τ sig (Elt Ideal)) : val14 V0 (no_index (Proc.devRef .tc main_v15)) = stSg (V0 (Proc.devRef .tc main_arg0)) :=
  (val14_keep V0 main_v15 (by decide)).trans (val13_main_v15 V0)
theorem val14_main_v16 (V0 : Valuation τ sig (Elt Ideal)) : val14 V0 (no_index (Proc.devRef .tc main_v16)) = stAbs (V0 (Proc.devRef .tc main_arg0)) :=
  (val14_keep V0 main_v16 (by decide)).trans (val13_main_v16 V0)
theorem val14_main_v17 (V0 : Valuation τ sig (Elt Ideal)) : val14 V0 (no_index (Proc.devRef .tc main_v17)) = stL1p (V0 (Proc.devRef .tc main_arg0)) :=
  (val14_keep V0 main_v17 (by decide)).trans (val13_main_v17 V0)
theorem val14_main_v26 (V0 : Valuation τ sig (Elt Ideal)) : val14 V0 (no_index (Proc.devRef .tc main_v26)) = stD (V0 (Proc.devRef .tc main_arg0)) :=
  (val14_keep V0 main_v26 (by decide)).trans (val13_main_v26 V0)
theorem val14_main_v33 (V0 : Valuation τ sig (Elt Ideal)) : val14 V0 (no_index (Proc.devRef .tc main_v33)) = stDvar (V0 (Proc.devRef .tc main_arg0)) :=
  (val14_keep V0 main_v33 (by decide)).trans (val13_main_v33 V0)
set_option maxRecDepth 8192 in
theorem val14_main_v36 (V0 : Valuation τ sig (Elt Ideal)) : val14 V0 (no_index (Proc.devRef .tc main_v36)) = stG1 (V0 (Proc.devRef .tc main_arg0)) := by
  unfold val14
  simp only [seg14]
  after_results_simp
  simp only [val13_main_v22, val13_main_v33] <;> rfl

end Cert.ReferenceIdeal.RefValue

end
-- ==== Proof.RefVal2.lean ====
/-
  The reference's run read stretch by stretch, second half: stretches fifteen to twenty-eight, down to the result buffer.
-/
import proofs.«141878_j5377299054673_2_alg».proof.Proof.RefVal1

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The buffer contents after the first 15 stretches. -/
def val15 (V0 : Valuation τ sig (Elt Ideal)) : Valuation τ sig (Elt Ideal) := after (seg15 (F := Ideal)) (val14 V0)
theorem val15_keep (V0 : Valuation τ sig (Elt Ideal)) (r : Ref sig .tc) (h : r ∉ seg15_W) :
    val15 V0 (Proc.devRef .tc r) = val14 V0 (Proc.devRef .tc r) :=
  after_of_writes_sub seg15 _ seg15_writes h
theorem val15_main_arg0 (V0 : Valuation τ sig (Elt Ideal)) : val15 V0 (no_index (Proc.devRef .tc main_arg0)) = (V0 (Proc.devRef .tc main_arg0)) :=
  (val15_keep V0 main_arg0 (by decide)).trans (val14_main_arg0 V0)
theorem val15_main_arg1 (V0 : Valuation τ sig (Elt Ideal)) : val15 V0 (no_index (Proc.devRef .tc main_arg1)) = (V0 (Proc.devRef .tc main_arg1)) :=
  (val15_keep V0 main_arg1 (by decide)).trans (val14_main_arg1 V0)
theorem val15_main_arg2 (V0 : Valuation τ sig (Elt Ideal)) : val15 V0 (no_index (Proc.devRef .tc main_arg2)) = (V0 (Proc.devRef .tc main_arg2)) :=
  (val15_keep V0 main_arg2 (by decide)).trans (val14_main_arg2 V0)
theorem val15_main_v11 (V0 : Valuation τ sig (Elt Ideal)) : val15 V0 (no_index (Proc.devRef .tc main_v11)) = stXs (V0 (Proc.devRef .tc main_arg0)) :=
  (val15_keep V0 main_v11 (by decide)).trans (val14_main_v11 V0)
theorem val15_main_v15 (V0 : Valuation τ sig (Elt Ideal)) : val15 V0 (no_index (Proc.devRef .tc main_v15)) = stSg (V0 (Proc.devRef .tc main_arg0)) :=
  (val15_keep V0 main_v15 (by decide)).trans (val14_main_v15 V0)
theorem val15_main_v16 (V0 : Valuation τ sig (Elt Ideal)) : val15 V0 (no_index (Proc.devRef .tc main_v16)) = stAbs (V0 (Proc.devRef .tc main_arg0)) :=
  (val15_keep V0 main_v16 (by decide)).trans (val14_main_v16 V0)
theorem val15_main_v17 (V0 : Valuation τ sig (Elt Ideal)) : val15 V0 (no_index (Proc.devRef .tc main_v17)) = stL1p (V0 (Proc.devRef .tc main_arg0)) :=
  (val15_keep V0 main_v17 (by decide)).trans (val14_main_v17 V0)
theorem val15_main_v26 (V0 : Valuation τ sig (Elt Ideal)) : val15 V0 (no_index (Proc.devRef .tc main_v26)) = stD (V0 (Proc.devRef .tc main_arg0)) :=
  (val15_keep V0 main_v26 (by decide)).trans (val14_main_v26 V0)
theorem val15_main_v33 (V0 : Valuation τ sig (Elt Ideal)) : val15 V0 (no_index (Proc.devRef .tc main_v33)) = stDvar (V0 (Proc.devRef .tc main_arg0)) :=
  (val15_keep V0 main_v33 (by decide)).trans (val14_main_v33 V0)
theorem val15_main_v36 (V0 : Valuation τ sig (Elt Ideal)) : val15 V0 (no_index (Proc.devRef .tc main_v36)) = stG1 (V0 (Proc.devRef .tc main_arg0)) :=
  (val15_keep V0 main_v36 (by decide)).trans (val14_main_v36 V0)
set_option maxRecDepth 8192 in
theorem val15_main_v40 (V0 : Valuation τ sig (Elt Ideal)) : val15 V0 (no_index (Proc.devRef .tc main_v40)) = stDmean (V0 (Proc.devRef .tc main_arg0)) := by
  unfold val15
  simp only [seg15]
  after_results_simp
  simp only [val14_main_v26] <;> rfl

/-- The buffer contents after the first 16 stretches. -/
def val16 (V0 : Valuation τ sig (Elt Ideal)) : Valuation τ sig (Elt Ideal) := after (seg16 (F := Ideal)) (val15 V0)
theorem val16_keep (V0 : Valuation τ sig (Elt Ideal)) (r : Ref sig .tc) (h : r ∉ seg16_W) :
    val16 V0 (Proc.devRef .tc r) = val15 V0 (Proc.devRef .tc r) :=
  after_of_writes_sub seg16 _ seg16_writes h
theorem val16_main_arg0 (V0 : Valuation τ sig (Elt Ideal)) : val16 V0 (no_index (Proc.devRef .tc main_arg0)) = (V0 (Proc.devRef .tc main_arg0)) :=
  (val16_keep V0 main_arg0 (by decide)).trans (val15_main_arg0 V0)
theorem val16_main_arg1 (V0 : Valuation τ sig (Elt Ideal)) : val16 V0 (no_index (Proc.devRef .tc main_arg1)) = (V0 (Proc.devRef .tc main_arg1)) :=
  (val16_keep V0 main_arg1 (by decide)).trans (val15_main_arg1 V0)
theorem val16_main_arg2 (V0 : Valuation τ sig (Elt Ideal)) : val16 V0 (no_index (Proc.devRef .tc main_arg2)) = (V0 (Proc.devRef .tc main_arg2)) :=
  (val16_keep V0 main_arg2 (by decide)).trans (val15_main_arg2 V0)
theorem val16_main_v11 (V0 : Valuation τ sig (Elt Ideal)) : val16 V0 (no_index (Proc.devRef .tc main_v11)) = stXs (V0 (Proc.devRef .tc main_arg0)) :=
  (val16_keep V0 main_v11 (by decide)).trans (val15_main_v11 V0)
theorem val16_main_v15 (V0 : Valuation τ sig (Elt Ideal)) : val16 V0 (no_index (Proc.devRef .tc main_v15)) = stSg (V0 (Proc.devRef .tc main_arg0)) :=
  (val16_keep V0 main_v15 (by decide)).trans (val15_main_v15 V0)
theorem val16_main_v16 (V0 : Valuation τ sig (Elt Ideal)) : val16 V0 (no_index (Proc.devRef .tc main_v16)) = stAbs (V0 (Proc.devRef .tc main_arg0)) :=
  (val16_keep V0 main_v16 (by decide)).trans (val15_main_v16 V0)
theorem val16_main_v17 (V0 : Valuation τ sig (Elt Ideal)) : val16 V0 (no_index (Proc.devRef .tc main_v17)) = stL1p (V0 (Proc.devRef .tc main_arg0)) :=
  (val16_keep V0 main_v17 (by decide)).trans (val15_main_v17 V0)
theorem val16_main_v26 (V0 : Valuation τ sig (Elt Ideal)) : val16 V0 (no_index (Proc.devRef .tc main_v26)) = stD (V0 (Proc.devRef .tc main_arg0)) :=
  (val16_keep V0 main_v26 (by decide)).trans (val15_main_v26 V0)
theorem val16_main_v33 (V0 : Valuation τ sig (Elt Ideal)) : val16 V0 (no_index (Proc.devRef .tc main_v33)) = stDvar (V0 (Proc.devRef .tc main_arg0)) :=
  (val16_keep V0 main_v33 (by decide)).trans (val15_main_v33 V0)
theorem val16_main_v36 (V0 : Valuation τ sig (Elt Ideal)) : val16 V0 (no_index (Proc.devRef .tc main_v36)) = stG1 (V0 (Proc.devRef .tc main_arg0)) :=
  (val16_keep V0 main_v36 (by decide)).trans (val15_main_v36 V0)
set_option maxRecDepth 8192 in
theorem val16_main_v42 (V0 : Valuation τ sig (Elt Ideal)) : val16 V0 (no_index (Proc.devRef .tc main_v42)) = stDc (V0 (Proc.devRef .tc main_arg0)) := by
  unfold val16
  simp only [seg16]
  after_results_simp
  simp only [val15_main_v40, val15_main_v26] <;> rfl

/-- The buffer contents after the first 17 stretches. -/
def val17 (V0 : Valuation τ sig (Elt Ideal)) : Valuation τ sig (Elt Ideal) := after (seg17 (F := Ideal)) (val16 V0)
theorem val17_keep (V0 : Valuation τ sig (Elt Ideal)) (r : Ref sig .tc) (h : r ∉ seg17_W) :
    val17 V0 (Proc.devRef .tc r) = val16 V0 (Proc.devRef .tc r) :=
  after_of_writes_sub seg17 _ seg17_writes h
theorem val17_main_arg0 (V0 : Valuation τ sig (Elt Ideal)) : val17 V0 (no_index (Proc.devRef .tc main_arg0)) = (V0 (Proc.devRef .tc main_arg0)) :=
  (val17_keep V0 main_arg0 (by decide)).trans (val16_main_arg0 V0)
theorem val17_main_arg1 (V0 : Valuation τ sig (Elt Ideal)) : val17 V0 (no_index (Proc.devRef .tc main_arg1)) = (V0 (Proc.devRef .tc main_arg1)) :=
  (val17_keep V0 main_arg1 (by decide)).trans (val16_main_arg1 V0)
theorem val17_main_arg2 (V0 : Valuation τ sig (Elt Ideal)) : val17 V0 (no_index (Proc.devRef .tc main_arg2)) = (V0 (Proc.devRef .tc main_arg2)) :=
  (val17_keep V0 main_arg2 (by decide)).trans (val16_main_arg2 V0)
theorem val17_main_v11 (V0 : Valuation τ sig (Elt Ideal)) : val17 V0 (no_index (Proc.devRef .tc main_v11)) = stXs (V0 (Proc.devRef .tc main_arg0)) :=
  (val17_keep V0 main_v11 (by decide)).trans (val16_main_v11 V0)
theorem val17_main_v15 (V0 : Valuation τ sig (Elt Ideal)) : val17 V0 (no_index (Proc.devRef .tc main_v15)) = stSg (V0 (Proc.devRef .tc main_arg0)) :=
  (val17_keep V0 main_v15 (by decide)).trans (val16_main_v15 V0)
theorem val17_main_v16 (V0 : Valuation τ sig (Elt Ideal)) : val17 V0 (no_index (Proc.devRef .tc main_v16)) = stAbs (V0 (Proc.devRef .tc main_arg0)) :=
  (val17_keep V0 main_v16 (by decide)).trans (val16_main_v16 V0)
theorem val17_main_v17 (V0 : Valuation τ sig (Elt Ideal)) : val17 V0 (no_index (Proc.devRef .tc main_v17)) = stL1p (V0 (Proc.devRef .tc main_arg0)) :=
  (val17_keep V0 main_v17 (by decide)).trans (val16_main_v17 V0)
theorem val17_main_v33 (V0 : Valuation τ sig (Elt Ideal)) : val17 V0 (no_index (Proc.devRef .tc main_v33)) = stDvar (V0 (Proc.devRef .tc main_arg0)) :=
  (val17_keep V0 main_v33 (by decide)).trans (val16_main_v33 V0)
theorem val17_main_v36 (V0 : Valuation τ sig (Elt Ideal)) : val17 V0 (no_index (Proc.devRef .tc main_v36)) = stG1 (V0 (Proc.devRef .tc main_arg0)) :=
  (val17_keep V0 main_v36 (by decide)).trans (val16_main_v36 V0)
set_option maxRecDepth 8192 in
set_option maxHeartbeats 1000000 in
theorem val17_main_v43 (V0 : Valuation τ sig (Elt Ideal)) : val17 V0 (no_index (Proc.devRef .tc main_v43)) = ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stDc (V0 (Proc.devRef .tc main_arg0))) (stDc (V0 (Proc.devRef .tc main_arg0)))) := by
  unfold val17
  simp only [seg17]
  after_results_simp
  simp only [val16_main_v42] <;> rfl
set_option maxRecDepth 8192 in
set_option maxHeartbeats 1000000 in
theorem val17_main_v50 (V0 : Valuation τ sig (Elt Ideal)) : val17 V0 (no_index (Proc.devRef .tc main_v50)) = stP1 (V0 (Proc.devRef .tc main_arg0)) := by
  unfold val17
  simp only [seg17]
  after_results_simp
  simp only [val16_main_v26, val16_main_v17, val16_main_v16] <;> rfl

/-- The buffer contents after the first 18 stretches. -/
def val18 (V0 : Valuation τ sig (Elt Ideal)) : Valuation τ sig (Elt Ideal) := after (seg18 (F := Ideal)) (val17 V0)
theorem val18_keep (V0 : Valuation τ sig (Elt Ideal)) (r : Ref sig .tc) (h : r ∉ seg18_W) :
    val18 V0 (Proc.devRef .tc r) = val17 V0 (Proc.devRef .tc r) :=
  after_of_writes_sub seg18 _ seg18_writes h
theorem val18_main_arg0 (V0 : Valuation τ sig (Elt Ideal)) : val18 V0 (no_index (Proc.devRef .tc main_arg0)) = (V0 (Proc.devRef .tc main_arg0)) :=
  (val18_keep V0 main_arg0 (by decide)).trans (val17_main_arg0 V0)
theorem val18_main_arg1 (V0 : Valuation τ sig (Elt Ideal)) : val18 V0 (no_index (Proc.devRef .tc main_arg1)) = (V0 (Proc.devRef .tc main_arg1)) :=
  (val18_keep V0 main_arg1 (by decide)).trans (val17_main_arg1 V0)
theorem val18_main_arg2 (V0 : Valuation τ sig (Elt Ideal)) : val18 V0 (no_index (Proc.devRef .tc main_arg2)) = (V0 (Proc.devRef .tc main_arg2)) :=
  (val18_keep V0 main_arg2 (by decide)).trans (val17_main_arg2 V0)
theorem val18_main_v11 (V0 : Valuation τ sig (Elt Ideal)) : val18 V0 (no_index (Proc.devRef .tc main_v11)) = stXs (V0 (Proc.devRef .tc main_arg0)) :=
  (val18_keep V0 main_v11 (by decide)).trans (val17_main_v11 V0)
theorem val18_main_v15 (V0 : Valuation τ sig (Elt Ideal)) : val18 V0 (no_index (Proc.devRef .tc main_v15)) = stSg (V0 (Proc.devRef .tc main_arg0)) :=
  (val18_keep V0 main_v15 (by decide)).trans (val17_main_v15 V0)
theorem val18_main_v16 (V0 : Valuation τ sig (Elt Ideal)) : val18 V0 (no_index (Proc.devRef .tc main_v16)) = stAbs (V0 (Proc.devRef .tc main_arg0)) :=
  (val18_keep V0 main_v16 (by decide)).trans (val17_main_v16 V0)
theorem val18_main_v17 (V0 : Valuation τ sig (Elt Ideal)) : val18 V0 (no_index (Proc.devRef .tc main_v17)) = stL1p (V0 (Proc.devRef .tc main_arg0)) :=
  (val18_keep V0 main_v17 (by decide)).trans (val17_main_v17 V0)
theorem val18_main_v33 (V0 : Valuation τ sig (Elt Ideal)) : val18 V0 (no_index (Proc.devRef .tc main_v33)) = stDvar (V0 (Proc.devRef .tc main_arg0)) :=
  (val18_keep V0 main_v33 (by decide)).trans (val17_main_v33 V0)
theorem val18_main_v36 (V0 : Valuation τ sig (Elt Ideal)) : val18 V0 (no_index (Proc.devRef .tc main_v36)) = stG1 (V0 (Proc.devRef .tc main_arg0)) :=
  (val18_keep V0 main_v36 (by decide)).trans (val17_main_v36 V0)
theorem val18_main_v43 (V0 : Valuation τ sig (Elt Ideal)) : val18 V0 (no_index (Proc.devRef .tc main_v43)) = ((mulf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stDc (V0 (Proc.devRef .tc main_arg0))) (stDc (V0 (Proc.devRef .tc main_arg0)))) :=
  (val18_keep V0 main_v43 (by decide)).trans (val17_main_v43 V0)
set_option maxRecDepth 8192 in
theorem val18_main_v51 (V0 : Valuation τ sig (Elt Ideal)) : val18 V0 (no_index (Proc.devRef .tc main_v51)) = stD2 (V0 (Proc.devRef .tc main_arg0)) := by
  unfold val18
  simp only [seg18]
  after_results_simp
  simp only [val17_main_v50, val17_main_v15] <;> rfl

/-- The buffer contents after the first 19 stretches. -/
def val19 (V0 : Valuation τ sig (Elt Ideal)) : Valuation τ sig (Elt Ideal) := after (seg19 (F := Ideal)) (val18 V0)
theorem val19_keep (V0 : Valuation τ sig (Elt Ideal)) (r : Ref sig .tc) (h : r ∉ seg19_W) :
    val19 V0 (Proc.devRef .tc r) = val18 V0 (Proc.devRef .tc r) :=
  after_of_writes_sub seg19 _ seg19_writes h
theorem val19_main_arg0 (V0 : Valuation τ sig (Elt Ideal)) : val19 V0 (no_index (Proc.devRef .tc main_arg0)) = (V0 (Proc.devRef .tc main_arg0)) :=
  (val19_keep V0 main_arg0 (by decide)).trans (val18_main_arg0 V0)
theorem val19_main_arg1 (V0 : Valuation τ sig (Elt Ideal)) : val19 V0 (no_index (Proc.devRef .tc main_arg1)) = (V0 (Proc.devRef .tc main_arg1)) :=
  (val19_keep V0 main_arg1 (by decide)).trans (val18_main_arg1 V0)
theorem val19_main_arg2 (V0 : Valuation τ sig (Elt Ideal)) : val19 V0 (no_index (Proc.devRef .tc main_arg2)) = (V0 (Proc.devRef .tc main_arg2)) :=
  (val19_keep V0 main_arg2 (by decide)).trans (val18_main_arg2 V0)
theorem val19_main_v15 (V0 : Valuation τ sig (Elt Ideal)) : val19 V0 (no_index (Proc.devRef .tc main_v15)) = stSg (V0 (Proc.devRef .tc main_arg0)) :=
  (val19_keep V0 main_v15 (by decide)).trans (val18_main_v15 V0)
theorem val19_main_v16 (V0 : Valuation τ sig (Elt Ideal)) : val19 V0 (no_index (Proc.devRef .tc main_v16)) = stAbs (V0 (Proc.devRef .tc main_arg0)) :=
  (val19_keep V0 main_v16 (by decide)).trans (val18_main_v16 V0)
theorem val19_main_v17 (V0 : Valuation τ sig (Elt Ideal)) : val19 V0 (no_index (Proc.devRef .tc main_v17)) = stL1p (V0 (Proc.devRef .tc main_arg0)) :=
  (val19_keep V0 main_v17 (by decide)).trans (val18_main_v17 V0)
theorem val19_main_v33 (V0 : Valuation τ sig (Elt Ideal)) : val19 V0 (no_index (Proc.devRef .tc main_v33)) = stDvar (V0 (Proc.devRef .tc main_arg0)) :=
  (val19_keep V0 main_v33 (by decide)).trans (val18_main_v33 V0)
theorem val19_main_v36 (V0 : Valuation τ sig (Elt Ideal)) : val19 V0 (no_index (Proc.devRef .tc main_v36)) = stG1 (V0 (Proc.devRef .tc main_arg0)) :=
  (val19_keep V0 main_v36 (by decide)).trans (val18_main_v36 V0)
set_option maxRecDepth 8192 in
theorem val19_main_v57 (V0 : Valuation τ sig (Elt Ideal)) : val19 V0 (no_index (Proc.devRef .tc main_v57)) = stM2 (V0 (Proc.devRef .tc main_arg0)) := by
  unfold val19
  simp only [seg19]
  after_results_simp
  simp only [val18_main_v43, val18_main_v51, val18_main_v11] <;> rfl

/-- The buffer contents after the first 20 stretches. -/
def val20 (V0 : Valuation τ sig (Elt Ideal)) : Valuation τ sig (Elt Ideal) := after (seg20 (F := Ideal)) (val19 V0)
theorem val20_keep (V0 : Valuation τ sig (Elt Ideal)) (r : Ref sig .tc) (h : r ∉ seg20_W) :
    val20 V0 (Proc.devRef .tc r) = val19 V0 (Proc.devRef .tc r) :=
  after_of_writes_sub seg20 _ seg20_writes h
theorem val20_main_arg0 (V0 : Valuation τ sig (Elt Ideal)) : val20 V0 (no_index (Proc.devRef .tc main_arg0)) = (V0 (Proc.devRef .tc main_arg0)) :=
  (val20_keep V0 main_arg0 (by decide)).trans (val19_main_arg0 V0)
theorem val20_main_arg1 (V0 : Valuation τ sig (Elt Ideal)) : val20 V0 (no_index (Proc.devRef .tc main_arg1)) = (V0 (Proc.devRef .tc main_arg1)) :=
  (val20_keep V0 main_arg1 (by decide)).trans (val19_main_arg1 V0)
theorem val20_main_arg2 (V0 : Valuation τ sig (Elt Ideal)) : val20 V0 (no_index (Proc.devRef .tc main_arg2)) = (V0 (Proc.devRef .tc main_arg2)) :=
  (val20_keep V0 main_arg2 (by decide)).trans (val19_main_arg2 V0)
theorem val20_main_v15 (V0 : Valuation τ sig (Elt Ideal)) : val20 V0 (no_index (Proc.devRef .tc main_v15)) = stSg (V0 (Proc.devRef .tc main_arg0)) :=
  (val20_keep V0 main_v15 (by decide)).trans (val19_main_v15 V0)
theorem val20_main_v16 (V0 : Valuation τ sig (Elt Ideal)) : val20 V0 (no_index (Proc.devRef .tc main_v16)) = stAbs (V0 (Proc.devRef .tc main_arg0)) :=
  (val20_keep V0 main_v16 (by decide)).trans (val19_main_v16 V0)
theorem val20_main_v17 (V0 : Valuation τ sig (Elt Ideal)) : val20 V0 (no_index (Proc.devRef .tc main_v17)) = stL1p (V0 (Proc.devRef .tc main_arg0)) :=
  (val20_keep V0 main_v17 (by decide)).trans (val19_main_v17 V0)
theorem val20_main_v36 (V0 : Valuation τ sig (Elt Ideal)) : val20 V0 (no_index (Proc.devRef .tc main_v36)) = stG1 (V0 (Proc.devRef .tc main_arg0)) :=
  (val20_keep V0 main_v36 (by decide)).trans (val19_main_v36 V0)
set_option maxRecDepth 8192 in
set_option maxHeartbeats 1100000 in
theorem val20_main_v65 (V0 : Valuation τ sig (Elt Ideal)) : val20 V0 (no_index (Proc.devRef .tc main_v65)) = stG2 (V0 (Proc.devRef .tc main_arg0)) := by
  unfold val20
  simp only [seg20]
  after_results_simp
  simp only [val19_main_v57, val19_main_v33] <;> rfl

/-- The buffer contents after the first 21 stretches. -/
def val21 (V0 : Valuation τ sig (Elt Ideal)) : Valuation τ sig (Elt Ideal) := after (seg21 (F := Ideal)) (val20 V0)
theorem val21_keep (V0 : Valuation τ sig (Elt Ideal)) (r : Ref sig .tc) (h : r ∉ seg21_W) :
    val21 V0 (Proc.devRef .tc r) = val20 V0 (Proc.devRef .tc r) :=
  after_of_writes_sub seg21 _ seg21_writes h
theorem val21_main_arg0 (V0 : Valuation τ sig (Elt Ideal)) : val21 V0 (no_index (Proc.devRef .tc main_arg0)) = (V0 (Proc.devRef .tc main_arg0)) :=
  (val21_keep V0 main_arg0 (by decide)).trans (val20_main_arg0 V0)
theorem val21_main_arg1 (V0 : Valuation τ sig (Elt Ideal)) : val21 V0 (no_index (Proc.devRef .tc main_arg1)) = (V0 (Proc.devRef .tc main_arg1)) :=
  (val21_keep V0 main_arg1 (by decide)).trans (val20_main_arg1 V0)
theorem val21_main_arg2 (V0 : Valuation τ sig (Elt Ideal)) : val21 V0 (no_index (Proc.devRef .tc main_arg2)) = (V0 (Proc.devRef .tc main_arg2)) :=
  (val21_keep V0 main_arg2 (by decide)).trans (val20_main_arg2 V0)
theorem val21_main_v15 (V0 : Valuation τ sig (Elt Ideal)) : val21 V0 (no_index (Proc.devRef .tc main_v15)) = stSg (V0 (Proc.devRef .tc main_arg0)) :=
  (val21_keep V0 main_v15 (by decide)).trans (val20_main_v15 V0)
theorem val21_main_v16 (V0 : Valuation τ sig (Elt Ideal)) : val21 V0 (no_index (Proc.devRef .tc main_v16)) = stAbs (V0 (Proc.devRef .tc main_arg0)) :=
  (val21_keep V0 main_v16 (by decide)).trans (val20_main_v16 V0)
theorem val21_main_v17 (V0 : Valuation τ sig (Elt Ideal)) : val21 V0 (no_index (Proc.devRef .tc main_v17)) = stL1p (V0 (Proc.devRef .tc main_arg0)) :=
  (val21_keep V0 main_v17 (by decide)).trans (val20_main_v17 V0)
set_option maxRecDepth 8192 in
set_option maxHeartbeats 1000000 in
theorem val21_main_v72 (V0 : Valuation τ sig (Elt Ideal)) : val21 V0 (no_index (Proc.devRef .tc main_v72)) = stLm1 (V0 (Proc.devRef .tc main_arg0)) := by
  unfold val21
  simp only [seg21]
  after_results_simp
  simp only [val20_main_v65, val20_main_v36] <;> rfl

/-- The buffer contents after the first 22 stretches. -/
def val22 (V0 : Valuation τ sig (Elt Ideal)) : Valuation τ sig (Elt Ideal) := after (seg22 (F := Ideal)) (val21 V0)
theorem val22_keep (V0 : Valuation τ sig (Elt Ideal)) (r : Ref sig .tc) (h : r ∉ seg22_W) :
    val22 V0 (Proc.devRef .tc r) = val21 V0 (Proc.devRef .tc r) :=
  after_of_writes_sub seg22 _ seg22_writes h
theorem val22_main_arg0 (V0 : Valuation τ sig (Elt Ideal)) : val22 V0 (no_index (Proc.devRef .tc main_arg0)) = (V0 (Proc.devRef .tc main_arg0)) :=
  (val22_keep V0 main_arg0 (by decide)).trans (val21_main_arg0 V0)
theorem val22_main_arg1 (V0 : Valuation τ sig (Elt Ideal)) : val22 V0 (no_index (Proc.devRef .tc main_arg1)) = (V0 (Proc.devRef .tc main_arg1)) :=
  (val22_keep V0 main_arg1 (by decide)).trans (val21_main_arg1 V0)
theorem val22_main_arg2 (V0 : Valuation τ sig (Elt Ideal)) : val22 V0 (no_index (Proc.devRef .tc main_arg2)) = (V0 (Proc.devRef .tc main_arg2)) :=
  (val22_keep V0 main_arg2 (by decide)).trans (val21_main_arg2 V0)
theorem val22_main_v15 (V0 : Valuation τ sig (Elt Ideal)) : val22 V0 (no_index (Proc.devRef .tc main_v15)) = stSg (V0 (Proc.devRef .tc main_arg0)) :=
  (val22_keep V0 main_v15 (by decide)).trans (val21_main_v15 V0)
theorem val22_main_v16 (V0 : Valuation τ sig (Elt Ideal)) : val22 V0 (no_index (Proc.devRef .tc main_v16)) = stAbs (V0 (Proc.devRef .tc main_arg0)) :=
  (val22_keep V0 main_v16 (by decide)).trans (val21_main_v16 V0)
theorem val22_main_v17 (V0 : Valuation τ sig (Elt Ideal)) : val22 V0 (no_index (Proc.devRef .tc main_v17)) = stL1p (V0 (Proc.devRef .tc main_arg0)) :=
  (val22_keep V0 main_v17 (by decide)).trans (val21_main_v17 V0)
set_option maxRecDepth 8192 in
theorem val22_main_v76 (V0 : Valuation τ sig (Elt Ideal)) : val22 V0 (no_index (Proc.devRef .tc main_v76)) = stEta (V0 (Proc.devRef .tc main_arg0)) := by
  unfold val22
  simp only [seg22]
  after_results_simp
  simp only [val21_main_v72, val21_main_v15] <;> rfl

/-- The buffer contents after the first 23 stretches. -/
def val23 (V0 : Valuation τ sig (Elt Ideal)) : Valuation τ sig (Elt Ideal) := after (seg23 (F := Ideal)) (val22 V0)
theorem val23_keep (V0 : Valuation τ sig (Elt Ideal)) (r : Ref sig .tc) (h : r ∉ seg23_W) :
    val23 V0 (Proc.devRef .tc r) = val22 V0 (Proc.devRef .tc r) :=
  after_of_writes_sub seg23 _ seg23_writes h
theorem val23_main_arg0 (V0 : Valuation τ sig (Elt Ideal)) : val23 V0 (no_index (Proc.devRef .tc main_arg0)) = (V0 (Proc.devRef .tc main_arg0)) :=
  (val23_keep V0 main_arg0 (by decide)).trans (val22_main_arg0 V0)
theorem val23_main_arg1 (V0 : Valuation τ sig (Elt Ideal)) : val23 V0 (no_index (Proc.devRef .tc main_arg1)) = (V0 (Proc.devRef .tc main_arg1)) :=
  (val23_keep V0 main_arg1 (by decide)).trans (val22_main_arg1 V0)
theorem val23_main_arg2 (V0 : Valuation τ sig (Elt Ideal)) : val23 V0 (no_index (Proc.devRef .tc main_arg2)) = (V0 (Proc.devRef .tc main_arg2)) :=
  (val23_keep V0 main_arg2 (by decide)).trans (val22_main_arg2 V0)
theorem val23_main_v15 (V0 : Valuation τ sig (Elt Ideal)) : val23 V0 (no_index (Proc.devRef .tc main_v15)) = stSg (V0 (Proc.devRef .tc main_arg0)) :=
  (val23_keep V0 main_v15 (by decide)).trans (val22_main_v15 V0)
theorem val23_main_v16 (V0 : Valuation τ sig (Elt Ideal)) : val23 V0 (no_index (Proc.devRef .tc main_v16)) = stAbs (V0 (Proc.devRef .tc main_arg0)) :=
  (val23_keep V0 main_v16 (by decide)).trans (val22_main_v16 V0)
theorem val23_main_v17 (V0 : Valuation τ sig (Elt Ideal)) : val23 V0 (no_index (Proc.devRef .tc main_v17)) = stL1p (V0 (Proc.devRef .tc main_arg0)) :=
  (val23_keep V0 main_v17 (by decide)).trans (val22_main_v17 V0)
theorem val23_main_v76 (V0 : Valuation τ sig (Elt Ideal)) : val23 V0 (no_index (Proc.devRef .tc main_v76)) = stEta (V0 (Proc.devRef .tc main_arg0)) :=
  (val23_keep V0 main_v76 (by decide)).trans (val22_main_v76 V0)
set_option maxRecDepth 8192 in
theorem val23_main_v77 (V0 : Valuation τ sig (Elt Ideal)) : val23 V0 (no_index (Proc.devRef .tc main_v77)) = stSignEta (V0 (Proc.devRef .tc main_arg0)) := by
  unfold val23
  simp only [seg23]
  after_results_simp
  simp only [val22_main_v76] <;> rfl

/-- The buffer contents after the first 24 stretches. -/
def val24 (V0 : Valuation τ sig (Elt Ideal)) : Valuation τ sig (Elt Ideal) := after (seg24 (F := Ideal)) (val23 V0)
theorem val24_keep (V0 : Valuation τ sig (Elt Ideal)) (r : Ref sig .tc) (h : r ∉ seg24_W) :
    val24 V0 (Proc.devRef .tc r) = val23 V0 (Proc.devRef .tc r) :=
  after_of_writes_sub seg24 _ seg24_writes h
theorem val24_main_arg0 (V0 : Valuation τ sig (Elt Ideal)) : val24 V0 (no_index (Proc.devRef .tc main_arg0)) = (V0 (Proc.devRef .tc main_arg0)) :=
  (val24_keep V0 main_arg0 (by decide)).trans (val23_main_arg0 V0)
theorem val24_main_arg1 (V0 : Valuation τ sig (Elt Ideal)) : val24 V0 (no_index (Proc.devRef .tc main_arg1)) = (V0 (Proc.devRef .tc main_arg1)) :=
  (val24_keep V0 main_arg1 (by decide)).trans (val23_main_arg1 V0)
theorem val24_main_arg2 (V0 : Valuation τ sig (Elt Ideal)) : val24 V0 (no_index (Proc.devRef .tc main_arg2)) = (V0 (Proc.devRef .tc main_arg2)) :=
  (val24_keep V0 main_arg2 (by decide)).trans (val23_main_arg2 V0)
theorem val24_main_v15 (V0 : Valuation τ sig (Elt Ideal)) : val24 V0 (no_index (Proc.devRef .tc main_v15)) = stSg (V0 (Proc.devRef .tc main_arg0)) :=
  (val24_keep V0 main_v15 (by decide)).trans (val23_main_v15 V0)
theorem val24_main_v16 (V0 : Valuation τ sig (Elt Ideal)) : val24 V0 (no_index (Proc.devRef .tc main_v16)) = stAbs (V0 (Proc.devRef .tc main_arg0)) :=
  (val24_keep V0 main_v16 (by decide)).trans (val23_main_v16 V0)
theorem val24_main_v17 (V0 : Valuation τ sig (Elt Ideal)) : val24 V0 (no_index (Proc.devRef .tc main_v17)) = stL1p (V0 (Proc.devRef .tc main_arg0)) :=
  (val24_keep V0 main_v17 (by decide)).trans (val23_main_v17 V0)
theorem val24_main_v76 (V0 : Valuation τ sig (Elt Ideal)) : val24 V0 (no_index (Proc.devRef .tc main_v76)) = stEta (V0 (Proc.devRef .tc main_arg0)) :=
  (val24_keep V0 main_v76 (by decide)).trans (val23_main_v76 V0)
set_option maxRecDepth 8192 in
theorem val24_main_v80 (V0 : Valuation τ sig (Elt Ideal)) : val24 V0 (no_index (Proc.devRef .tc main_v80)) = stSgEta (V0 (Proc.devRef .tc main_arg0)) := by
  unfold val24
  simp only [seg24]
  after_results_simp
  simp only [val23_main_v77] <;> rfl

/-- The buffer contents after the first 25 stretches. -/
def val25 (V0 : Valuation τ sig (Elt Ideal)) : Valuation τ sig (Elt Ideal) := after (seg25 (F := Ideal)) (val24 V0)
theorem val25_keep (V0 : Valuation τ sig (Elt Ideal)) (r : Ref sig .tc) (h : r ∉ seg25_W) :
    val25 V0 (Proc.devRef .tc r) = val24 V0 (Proc.devRef .tc r) :=
  after_of_writes_sub seg25 _ seg25_writes h
theorem val25_main_arg0 (V0 : Valuation τ sig (Elt Ideal)) : val25 V0 (no_index (Proc.devRef .tc main_arg0)) = (V0 (Proc.devRef .tc main_arg0)) :=
  (val25_keep V0 main_arg0 (by decide)).trans (val24_main_arg0 V0)
theorem val25_main_arg1 (V0 : Valuation τ sig (Elt Ideal)) : val25 V0 (no_index (Proc.devRef .tc main_arg1)) = (V0 (Proc.devRef .tc main_arg1)) :=
  (val25_keep V0 main_arg1 (by decide)).trans (val24_main_arg1 V0)
theorem val25_main_arg2 (V0 : Valuation τ sig (Elt Ideal)) : val25 V0 (no_index (Proc.devRef .tc main_arg2)) = (V0 (Proc.devRef .tc main_arg2)) :=
  (val25_keep V0 main_arg2 (by decide)).trans (val24_main_arg2 V0)
theorem val25_main_v15 (V0 : Valuation τ sig (Elt Ideal)) : val25 V0 (no_index (Proc.devRef .tc main_v15)) = stSg (V0 (Proc.devRef .tc main_arg0)) :=
  (val25_keep V0 main_v15 (by decide)).trans (val24_main_v15 V0)
theorem val25_main_v16 (V0 : Valuation τ sig (Elt Ideal)) : val25 V0 (no_index (Proc.devRef .tc main_v16)) = stAbs (V0 (Proc.devRef .tc main_arg0)) :=
  (val25_keep V0 main_v16 (by decide)).trans (val24_main_v16 V0)
theorem val25_main_v17 (V0 : Valuation τ sig (Elt Ideal)) : val25 V0 (no_index (Proc.devRef .tc main_v17)) = stL1p (V0 (Proc.devRef .tc main_arg0)) :=
  (val25_keep V0 main_v17 (by decide)).trans (val24_main_v17 V0)
theorem val25_main_v76 (V0 : Valuation τ sig (Elt Ideal)) : val25 V0 (no_index (Proc.devRef .tc main_v76)) = stEta (V0 (Proc.devRef .tc main_arg0)) :=
  (val25_keep V0 main_v76 (by decide)).trans (val24_main_v76 V0)
set_option maxRecDepth 8192 in
theorem val25_main_v83 (V0 : Valuation τ sig (Elt Ideal)) : val25 V0 (no_index (Proc.devRef .tc main_v83)) = stExpo (V0 (Proc.devRef .tc main_arg0)) := by
  unfold val25
  simp only [seg25]
  after_results_simp
  simp only [val24_main_v80, val24_main_v76] <;> rfl

/-- The buffer contents after the first 26 stretches. -/
def val26 (V0 : Valuation τ sig (Elt Ideal)) : Valuation τ sig (Elt Ideal) := after (seg26 (F := Ideal)) (val25 V0)
theorem val26_keep (V0 : Valuation τ sig (Elt Ideal)) (r : Ref sig .tc) (h : r ∉ seg26_W) :
    val26 V0 (Proc.devRef .tc r) = val25 V0 (Proc.devRef .tc r) :=
  after_of_writes_sub seg26 _ seg26_writes h
theorem val26_main_arg0 (V0 : Valuation τ sig (Elt Ideal)) : val26 V0 (no_index (Proc.devRef .tc main_arg0)) = (V0 (Proc.devRef .tc main_arg0)) :=
  (val26_keep V0 main_arg0 (by decide)).trans (val25_main_arg0 V0)
theorem val26_main_arg1 (V0 : Valuation τ sig (Elt Ideal)) : val26 V0 (no_index (Proc.devRef .tc main_arg1)) = (V0 (Proc.devRef .tc main_arg1)) :=
  (val26_keep V0 main_arg1 (by decide)).trans (val25_main_arg1 V0)
theorem val26_main_arg2 (V0 : Valuation τ sig (Elt Ideal)) : val26 V0 (no_index (Proc.devRef .tc main_arg2)) = (V0 (Proc.devRef .tc main_arg2)) :=
  (val26_keep V0 main_arg2 (by decide)).trans (val25_main_arg2 V0)
theorem val26_main_v15 (V0 : Valuation τ sig (Elt Ideal)) : val26 V0 (no_index (Proc.devRef .tc main_v15)) = stSg (V0 (Proc.devRef .tc main_arg0)) :=
  (val26_keep V0 main_v15 (by decide)).trans (val25_main_v15 V0)
theorem val26_main_v17 (V0 : Valuation τ sig (Elt Ideal)) : val26 V0 (no_index (Proc.devRef .tc main_v17)) = stL1p (V0 (Proc.devRef .tc main_arg0)) :=
  (val26_keep V0 main_v17 (by decide)).trans (val25_main_v17 V0)
theorem val26_main_v76 (V0 : Valuation τ sig (Elt Ideal)) : val26 V0 (no_index (Proc.devRef .tc main_v76)) = stEta (V0 (Proc.devRef .tc main_arg0)) :=
  (val26_keep V0 main_v76 (by decide)).trans (val25_main_v76 V0)
set_option maxRecDepth 8192 in
theorem val26_main_v84 (V0 : Valuation τ sig (Elt Ideal)) : val26 V0 (no_index (Proc.devRef .tc main_v84)) = ((Host.divf (F := Ideal) (φ := .f32) : (⟨S4x2048x4096, .f32⟩ : BufTy).Contents (Elt Ideal) → (⟨S4x2048x4096, .f32⟩ : BufTy).Contents (Elt Ideal) → (⟨S4x2048x4096, .f32⟩ : BufTy).Contents (Elt Ideal)) (stSg (V0 (Proc.devRef .tc main_arg0))) (stExpo (V0 (Proc.devRef .tc main_arg0)))) := by
  unfold val26
  simp only [seg26]
  after_results_simp
  simp only [val25_main_v83, val25_main_v15] <;> rfl
set_option maxRecDepth 8192 in
theorem val26_main_v87 (V0 : Valuation τ sig (Elt Ideal)) : val26 V0 (no_index (Proc.devRef .tc main_v87)) = stPw (V0 (Proc.devRef .tc main_arg0)) := by
  unfold val26
  simp only [seg26]
  after_results_simp
  simp only [val25_main_v83, val25_main_v16] <;> rfl

/-- The buffer contents after the first 27 stretches. -/
def val27 (V0 : Valuation τ sig (Elt Ideal)) : Valuation τ sig (Elt Ideal) := after (seg27 (F := Ideal)) (val26 V0)
theorem val27_keep (V0 : Valuation τ sig (Elt Ideal)) (r : Ref sig .tc) (h : r ∉ seg27_W) :
    val27 V0 (Proc.devRef .tc r) = val26 V0 (Proc.devRef .tc r) :=
  after_of_writes_sub seg27 _ seg27_writes h
theorem val27_main_arg0 (V0 : Valuation τ sig (Elt Ideal)) : val27 V0 (no_index (Proc.devRef .tc main_arg0)) = (V0 (Proc.devRef .tc main_arg0)) :=
  (val27_keep V0 main_arg0 (by decide)).trans (val26_main_arg0 V0)
theorem val27_main_arg1 (V0 : Valuation τ sig (Elt Ideal)) : val27 V0 (no_index (Proc.devRef .tc main_arg1)) = (V0 (Proc.devRef .tc main_arg1)) :=
  (val27_keep V0 main_arg1 (by decide)).trans (val26_main_arg1 V0)
theorem val27_main_arg2 (V0 : Valuation τ sig (Elt Ideal)) : val27 V0 (no_index (Proc.devRef .tc main_arg2)) = (V0 (Proc.devRef .tc main_arg2)) :=
  (val27_keep V0 main_arg2 (by decide)).trans (val26_main_arg2 V0)
set_option maxRecDepth 8192 in
set_option maxHeartbeats 1000000 in
theorem val27_main_v95 (V0 : Valuation τ sig (Elt Ideal)) : val27 V0 (no_index (Proc.devRef .tc main_v95)) = stTr (V0 (Proc.devRef .tc main_arg0)) := by
  unfold val27
  simp only [seg27]
  after_results_simp
  simp only [val26_main_v87, val26_main_v84, val26_main_v17, val26_main_v15, val26_main_v76] <;> rfl

/-- The buffer contents after the first 28 stretches. -/
def val28 (V0 : Valuation τ sig (Elt Ideal)) : Valuation τ sig (Elt Ideal) := after (seg28 (F := Ideal)) (val27 V0)
theorem val28_keep (V0 : Valuation τ sig (Elt Ideal)) (r : Ref sig .tc) (h : r ∉ seg28_W) :
    val28 V0 (Proc.devRef .tc r) = val27 V0 (Proc.devRef .tc r) :=
  after_of_writes_sub seg28 _ seg28_writes h
theorem val28_main_arg0 (V0 : Valuation τ sig (Elt Ideal)) : val28 V0 (no_index (Proc.devRef .tc main_arg0)) = (V0 (Proc.devRef .tc main_arg0)) :=
  (val28_keep V0 main_arg0 (by decide)).trans (val27_main_arg0 V0)
theorem val28_main_arg1 (V0 : Valuation τ sig (Elt Ideal)) : val28 V0 (no_index (Proc.devRef .tc main_arg1)) = (V0 (Proc.devRef .tc main_arg1)) :=
  (val28_keep V0 main_arg1 (by decide)).trans (val27_main_arg1 V0)
theorem val28_main_arg2 (V0 : Valuation τ sig (Elt Ideal)) : val28 V0 (no_index (Proc.devRef .tc main_arg2)) = (V0 (Proc.devRef .tc main_arg2)) :=
  (val28_keep V0 main_arg2 (by decide)).trans (val27_main_arg2 V0)
set_option maxRecDepth 8192 in
theorem val28_main_v101 (V0 : Valuation τ sig (Elt Ideal)) : val28 V0 (no_index (Proc.devRef .tc main_v101)) = stOut (V0 (Proc.devRef .tc main_arg0)) (V0 (Proc.devRef .tc main_arg1)) (V0 (Proc.devRef .tc main_arg2)) := by
  unfold val28
  simp only [seg28]
  after_results_simp
  simp only [val27_main_arg2, val27_main_arg1, val27_main_v95] <;> rfl

end Cert.ReferenceIdeal.RefValue

end
-- ==== Proof.RefLayout.lean ====
/-
  Host operations of the reference read at an index, at the exact-real instance and at the program's shapes:
  which entry of its operand a `broadcast_in_dim` reads (a `[4, 2048]` matrix as a `[4, 2048, 1]` column, that column
  spread along 4096 lanes, a `[4096]` vector as `[1, 1, 4096]` and that spread over the `4 · 2048` rows), a sum along the
  last axis as the initial value plus the sum over the row, and the pointwise host functions as the extended reals' own.
-/
import proofs.«141878_j5377299054673_2_alg».proof.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx

open scoped BigOperators

variable {α : Type}

/-- A `[4, 2048]` matrix as a `[4, 2048, 1]` column reads, at `(p, q, u)`, entry `(p, q)`. -/
theorem bc_ab_ab1 (h : S4x2048.BroadcastsInDim S4x2048x1 (![0, 1] : Fin 2 → Fin S4x2048x1.rank)) (v : S4x2048.Idx → α)
    (p : Fin 4) (q : Fin 2048) (u : Fin 1) :
    broadcastInDim S4x2048x1 ![0, 1] h v (ix3 p q u) = v (ix2 p q) :=
  broadcastInDim_apply _ h v _ _ fun a => by
    match a with
    | ⟨0, _⟩ => rfl
    | ⟨1, _⟩ => rfl

/-- A `[4, 2048, 1]` column spread along the lanes reads, at `(p, q, k)`, entry `(p, q, 0)`. -/
theorem bc_ab1_abc (h : S4x2048x1.BroadcastsInDim S4x2048x4096 (![0, 1, 2] : Fin 3 → Fin S4x2048x4096.rank)) (v : S4x2048x1.Idx → α)
    (p : Fin 4) (q : Fin 2048) (k : Fin 4096) :
    broadcastInDim S4x2048x4096 ![0, 1, 2] h v (ix3 p q k) = v (ix3 p q (0 : Fin 1)) :=
  broadcastInDim_apply _ h v _ _ fun a => by
    match a with
    | ⟨0, _⟩ => rfl
    | ⟨1, _⟩ => rfl
    | ⟨2, _⟩ => rfl

/-- A `[4096]` vector as `[1, 1, 4096]` reads, at `(u, u', k)`, entry `k`. -/
theorem bc_c_11c (h : S4096.BroadcastsInDim S1x1x4096 (![2] : Fin 1 → Fin S1x1x4096.rank)) (v : S4096.Idx → α)
    (u u' : Fin 1) (k : Fin 4096) :
    broadcastInDim S1x1x4096 ![2] h v (ix3 u u' k) = v (ix1 k) :=
  broadcastInDim_apply _ h v _ _ fun a => by
    match a with
    | ⟨0, _⟩ => rfl

/-- `[1, 1, 4096]` spread over the rows reads, at `(p, q, k)`, entry `(0, 0, k)`. -/
theorem bc_11c_abc (h : S1x1x4096.BroadcastsInDim S4x2048x4096 (![0, 1, 2] : Fin 3 → Fin S4x2048x4096.rank)) (v : S1x1x4096.Idx → α)
    (p : Fin 4) (q : Fin 2048) (k : Fin 4096) :
    broadcastInDim S4x2048x4096 ![0, 1, 2] h v (ix3 p q k) = v (ix3 (0 : Fin 1) (0 : Fin 1) k) :=
  broadcastInDim_apply _ h v _ _ fun a => by
    match a with
    | ⟨0, _⟩ => rfl
    | ⟨1, _⟩ => rfl
    | ⟨2, _⟩ => rfl

/-- The host's sum along the last axis, at the extended reals, read at row `(p, q)`: the initial value plus the sum of
    the row's entries. -/
theorem hostSum_row (h' : S4x2048x4096.ReducesTo [2] S4x2048) (src : S4x2048x4096.Idx → EReal) (init : EReal)
    (p : Fin 4) (q : Fin 2048) :
    Ideal.hostReduceAdd h' src init (ix2 p q) = init + ∑ k : Fin 4096, src (ix3 p q k) := by
  have h : S4x2048x4096.Reduces [2] S4x2048 := by decide
  refine (Ideal.hostReduceAdd_single h' h src init (ix2 p q)).trans ?_
  refine congrArg (fun t => init + t) ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

/-! The same facts once more, stated so that they rewrite wherever the operation is read at such an index (the shapes,
    the axis maps and the indices are abbreviations and are matched up to unfolding). -/

theorem bc_ab_ab1' (h : S4x2048.BroadcastsInDim S4x2048x1 (![0, 1] : Fin 2 → Fin S4x2048x1.rank)) (v : S4x2048.Idx → α)
    (p : Fin 4) (q : Fin 2048) (u : Fin 1) :
    @broadcastInDim (no_index _) α (no_index S4x2048x1) (no_index ![0, 1]) h v (no_index (ix3 p q u)) = v (ix2 p q) :=
  bc_ab_ab1 h v p q u
theorem bc_ab1_abc' (h : S4x2048x1.BroadcastsInDim S4x2048x4096 (![0, 1, 2] : Fin 3 → Fin S4x2048x4096.rank)) (v : S4x2048x1.Idx → α)
    (p : Fin 4) (q : Fin 2048) (k : Fin 4096) :
    @broadcastInDim (no_index _) α (no_index S4x2048x4096) (no_index ![0, 1, 2]) h v (no_index (ix3 p q k)) = v (ix3 p q (0 : Fin 1)) :=
  bc_ab1_abc h v p q k
theorem bc_c_11c' (h : S4096.BroadcastsInDim S1x1x4096 (![2] : Fin 1 → Fin S1x1x4096.rank)) (v : S4096.Idx → α)
    (u u' : Fin 1) (k : Fin 4096) :
    @broadcastInDim (no_index _) α (no_index S1x1x4096) (no_index ![2]) h v (no_index (ix3 u u' k)) = v (ix1 k) :=
  bc_c_11c h v u u' k
theorem bc_11c_abc' (h : S1x1x4096.BroadcastsInDim S4x2048x4096 (![0, 1, 2] : Fin 3 → Fin S4x2048x4096.rank)) (v : S1x1x4096.Idx → α)
    (p : Fin 4) (q : Fin 2048) (k : Fin 4096) :
    @broadcastInDim (no_index _) α (no_index S4x2048x4096) (no_index ![0, 1, 2]) h v (no_index (ix3 p q k)) = v (ix3 (0 : Fin 1) (0 : Fin 1) k) :=
  bc_11c_abc h v p q k
/-- A scalar spread to any shape reads the scalar everywhere. -/
theorem bc_scalar' {T : Shape} (h : S_.BroadcastsInDim T ![]) (v : S_.Idx → α) (j : T.Idx) :
    @broadcastInDim (no_index _) α T (no_index ![]) h v j = v ix0 :=
  broadcastInDim_scalar_apply h v j
theorem hostSum_row' (h' : S4x2048x4096.ReducesTo [2] S4x2048) (src : S4x2048x4096.Idx → EReal) (init : EReal)
    (p : Fin 4) (q : Fin 2048) :
    @Ideal.hostReduceAdd (no_index _) (no_index _) (no_index _) h' src init (no_index (ix2 p q)) = init + ∑ k : Fin 4096, src (ix3 p q k) :=
  hostSum_row h' src init p q

section Pointwise
variable {s : Shape}

theorem hSqrt_apply (a : FVec Ideal s .f32) (i : s.Idx) : Host.sqrt a i = Ideal.sqrt (a i) := rfl
theorem hSign_apply (a : FVec Ideal s .f32) (i : s.Idx) : Host.sign a i = Ideal.sign (a i) := rfl
theorem hAbs_apply (a : FVec Ideal s .f32) (i : s.Idx) : Host.absf a i = max (a i) (-(a i)) := rfl
theorem hLog1p_apply (a : FVec Ideal s .f32) (i : s.Idx) : Host.log1p a i = Ideal.log1p (a i) := rfl
theorem hPow_apply (a b : FVec Ideal s .f32) (i : s.Idx) : Host.powf a b i = Ideal.pow (a i) (b i) := rfl
theorem hDiv_apply (a b : FVec Ideal s .f32) (i : s.Idx) : Host.divf a b i = Ideal.div (a i) (b i) := rfl
theorem cmp_apply (p : CmpFPredicate) (a b : FVec Ideal s .f32) (i : s.Idx) : cmpf p a b i = Ideal.cmp p (a i) (b i) := rfl
theorem sitofp32_apply {w : Nat} (x : IVec s w) (i : s.Idx) :
    (sitofp .f32 x : FVec Ideal s .f32) i = (((x i).toInt : ℝ) : EReal) := rfl
theorem constantI_apply {w : Nat} (b : BitVec w) (i : s.Idx) : constantI s w b i = b := rfl
theorem hSum_apply {t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

end Pointwise

end Cert.ReferenceIdeal.RefValue

end
-- ==== Proof.RefIdx.lean ====
/-
  Each named stage of the reference read at one index: an entry of a `[4, 2048, 1]` column at `(p, q, ·)` is a statistic
  of the row `r = x (p, q, ·)`, an entry of a `[4, 2048, 4096]` stage at `(p, q, k)` is the row transform's pointwise term at
  column `k` — the definitions of the row transform, in the reference's arrangement, line for line. The last lemma reads
  the result stage as the transformed entry times its column's weight plus its column's bias.
-/
import proofs.«141878_j5377299054673_2_alg».proof.Proof.RefStages
import proofs.«141878_j5377299054673_2_alg».proof.Proof.RefLayout
import proofs.«141878_j5377299054673_2_alg».proof.Proof.Transform

noncomputable section

namespace Cert.ReferenceIdeal.RefValue

open Cert.ReferenceIdeal Cert.ReferenceIdeal.Gen Cert.PowerNorm Idealize.ShloMosaic Idealize.ShloMosaic.ValueIdx

open scoped BigOperators

/-- The row `(p, q, ·)` of the argument array. -/
abbrev row (x : FVec Ideal S4x2048x4096 .f32) (p : Fin 4) (q : Fin 2048) : Row := fun k => x (ix3 p q k)

/-- The mean column at `(p, q)` is the row's mean. -/
theorem stMean_apply (x : FVec Ideal S4x2048x4096 .f32) (p : Fin 4) (q : Fin 2048) (u : Fin 1) :
    stMean x (no_index (ix3 p q u)) = meanR (row x p q) := by
  unfold stMean
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row'] <;> rfl

/-- So is the variance function's own. -/
theorem stMeanV_apply (x : FVec Ideal S4x2048x4096 .f32) (p : Fin 4) (q : Fin 2048) (u : Fin 1) :
    stMeanV x (no_index (ix3 p q u)) = meanR (row x p q) := by
  unfold stMeanV
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row'] <;> rfl

/-- The centred entry. -/
theorem stCen_apply (x : FVec Ideal S4x2048x4096 .f32) (p : Fin 4) (q : Fin 2048) (k : Fin 4096) :
    stCen x (no_index (ix3 p q k)) = row x p q k - meanR (row x p q) := by
  unfold stCen
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stMeanV_apply] <;> rfl

/-- The row length less the correction. -/
theorem stNd_apply (x : FVec Ideal S4x2048x4096 .f32) : stNd x (no_index ix0) = cN - ddof := by
  unfold stNd
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row'] <;> rfl

/-- The variance column at `(p, q)` is the row's variance. -/
theorem stVar_apply (x : FVec Ideal S4x2048x4096 .f32) (p : Fin 4) (q : Fin 2048) (u : Fin 1) :
    stVar x (no_index (ix3 p q u)) = varR (row x p q) := by
  unfold stVar
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stCen_apply, stNd_apply] <;> rfl

/-- The standardised entry. -/
theorem stXs_apply (x : FVec Ideal S4x2048x4096 .f32) (p : Fin 4) (q : Fin 2048) (k : Fin 4096) :
    stXs x (no_index (ix3 p q k)) = xsR (row x p q) k := by
  unfold stXs
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stMean_apply, stVar_apply] <;> rfl

/-- Its sign. -/
theorem stSign_apply (x : FVec Ideal S4x2048x4096 .f32) (p : Fin 4) (q : Fin 2048) (k : Fin 4096) :
    stSign x (no_index (ix3 p q k)) = Ideal.sign ((xsR (row x p q)) k) := by
  unfold stSign
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stXs_apply] <;> rfl

/-- Its sign patched at zero. -/
theorem stSg_apply (x : FVec Ideal S4x2048x4096 .f32) (p : Fin 4) (q : Fin 2048) (k : Fin 4096) :
    stSg x (no_index (ix3 p q k)) = sgR ((xsR (row x p q)) k) := by
  unfold stSg
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSign_apply] <;> rfl

/-- Its modulus. -/
theorem stAbs_apply (x : FVec Ideal S4x2048x4096 .f32) (p : Fin 4) (q : Fin 2048) (k : Fin 4096) :
    stAbs x (no_index (ix3 p q k)) = absx ((xsR (row x p q)) k) := by
  unfold stAbs
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stXs_apply] <;> rfl

/-- `log(1 + |xs|)`. -/
theorem stL1p_apply (x : FVec Ideal S4x2048x4096 .f32) (p : Fin 4) (q : Fin 2048) (k : Fin 4096) :
    stL1p x (no_index (ix3 p q k)) = l1p ((xsR (row x p q)) k) := by
  unfold stL1p
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stAbs_apply] <;> rfl

/-- The first statistic. -/
theorem stS1_apply (x : FVec Ideal S4x2048x4096 .f32) (p : Fin 4) (q : Fin 2048) (u : Fin 1) :
    stS1 x (no_index (ix3 p q u)) = s1 meanR sgR (xsR (row x p q)) := by
  unfold stS1
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSg_apply, stL1p_apply] <;> rfl

/-- `d`. -/
theorem stD_apply (x : FVec Ideal S4x2048x4096 .f32) (p : Fin 4) (q : Fin 2048) (k : Fin 4096) :
    stD x (no_index (ix3 p q k)) = dOf ((xsR (row x p q)) k) := by
  unfold stD
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stAbs_apply, stL1p_apply] <;> rfl

/-- Twice the mean of `xs · d`. -/
theorem stDvar_apply (x : FVec Ideal S4x2048x4096 .f32) (p : Fin 4) (q : Fin 2048) (u : Fin 1) :
    stDvar x (no_index (ix3 p q u)) = dvar meanR (xsR (row x p q)) := by
  unfold stDvar
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stXs_apply, stD_apply] <;> rfl

/-- The first derivative. -/
theorem stG1_apply (x : FVec Ideal S4x2048x4096 .f32) (p : Fin 4) (q : Fin 2048) (u : Fin 1) :
    stG1 x (no_index (ix3 p q u)) = g1 meanR sgR (xsR (row x p q)) := by
  unfold stG1
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stDvar_apply, stS1_apply] <;> rfl

/-- The mean of `d`. -/
theorem stDmean_apply (x : FVec Ideal S4x2048x4096 .f32) (p : Fin 4) (q : Fin 2048) (u : Fin 1) :
    stDmean x (no_index (ix3 p q u)) = dmean meanR (xsR (row x p q)) := by
  unfold stDmean
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stD_apply] <;> rfl

/-- `d` less its mean. -/
theorem stDc_apply (x : FVec Ideal S4x2048x4096 .f32) (p : Fin 4) (q : Fin 2048) (k : Fin 4096) :
    stDc x (no_index (ix3 p q k)) = dOf ((xsR (row x p q)) k) - dmean meanR (xsR (row x p q)) := by
  unfold stDc
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stD_apply, stDmean_apply] <;> rfl

/-- `p1`. -/
theorem stP1_apply (x : FVec Ideal S4x2048x4096 .f32) (p : Fin 4) (q : Fin 2048) (k : Fin 4096) :
    stP1 x (no_index (ix3 p q k)) = p1Of ((xsR (row x p q)) k) := by
  unfold stP1
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stAbs_apply, stL1p_apply, stD_apply] <;> rfl

/-- `d2 = sg · p1`. -/
theorem stD2_apply (x : FVec Ideal S4x2048x4096 .f32) (p : Fin 4) (q : Fin 2048) (k : Fin 4096) :
    stD2 x (no_index (ix3 p q k)) = d2Of sgR ((xsR (row x p q)) k) := by
  unfold stD2
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSg_apply, stP1_apply] <;> rfl

/-- The second-moment term under one mean. -/
theorem stM2_apply (x : FVec Ideal S4x2048x4096 .f32) (p : Fin 4) (q : Fin 2048) (u : Fin 1) :
    stM2 x (no_index (ix3 p q u)) = m2R meanR sgR (xsR (row x p q)) := by
  unfold stM2
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stXs_apply, stD2_apply, stDc_apply] <;> rfl

/-- The second derivative. -/
theorem stG2_apply (x : FVec Ideal S4x2048x4096 .f32) (p : Fin 4) (q : Fin 2048) (u : Fin 1) :
    stG2 x (no_index (ix3 p q u)) = g2 meanR (m2R meanR sgR (xsR (row x p q))) (xsR (row x p q)) := by
  unfold stG2
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stDvar_apply, stM2_apply] <;> rfl

/-- `λ - 1`. -/
theorem stLm1_apply (x : FVec Ideal S4x2048x4096 .f32) (p : Fin 4) (q : Fin 2048) (u : Fin 1) :
    stLm1 x (no_index (ix3 p q u)) = lm1 meanR sgR (m2R meanR sgR (xsR (row x p q))) (xsR (row x p q)) := by
  unfold stLm1
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stG1_apply, stG2_apply] <;> rfl

/-- `η`. -/
theorem stEta_apply (x : FVec Ideal S4x2048x4096 .f32) (p : Fin 4) (q : Fin 2048) (k : Fin 4096) :
    stEta x (no_index (ix3 p q k)) = eta meanR sgR (m2R meanR sgR (xsR (row x p q))) (xsR (row x p q)) k := by
  unfold stEta
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSg_apply, stLm1_apply] <;> rfl

/-- The sign of `η`. -/
theorem stSignEta_apply (x : FVec Ideal S4x2048x4096 .f32) (p : Fin 4) (q : Fin 2048) (k : Fin 4096) :
    stSignEta x (no_index (ix3 p q k)) = Ideal.sign (eta meanR sgR (m2R meanR sgR (xsR (row x p q))) (xsR (row x p q)) k) := by
  unfold stSignEta
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stEta_apply] <;> rfl

/-- That sign patched at zero. -/
theorem stSgEta_apply (x : FVec Ideal S4x2048x4096 .f32) (p : Fin 4) (q : Fin 2048) (k : Fin 4096) :
    stSgEta x (no_index (ix3 p q k)) = sgR (eta meanR sgR (m2R meanR sgR (xsR (row x p q))) (xsR (row x p q)) k) := by
  unfold stSgEta
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSignEta_apply] <;> rfl

/-- The exponent. -/
theorem stExpo_apply (x : FVec Ideal S4x2048x4096 .f32) (p : Fin 4) (q : Fin 2048) (k : Fin 4096) :
    stExpo x (no_index (ix3 p q k)) = expo meanR sgR (m2R meanR sgR (xsR (row x p q))) (xsR (row x p q)) k := by
  unfold stExpo
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stEta_apply, stSgEta_apply] <;> rfl

/-- The power. -/
theorem stPw_apply (x : FVec Ideal S4x2048x4096 .f32) (p : Fin 4) (q : Fin 2048) (k : Fin 4096) :
    stPw x (no_index (ix3 p q k)) = pwR ((xsR (row x p q)) k) (expo meanR sgR (m2R meanR sgR (xsR (row x p q))) (xsR (row x p q)) k) := by
  unfold stPw
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stAbs_apply, stExpo_apply] <;> rfl

/-- The transformed entry. -/
theorem stTr_apply (x : FVec Ideal S4x2048x4096 .f32) (p : Fin 4) (q : Fin 2048) (k : Fin 4096) :
    stTr x (no_index (ix3 p q k)) = rowR (row x p q) k := by
  unfold stTr
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stSg_apply, stL1p_apply, stEta_apply, stExpo_apply, stPw_apply] <;> rfl

/-- The result at `(p, q, k)`: the transformed entry scaled by the column's weight and shifted by its bias. -/
theorem stOut_apply (x : FVec Ideal S4x2048x4096 .f32) (w b : FVec Ideal S4096 .f32) (p : Fin 4) (q : Fin 2048) (k : Fin 4096) :
    stOut x w b (no_index (ix3 p q k)) = rowR (row x p q) k * w (ix1 k) + b (ix1 k) := by
  unfold stOut
  simp only [hDiv_apply, hSqrt_apply, hSign_apply, hAbs_apply, hLog1p_apply, hPow_apply, cmp_apply, sitofp32_apply, constantI_apply, hSum_apply, mulf_apply, addf_apply, subf_apply, select_apply, constant_apply, id_eq, bc_ab_ab1', bc_ab1_abc', bc_c_11c', bc_11c_abc', bc_scalar', hostSum_row', stTr_apply]

/-- The result stage is the row transform's result array, in the reference's arrangement. -/
theorem stOut_eq_GR (x : FVec Ideal S4x2048x4096 .f32) (w b : FVec Ideal S4096 .f32) : stOut x w b = GR x w b := by
  funext i
  obtain ⟨p, q, k, rfl⟩ : ∃ (p : Fin 4) (q : Fin 2048) (k : Fin 4096), i = ix3 p q k := ⟨i 0, i 1, i 2, eq_ix3 i⟩
  exact stOut_apply x w b p q k

end Cert.ReferenceIdeal.RefValue

end
-- ==== Proof.RefValue.lean ====
/-
  The reference's run: from any memory with zero counters every weakly fair execution of @main terminates with the
  result buffer at the row transform's result array of the three argument arrays, in the reference's arrangement
  (each row standardised by its mean and its guarded variance, sent through the power transform whose exponent is one
  Newton step on the row, scaled by the weights and shifted by the biases), and with the arguments unchanged.
  The run is the straight line of host operations read stretch by stretch down to the named result stage, and that
  stage is the transform's array index by index.
-/
import proofs.«141878_j5377299054673_2_alg».proof.Proof.RefVal2
import proofs.«141878_j5377299054673_2_alg».proof.Proof.RefIdx

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The whole line's fold is the last stretch's contents. -/
theorem after_ops (V0 : Valuation τ sig (Elt Ideal)) : after (ops (F := Ideal)) V0 = val28 V0 := by
  simp only [ops, after_append]
  rfl

/-- On every device, from any memory with zero counters: every weakly fair execution of @main terminates with the result
    at the row transform's array of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101)
          = Cert.PowerNorm.GR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v101).trans (by
        simp only [after_ops]
        exact (val28_main_v101 (launchContents m c)).trans (stOut_eq_GR _ _ _)),
      (h c main_arg0).trans (by simp only [after_ops]; exact val28_main_arg0 (launchContents m c)),
      (h c main_arg1).trans (by simp only [after_ops]; exact val28_main_arg1 (launchContents m c)),
      (h c main_arg2).trans (by simp only [after_ops]; exact val28_main_arg2 (launchContents m c))⟩)
    (run_main m ρ)

end Cert.ReferenceIdeal.RefValue

end
-- ==== Proof.lean ====
/-
  A row-wise normalisation followed by a signed power transform whose exponent is estimated from the row, against its
  array-library reference.

  Both programs send every row `r` of a `[4, 2048, 4096]` input (a row is the last axis, 4096 entries) through the same
  map: standardise the row, `xs = (r - mean r) / sqrt (var r + ε)`; estimate the exponent of a signed power transform by
  one Newton step on the row, `λ = 1 - g1 / (g2 + √ε)`, from row means of `sign xs · log (1 + |xs|)`,
  `d = (1 + |xs|) log (1 + |xs|) - |xs|` and their products; transform each entry,
  `sign xs / e · ((1 + |xs|)^e - 1)` with `e = η + sign η · √ε`, `η = 1 + sign xs · (λ - 1)`, or `sign xs · log (1 + |xs|)` where
  `|η| ≤ √ε`; and scale by the weight and shift by the bias of the entry's column.
  They differ in five spellings, each an identity on the extended reals for a row of real numbers:
  a sum started from the zero literal or not; `sign` patched at zero against a comparison with zero; the variance as
  `E[r²] - E[r]²` times a reciprocal square root against `E[(r - E r)²]` under a square root and a quotient; the spread of
  `d` inside `g2` as `E[d²] - E[d]²` against `E[(d - E d)²]` under one mean; and `exp (e · log (1 + |xs|))` against
  `(1 + |xs|)^e`, which also agree at an infinite exponent (the Newton step divides by a number that may vanish).
  The precondition makes every input entry a real number; the weight and the bias may be any extended reals.

  `Transform` states the row map once with those five spellings as parameters, `TransformLaws` (over `TransformConsts`,
  `TransformReal`, `TransformStd`, `TransformMoments`, `TransformPower`) proves the two arrangements equal on real rows,
  `KernelRow` / `KernelArray` / `KernelValue` read the kernel's result array as the first arrangement of the argument
  arrays, the `Ref…` modules run the reference and read its result as the second, `InputsReal` reads the precondition.
-/
import proofs.«141878_j5377299054673_2_alg».proof.Defs
import proofs.«141878_j5377299054673_2_alg».proof.Proof.Gen.Kernel
import proofs.«141878_j5377299054673_2_alg».proof.Proof.Gen.Kernel.Frame
import proofs.«141878_j5377299054673_2_alg».proof.Proof.Gen.KernelIdeal
import proofs.«141878_j5377299054673_2_alg».proof.Proof.Gen.KernelIdeal.Frame
import proofs.«141878_j5377299054673_2_alg».proof.Proof.Gen.ReferenceIdeal
import proofs.«141878_j5377299054673_2_alg».proof.Proof.Gen.Pre_finite_inputs
import proofs.«141878_j5377299054673_2_alg».proof.Proof.KernelValue
import proofs.«141878_j5377299054673_2_alg».proof.Proof.TransformLaws
import proofs.«141878_j5377299054673_2_alg».proof.Proof.InputsReal
import proofs.«141878_j5377299054673_2_alg».proof.Proof.RefValue
import Idealize.ShloMosaic.Adequacy
import Idealize.ShloMosaic.Init

noncomputable section

/-! ## The five claims -/

namespace Cert.Proof.Claims

open Idealize.ShloMosaic Idealize.SL.Sem Cert.PowerNorm

/-- The word-level kernel runs and leaves its arguments as they were: the generated frame. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.RefValue.run m ρ)

/-- Nothing of the kernel was rewritten for its reading at the extended reals. -/
theorem preserves : Cert.preserves_Kernel_KernelIdeal := trivial

/-- From memories agreeing on the arguments both programs end with the same array: the kernel's is the row transform
    in the first arrangement, the reference's in the second, and on an input whose entries are real numbers — which the
    precondition gives — the two arrangements agree row by row. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact GR_eq_G _ _ _ (fun i => Cert.Pre_finite_inputs.RealInputs.input_real _ _ _ (hpre c) i)

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
